-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v5_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v5_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S2000x10000 : Shape := ⟨2, ![2000, 10000]⟩
abbrev S10000x2000 : Shape := ⟨2, ![10000, 2000]⟩
abbrev S256x256 : Shape := ⟨2, ![256, 256]⟩
abbrev S256 : Shape := ⟨1, ![256]⟩
abbrev S768x256 : Shape := ⟨2, ![768, 256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S2000x10000 : S_.BroadcastsInDim S2000x10000 (![] : Fin 0 → Fin S2000x10000.rank)
  reducesTo_S2000x10000_S_d0_1 : S2000x10000.ReducesTo [0, 1] S_
  bcast_S_S10000x2000 : S_.BroadcastsInDim S10000x2000 (![] : Fin 0 → Fin S10000x2000.rank)
  reducesTo_S10000x2000_S_d0_1 : S10000x2000.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S768x256 : S_.BroadcastsInDim S768x256 (![] : Fin 0 → Fin S768x256.rank)
  reducesTo_S768x256_S_d0_1 : S768x256.ReducesTo [0, 1] S_

variable [Facts]

def fn_part3 {F : FTy → Type} [FloatOps F] (main_arg11 : FVec F S256 .f32) (main_v48 : IVec S_ 1) (main_v49 : FVec F S768x256 .f32) (main_v50 : FVec F S768x256 .f32) : IVec S_ 1 :=
  let main_v51 : IVec S768x256 1 := cmpf .olt main_v49 main_v50
  let main_c_19 : IVec S_ 1 := constantI S_ 1 1#1
  let main_v52 : IVec S_ 1 := (fun x v => Host.reduce IntOp.andi x v reducesTo_S768x256_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  main_v58

def fn_part2 {F : FTy → Type} [FloatOps F] (main_arg7 : FVec F S256 .f32) (main_arg8 : FVec F S256x256 .f32) (main_arg9 : FVec F S256 .f32) (main_arg10 : FVec F S768x256 .f32) (main_arg11 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S768x256 .f32 := Host.absf main_arg10
  let main_cst_18 : FVec F S_ .f32 := constant S_ .f32 0x7F800000#32
  let main_v50 : FVec F S768x256 .f32 := broadcastInDim S768x256 ![] bcast_S_S768x256 main_cst_18
  fn_part3 (F := F) main_arg11 main_v48 main_v49 main_v50

def fn_part1 {F : FTy → Type} [FloatOps F] (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S768x256 .f32) (main_arg11 : FVec F S256 .f32) (main_v13 : IVec S_ 1) (main_v16 : IVec S10000x2000 1) : IVec S_ 1 :=
  let main_c_5 : IVec S_ 1 := constantI S_ 1 1#1
  let main_v17 : IVec S_ 1 := (fun x v => Host.reduce IntOp.andi x v reducesTo_S10000x2000_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S10000x256 .f32) (main_arg1 : FVec F S10000x10000 .f32) (main_arg2 : FVec F S2000x10000 .f32) (main_arg3 : FVec F S10000x2000 .f32) (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S768x256 .f32) (main_arg11 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S2000x10000 .f32 := Host.absf main_arg2
  let main_cst_2 : FVec F S_ .f32 := constant S_ .f32 0x7F800000#32
  let main_v10 : FVec F S2000x10000 .f32 := broadcastInDim S2000x10000 ![] bcast_S_S2000x10000 main_cst_2
  let main_v11 : IVec S2000x10000 1 := cmpf .olt main_v9 main_v10
  let main_c_3 : IVec S_ 1 := constantI S_ 1 1#1
  let main_v12 : IVec S_ 1 := (fun x v => Host.reduce IntOp.andi x v reducesTo_S2000x10000_S_d0_1 h_S_) main_v11 main_c_3
  let main_v13 : IVec S_ 1 := andi main_v8 main_v12
  let main_v14 : FVec F S10000x2000 .f32 := Host.absf main_arg3
  let main_cst_4 : FVec F S_ .f32 := constant S_ .f32 0x7F800000#32
  let main_v15 : FVec F S10000x2000 .f32 := broadcastInDim S10000x2000 ![] bcast_S_S10000x2000 main_cst_4
  let main_v16 : IVec S10000x2000 1 := cmpf .olt main_v14 main_v15
  fn_part1 (F := F) main_arg4 main_arg5 main_arg6 main_arg7 main_arg8 main_arg9 main_arg10 main_arg11 main_v13 main_v16
-- ==== Kernel.lean ====
abbrev S10000x256 : Shape := ⟨2, ![10000, 256]⟩
abbrev S10000x10000 : Shape := ⟨2, ![10000, 10000]⟩
abbrev S2000x10000 : Shape := ⟨2, ![2000, 10000]⟩
abbrev S10000x2000 : Shape := ⟨2, ![10000, 2000]⟩
abbrev S256x256 : Shape := ⟨2, ![256, 256]⟩
abbrev S256 : Shape := ⟨1, ![256]⟩
abbrev S768x256 : Shape := ⟨2, ![768, 256]⟩
abbrev S1x256 : Shape := ⟨2, ![1, 256]⟩
abbrev S2000x256 : Shape := ⟨2, ![2000, 256]⟩
abbrev S400x10000 : Shape := ⟨2, ![400, 10000]⟩
abbrev S400x256 : Shape := ⟨2, ![400, 256]⟩
abbrev S200x10000 : Shape := ⟨2, ![200, 10000]⟩
abbrev S200x256 : Shape := ⟨2, ![200, 256]⟩

abbrev nBuf : Space → Nat
  | .hbm => 21
  | .vmem => 32
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S2000x10000, .f32⟩
  | .hbm, ⟨3, _⟩ => ⟨S10000x2000, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S768x256, .f32⟩
  | .hbm, ⟨11, _⟩ => ⟨S256, .f32⟩
  | .hbm, ⟨12, _⟩ => ⟨S1x256, .f32⟩
  | .hbm, ⟨13, _⟩ => ⟨S1x256, .f32⟩
  | .hbm, ⟨14, _⟩ => ⟨S1x256, .f32⟩
  | .hbm, ⟨15, _⟩ => ⟨S1x256, .f32⟩
  | .hbm, ⟨16, _⟩ => ⟨S2000x10000, .f32⟩
  | .hbm, ⟨17, _⟩ => ⟨S2000x256, .f32⟩
  | .hbm, ⟨18, _⟩ => ⟨S2000x256, .f32⟩
  | .hbm, ⟨19, _⟩ => ⟨S10000x256, .bf16⟩
  | .hbm, ⟨20, _⟩ => ⟨S10000x256, .f32⟩
  | .local _ .vmem, ⟨0, _⟩ => ⟨S400x10000, .f32⟩
  | .local _ .vmem, ⟨1, _⟩ => ⟨S400x10000, .f32⟩
  | .local _ .vmem, ⟨2, _⟩ => ⟨S10000x256, .f32⟩
  | .local _ .vmem, ⟨3, _⟩ => ⟨S256x256, .f32⟩
  | .local _ .vmem, ⟨4, _⟩ => ⟨S1x256, .f32⟩
  | .local _ .vmem, ⟨5, _⟩ => ⟨S256x256, .f32⟩
  | .local _ .vmem, ⟨6, _⟩ => ⟨S1x256, .f32⟩
  | .local _ .vmem, ⟨7, _⟩ => ⟨S400x256, .f32⟩
  | .local _ .vmem, ⟨8, _⟩ => ⟨S400x256, .f32⟩
  | .local _ .vmem, ⟨9, _⟩ => ⟨S400x256, .f32⟩
  | .local _ .vmem, ⟨10, _⟩ => ⟨S400x256, .f32⟩
  | .local _ .vmem, ⟨11, _⟩ => ⟨S10000x256, .bf16⟩
  | .local _ .vmem, ⟨12, _⟩ => ⟨S400x10000, .f32⟩
  | .local _ .vmem, ⟨13, _⟩ => ⟨S400x10000, .f32⟩
  | .local _ .vmem, ⟨14, _⟩ => ⟨S400x256, .f32⟩
  | .local _ .vmem, ⟨15, _⟩ => ⟨S400x256, .f32⟩
  | .local _ .vmem, ⟨16, _⟩ => ⟨S10000x256, .bf16⟩
  | .local _ .vmem, ⟨17, _⟩ => ⟨S10000x256, .f32⟩
  | .local _ .vmem, ⟨18, _⟩ => ⟨S200x10000, .f32⟩
  | .local _ .vmem, ⟨19, _⟩ => ⟨S200x10000, .f32⟩
  | .local _ .vmem, ⟨20, _⟩ => ⟨S200x10000, .f32⟩
  | .local _ .vmem, ⟨21, _⟩ => ⟨S200x10000, .f32⟩
  | .local _ .vmem, ⟨22, _⟩ => ⟨S10000x256, .f32⟩
  | .local _ .vmem, ⟨23, _⟩ => ⟨S400x256, .bf16⟩
  | .local _ .vmem, ⟨24, _⟩ => ⟨S400x256, .bf16⟩
  | .local _ .vmem, ⟨25, _⟩ => ⟨S256x256, .f32⟩
  | .local _ .vmem, ⟨26, _⟩ => ⟨S1x256, .f32⟩
  | .local _ .vmem, ⟨27, _⟩ => ⟨S768x256, .f32⟩
  | .local _ .vmem, ⟨28, _⟩ => ⟨S1x256, .f32⟩
  | .local _ .vmem, ⟨29, _⟩ => ⟨S400x256, .f32⟩
  | .local _ .vmem, ⟨30, _⟩ => ⟨S400x256, .f32⟩
  | .local _ .vmem, ⟨31, _⟩ => ⟨S10000x256, .bf16⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5_0 : Ref sig .tc := ⟨.hbm, 17, rfl⟩
abbrev main_v5_1 : Ref sig .tc := ⟨.hbm, 18, rfl⟩
abbrev main_v6 : Ref sig .tc := ⟨.hbm, 19, rfl⟩
abbrev main_v7 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg3_1 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg8_0 : Ref sig .tc := ⟨.vmem, 29, rfl⟩
abbrev cc2_stg8_1 : Ref sig .tc := ⟨.vmem, 30, rfl⟩
abbrev cc2_scratch0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem3_1 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem8_0 : DmaSem sig := 27
abbrev cc2_sem8_1 : DmaSem sig := 28

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S400x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S400x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![5], ![false]⟩

def k1_cond3 (i : grid1.Coords) : BitVec 1 :=
  let arg0 : BitVec 32 := BitVec.ofNat 32 (i 0).val
  let c4_i32 : BitVec 32 := 4#32
  let v13 : BitVec 1 := Scalar.cmpi .eq arg0 c4_i32
  let v14 : BitVec 32 := Scalar.extui v13
  let c0_i32_6 : BitVec 32 := 0#32
  let v15 : BitVec 1 := Scalar.cmpi .ne v14 c0_i32_6
  v15

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S400x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S10000x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![25], ![false]⟩

def k2_off1 (i : grid2.Coords) (c0_i32_5 : BitVec 32) : Fin 2 → Nat :=
  let arg0 : BitVec 32 := BitVec.ofNat 32 (i 0).val
  let c400_i32 : BitVec 32 := 400#32
  let v9 : BitVec 32 := Scalar.muli arg0 c400_i32
  let v10 : BitVec 32 := Scalar.addi v9 c0_i32_5
  let v11 : Index := Scalar.indexCast v10
  let c0_6 : Index := 0#32
  ![v11.toNat, 0]
def cc2_transform_0 (i : grid2.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc2_transform_1 (i : grid2.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S200x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S200x10000 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S10000x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S400x256 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S768x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S400x256 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  shapeCasts_S256_S1x256 : S256.ShapeCasts S1x256
  transposes_S10000x2000_S2000x10000_1_0 : S10000x2000.Transposes [1, 0] S2000x10000
  inb_S10000x256_S10000x256_0_0 : ∀ a, (![0, 0] : Fin 2 → Nat) a + S10000x256.size a ≤ S10000x256.size a
  h_S10000x256 : 0 < S10000x256.numel
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S10000x256 : S1x256.Broadcasts S10000x256
  bitsLt_bf16_f32 : FTy.bits .bf16 < FTy.bits .f32
  shapeCasts_S10000x256_S10000x256 : S10000x256.ShapeCasts S10000x256
  packedbf16_S10000x256_S10000x256_0_0 : (Rect.unit (s := S10000x256) ![0, 0] S10000x256.size inb_S10000x256_S10000x256_0_0).PackedRows (EltTy.packing .bf16)
  inb_S400x10000_S400x10000_0_0 : ∀ a, (![0, 0] : Fin 2 → Nat) a + S400x10000.size a ≤ S400x10000.size a
  h_S400x10000 : 0 < S400x10000.numel
  inb_S400x256_S400x256_0_0 : ∀ a, (![0, 0] : Fin 2 → Nat) a + S400x256.size a ≤ S400x256.size a
  h_S400x256 : 0 < S400x256.numel
  broadcasts_S1x256_S400x256 : S1x256.Broadcasts S400x256
  shapeCasts_S400x10000_S400x10000 : S400x10000.ShapeCasts S400x10000
  shapeCasts_S400x256_S400x256 : S400x256.ShapeCasts S400x256
  inb_S200x10000_S200x10000_0_0 : ∀ a, (![0, 0] : Fin 2 → Nat) a + S200x10000.size a ≤ S200x10000.size a
  h_S200x10000 : 0 < S200x10000.numel
  h_S200x256 : 0 < S200x256.numel
  inb_S768x256_S256x256_0_0 : ∀ a, (![0, 0] : Fin 2 → Nat) a + S256x256.size a ≤ S768x256.size a
  inb_S768x256_S256x256_256_0 : ∀ a, (![256, 0] : Fin 2 → Nat) a + S256x256.size a ≤ S768x256.size a
  inb_S400x256_S200x256_0_0 : ∀ a, (![0, 0] : Fin 2 → Nat) a + S200x256.size a ≤ S400x256.size a
  shapeCasts_S200x256_S200x256 : S200x256.ShapeCasts S200x256
  inb_S768x256_S256x256_512_0 : ∀ a, (![512, 0] : Fin 2 → Nat) a + S256x256.size a ≤ S768x256.size a
  broadcasts_S1x256_S200x256 : S1x256.Broadcasts S200x256
  inb_S400x256_S200x256_200_0 : ∀ a, (![200, 0] : Fin 2 → Nat) a + S200x256.size a ≤ S400x256.size a
  dot_S10000x256_S256x256_S10000x256_1_0_0_1_n_n_wf : DotDims.WF S10000x256 S256x256 S10000x256 [1] [0] [0] [1] [] []
  dot_S400x10000_S10000x256_S400x256_1_0_0_1_n_n_wf : DotDims.WF S400x10000 S10000x256 S400x256 [1] [0] [0] [1] [] []
  dot_S400x256_S256x256_S400x256_1_0_0_1_n_n_wf : DotDims.WF S400x256 S256x256 S400x256 [1] [0] [0] [1] [] []
  dot_S400x10000_S400x256_S10000x256_0_0_1_1_n_n_wf : DotDims.WF S400x10000 S400x256 S10000x256 [0] [0] [1] [1] [] []
  dot_S200x10000_S10000x256_S200x256_1_0_0_1_n_n_wf : DotDims.WF S200x10000 S10000x256 S200x256 [1] [0] [0] [1] [] []
  dot_S200x256_S256x256_S200x256_1_0_0_1_n_n_wf : DotDims.WF S200x256 S256x256 S200x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S2000x10000.size a
  hwx0_0 : ∀ i : grid0.Coords, EltTy.bits .f32 = 32 ∨ (Rect.block (s := S2000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x256.size a ≤ S10000x256.size a
  hwx0_1 : ∀ i : grid0.Coords, EltTy.bits .f32 = 32 ∨ (Rect.block (s := S10000x256) S10000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x256.size a ≤ S2000x256.size a
  hwx0_6 : ∀ i : grid0.Coords, EltTy.bits .f32 = 32 ∨ (Rect.block (s := S2000x256) S400x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S400x256.size a ≤ S2000x256.size a
  hwx0_7 : ∀ i : grid0.Coords, EltTy.bits .f32 = 32 ∨ (Rect.block (s := S2000x256) S400x256.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S2000x10000.size a
  hwx1_0 : ∀ i : grid1.Coords, EltTy.bits .f32 = 32 ∨ (Rect.block (s := S2000x10000) S400x10000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S400x256.size a ≤ S2000x256.size a
  hwx1_1 : ∀ i : grid1.Coords, EltTy.bits .f32 = 32 ∨ (Rect.block (s := S2000x256) S400x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S10000x256.size a ≤ S10000x256.size a
  hwx1_2 : ∀ i : grid1.Coords, EltTy.bits .bf16 = 32 ∨ (Rect.block (s := S10000x256) S10000x256.size (cc1_transform_2 i) (hinb1_2 i)).WholeWords (EltTy.packing .bf16)
  hrank2 : 0 < grid2.rank
  k2_off1_inb : ∀ i : grid2.Coords, ∀ (r : Fin 2), ∀ a, (k2_off1 i (BitVec.ofNat 32 (200 * r.val))) a + S200x256.size a ≤ S10000x256.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S200x10000.size a ≤ S10000x10000.size a
  hwx2_0 : ∀ i : grid2.Coords, EltTy.bits .f32 = 32 ∨ (Rect.block (s := S10000x10000) S200x10000.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S200x10000.size a ≤ S10000x10000.size a
  hwx2_1 : ∀ i : grid2.Coords, EltTy.bits .f32 = 32 ∨ (Rect.block (s := S10000x10000) S200x10000.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S10000x256.size a ≤ S10000x256.size a
  hwx2_2 : ∀ i : grid2.Coords, EltTy.bits .f32 = 32 ∨ (Rect.block (s := S10000x256) S10000x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x256.size a ≤ S10000x256.size a
  hwx2_3 : ∀ i : grid2.Coords, EltTy.bits .bf16 = 32 ∨ (Rect.block (s := S10000x256) S400x256.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S768x256.size a ≤ S768x256.size a
  hwx2_6 : ∀ i : grid2.Coords, EltTy.bits .f32 = 32 ∨ (Rect.block (s := S768x256) S768x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x256.size a ≤ S1x256.size a
  hwx2_7 : ∀ i : grid2.Coords, EltTy.bits .f32 = 32 ∨ (Rect.block (s := S1x256) S1x256.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S400x256.size a ≤ S10000x256.size a
  hwx2_8 : ∀ i : grid2.Coords, EltTy.bits .f32 = 32 ∨ (Rect.block (s := S10000x256) S400x256.size (cc2_transform_8 i) (hinb2_8 i)).WholeWords (EltTy.packing .f32)

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf
def dot_S400x256_S256x256_S400x256_1_0_0_1_n_n : DotDims S400x256 S256x256 S400x256 where
  lhsContracting := [1]
  rhsContracting := [0]
  lhsNonContracting := [0]
  rhsNonContracting := [1]
  lhsBatch := []
  rhsBatch := []
  wf := dot_S400x256_S256x256_S400x256_1_0_0_1_n_n_wf
def dot_S400x10000_S400x256_S10000x256_0_0_1_1_n_n : DotDims S400x10000 S400x256 S10000x256 where
  lhsContracting := [0]
  rhsContracting := [0]
  lhsNonContracting := [1]
  rhsNonContracting := [1]
  lhsBatch := []
  rhsBatch := []
  wf := dot_S400x10000_S400x256_S10000x256_0_0_1_1_n_n_wf
def dot_S200x10000_S10000x256_S200x256_1_0_0_1_n_n : DotDims S200x10000 S10000x256 S200x256 where
  lhsContracting := [1]
  rhsContracting := [0]
  lhsNonContracting := [0]
  rhsNonContracting := [1]
  lhsBatch := []
  rhsBatch := []
  wf := dot_S200x10000_S10000x256_S200x256_1_0_0_1_n_n_wf
def dot_S200x256_S256x256_S200x256_1_0_0_1_n_n : DotDims S200x256 S256x256 S200x256 where
  lhsContracting := [1]
  rhsContracting := [0]
  lhsNonContracting := [0]
  rhsNonContracting := [1]
  lhsBatch := []
  rhsBatch := []
  wf := dot_S200x256_S256x256_S200x256_1_0_0_1_n_n_wf

abbrev win0_0 : Pipeline.Window sig grid0 :=
  Pipeline.Window.ofSpec (Memref.whole main_arg2) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5_0) S400x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5_1) S400x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v4) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5_1) S400x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S10000x256.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond3 i == 1#1) | ⟨_ + 3, h⟩ => absurd h (Nat.not_lt.2 (Nat.le_add_left _ _))

abbrev win2_0 : Pipeline.Window sig grid2 :=
  Pipeline.Window.ofSpec (Memref.whole main_arg1) S200x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S200x10000.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg0) S10000x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6) S400x256.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg4) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v0) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg10) S768x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v3) S1x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v7) S400x256.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S10000x256 : Shape := ⟨2, ![10000, 256]⟩
abbrev S10000x10000 : Shape := ⟨2, ![10000, 10000]⟩
abbrev S2000x10000 : Shape := ⟨2, ![2000, 10000]⟩
abbrev S10000x2000 : Shape := ⟨2, ![10000, 2000]⟩
abbrev S256x256 : Shape := ⟨2, ![256, 256]⟩
abbrev S256 : Shape := ⟨1, ![256]⟩
abbrev S768x256 : Shape := ⟨2, ![768, 256]⟩
abbrev S1x256 : Shape := ⟨2, ![1, 256]⟩
abbrev S_ : Shape := ⟨0, ![]⟩
abbrev S2000x256 : Shape := ⟨2, ![2000, 256]⟩
abbrev S10000x768 : Shape := ⟨2, ![10000, 768]⟩

abbrev nBuf : Space → Nat
  | .hbm => 41
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S2000x10000, .f32⟩
  | .hbm, ⟨3, _⟩ => ⟨S10000x2000, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S768x256, .f32⟩
  | .hbm, ⟨11, _⟩ => ⟨S256, .f32⟩
  | .hbm, ⟨12, _⟩ => ⟨S10000x256, .f32⟩
  | .hbm, ⟨13, _⟩ => ⟨S1x256, .f32⟩
  | .hbm, ⟨14, _⟩ => ⟨S10000x256, .f32⟩
  | .hbm, ⟨15, _⟩ => ⟨S10000x256, .f32⟩
  | .hbm, ⟨16, _⟩ => ⟨S10000x256, .f32⟩
  | .hbm, ⟨17, _⟩ => ⟨S_, .f32⟩
  | .hbm, ⟨18, _⟩ => ⟨S10000x256, .f32⟩
  | .hbm, ⟨19, _⟩ => ⟨S10000x256, .f32⟩
  | .hbm, ⟨20, _⟩ => ⟨S10000x256, .f32⟩
  | .hbm, ⟨21, _⟩ => ⟨S1x256, .f32⟩
  | .hbm, ⟨22, _⟩ => ⟨S10000x256, .f32⟩
  | .hbm, ⟨23, _⟩ => ⟨S10000x256, .f32⟩
  | .hbm, ⟨24, _⟩ => ⟨S2000x256, .f32⟩
  | .hbm, ⟨25, _⟩ => ⟨S_, .f32⟩
  | .hbm, ⟨26, _⟩ => ⟨S2000x256, .f32⟩
  | .hbm, ⟨27, _⟩ => ⟨S2000x256, .f32⟩
  | .hbm, ⟨28, _⟩ => ⟨S2000x256, .f32⟩
  | .hbm, ⟨29, _⟩ => ⟨S1x256, .f32⟩
  | .hbm, ⟨30, _⟩ => ⟨S2000x256, .f32⟩
  | .hbm, ⟨31, _⟩ => ⟨S2000x256, .f32⟩
  | .hbm, ⟨32, _⟩ => ⟨S10000x256, .f32⟩
  | .hbm, ⟨33, _⟩ => ⟨S_, .f32⟩
  | .hbm, ⟨34, _⟩ => ⟨S10000x256, .f32⟩
  | .hbm, ⟨35, _⟩ => ⟨S10000x256, .f32⟩
  | .hbm, ⟨36, _⟩ => ⟨S10000x768, .f32⟩
  | .hbm, ⟨37, _⟩ => ⟨S10000x256, .f32⟩
  | .hbm, ⟨38, _⟩ => ⟨S1x256, .f32⟩
  | .hbm, ⟨39, _⟩ => ⟨S10000x256, .f32⟩
  | .hbm, ⟨40, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call0_cst : Ref sig .tc := ⟨.hbm, 17, rfl⟩
abbrev main_call0_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_call1_cst : Ref sig .tc := ⟨.hbm, 25, rfl⟩
abbrev main_call1_v0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_call2_cst : Ref sig .tc := ⟨.hbm, 33, rfl⟩
abbrev main_call2_v0 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  bcast_S_S2000x256 : S_.BroadcastsInDim S2000x256 (![] : Fin 0 → Fin S2000x256.rank)
  bcast_S1x256_S2000x256_0_1 : S1x256.BroadcastsInDim S2000x256 (![0, 1] : Fin 2 → Fin S2000x256.rank)
  concatenates_S10000x256_S10000x256_S10000x256_S10000x768_d1 : Shape.Concatenates [S10000x256, S10000x256, S10000x256] S10000x768 1
  dot_S10000x256_S256x256_S10000x256_1_0_0_1_n_n_wf : DotDims.WF S10000x256 S256x256 S10000x256 [1] [0] [0] [1] [] []
  dot_S10000x10000_S10000x256_S10000x256_1_0_0_1_n_n_wf : DotDims.WF S10000x10000 S10000x256 S10000x256 [1] [0] [0] [1] [] []
  dot_S2000x10000_S10000x256_S2000x256_1_0_0_1_n_n_wf : DotDims.WF S2000x10000 S10000x256 S2000x256 [1] [0] [0] [1] [] []
  dot_S2000x256_S256x256_S2000x256_1_0_0_1_n_n_wf : DotDims.WF S2000x256 S256x256 S2000x256 [1] [0] [0] [1] [] []
  dot_S10000x2000_S2000x256_S10000x256_1_0_0_1_n_n_wf : DotDims.WF S10000x2000 S2000x256 S10000x256 [1] [0] [0] [1] [] []
  dot_S10000x768_S768x256_S10000x256_1_0_0_1_n_n_wf : DotDims.WF S10000x768 S768x256 S10000x256 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf
def dot_S2000x10000_S10000x256_S2000x256_1_0_0_1_n_n : DotDims S2000x10000 S10000x256 S2000x256 where
  lhsContracting := [1]
  rhsContracting := [0]
  lhsNonContracting := [0]
  rhsNonContracting := [1]
  lhsBatch := []
  rhsBatch := []
  wf := dot_S2000x10000_S10000x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S10000x2000_S2000x256_S10000x256_1_0_0_1_n_n : DotDims S10000x2000 S2000x256 S10000x256 where
  lhsContracting := [1]
  rhsContracting := [0]
  lhsNonContracting := [0]
  rhsNonContracting := [1]
  lhsBatch := []
  rhsBatch := []
  wf := dot_S10000x2000_S2000x256_S10000x256_1_0_0_1_n_n_wf
def dot_S10000x768_S768x256_S10000x256_1_0_0_1_n_n : DotDims S10000x768 S768x256 S10000x256 where
  lhsContracting := [1]
  rhsContracting := [0]
  lhsNonContracting := [0]
  rhsNonContracting := [1]
  lhsBatch := []
  rhsBatch := []
  wf := dot_S10000x768_S768x256_S10000x256_1_0_0_1_n_n_wf

class Facts : Prop extends Facts₀ where

variable [Facts]
-- ==== Proof.KReg0.lean ====
import proofs.«172434_g28836410425910_retrytranche2_620_32_alg».proof.Proof.Gen.Kernel.Launch
import proofs.«172434_g28836410425910_retrytranche2_620_32_alg».proof.Proof.Gen.Kernel.Skeleton
import proofs.«172434_g28836410425910_retrytranche2_620_32_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

/-- The condition of the body's conditional, from the grid coordinates. -/
abbrev cond0 (i : grid0.Coords) : Prop := Scalar.cmpi .ne (Scalar.extui (Scalar.cmpi .eq (BitVec.ofNat 32 (i 0).val) 0#32)) 0#32 = 1#1
/-- It holds at the first point only — decided over the grid. -/
theorem hcond0 : ∀ t : Fin cfg0.N, cond0 (grid0.coords t) ↔ t.val = 0 :=
  (by decide +kernel : ∀ t : Fin grid0.N, cond0 (grid0.coords t) ↔ t.val = 0)

/-- The zero offsets of a rank-two rectangle, as a constant function. -/
theorem hz2 : (![0, 0] : Fin 2 → Nat) = fun _ => 0 := funext fun a => by fin_cases a <;> rfl

/-- One store through the whole-shape rectangle covers the shape. -/
theorem cover_whole {S : Shape} {e : EltTy} {off : Fin S.rank → Nat} (h : off = fun _ => 0) (inb : ∀ a, off a + S.size a ≤ S.size a)
    (p : (Rect.unit off S.size inb).shape.Idx → Elt F e) (y : S.Idx) :
    ∃ pc ∈ ([⟨Rect.unit off S.size inb, p⟩] : List (View.Piece (Elt F) S e)), y ∈ pc.1.set :=
  ⟨_, List.mem_singleton_self _, View.mem_set_unit_zero h inb y⟩

set_option maxHeartbeats 2000000 in
/-- The body at the first point (the condition holds): on whole staging memrefs, the inputs' at read contents `x·`, the
    outputs' and the scratch at anything, it runs to the continuation holding the inputs' as they were, the scratch at
    the projection `k0_pay1 x1 x2 x3` and the two outputs at their payloads over the block and that projection. -/
theorem sound_first (c : Dev nD) (E : Set ℕ) (i : grid0.Coords) (arg1 : Memref sig .tc .vmem S400x10000 .f32) (harg1 : arg1.IsWhole) (arg2 : Memref sig .tc .vmem S10000x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S400x256 .f32) (harg7 : arg7.IsWhole) (arg8 : Memref sig .tc .vmem S400x256 .f32) (harg8 : arg8.IsWhole) (arg9 : Memref sig .tc .vmem S10000x256 .bf16) (harg9 : arg9.IsWhole)
    (hc : cond0 i) (x0 : Vec F S400x10000 .f32) (x1 : Vec F S10000x256 .f32) (x2 : Vec F S256x256 .f32) (x3 : Vec F S1x256 .f32) (x4 : Vec F S256x256 .f32) (x5 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (k0_pay2 x0 (k0_pay1 x1 x2 x3))
            ∗ owns (c : Thread nD τ) arg8 fullShare (k0_pay3 x0 (k0_pay1 x1 x2 x3) x4 x5)
            ∗ owns (c : Thread nD τ) arg9 fullShare (k0_pay1 x1 x2 x3)) -∗ K ⟨⟩))
      ⊢ wp frame (wpE (defs₀ (F := F)) Variants.none c none) E (cc0__hyper_body i arg1 harg1 arg2 harg2 arg3 harg3 arg4 harg4 arg5 harg5 arg6 harg6 arg7 harg7 arg8 harg8 arg9 harg9) K := by
  simp only [cc0__hyper_body_eq_skeleton]; unfold cc0__hyper_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec (disch := first | exact hc)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    rw [View.read_writes_eq_canon _ _ _ (cover_whole hz2 _ _), View.canon_unit_zero hz2]
    sl_unfold_run_names
    rw [View.readCov_unit_zero _ hz2]
    simp only [View.readAt_eq_ld, View.ld_unit_zero (S := S400x10000) hz2, View.ld_unit_zero (S := S10000x256) hz2, View.ld_unit_zero (S := S256x256) hz2, View.ld_unit_zero (S := S1x256) hz2, View.ld_unit_zero (S := S400x256) hz2]
  isplitl [H7]
  · iexists _; isplitr
    swap; · iexact H7
    ipureintro
    rw [View.read_writes_eq_canon _ _ _ (cover_whole hz2 _ _), View.canon_unit_zero hz2]
    sl_unfold_run_names
    rw [View.readCov_unit_zero _ hz2]
    simp only [View.readAt_eq_ld, View.ld_unit_zero (S := S400x10000) hz2, View.ld_unit_zero (S := S10000x256) hz2, View.ld_unit_zero (S := S256x256) hz2, View.ld_unit_zero (S := S1x256) hz2, View.ld_unit_zero (S := S400x256) hz2]
  iexists _; isplitr
  swap; · iexact H8
  ipureintro
  sl_unfold_run_names
  rw [View.read_writes_eq_canon _ _ _ (cover_whole hz2 _ _), View.canon_unit_zero hz2]
  simp only [View.readAt_eq_ld, View.ld_unit_zero (S := S400x10000) hz2, View.ld_unit_zero (S := S10000x256) hz2, View.ld_unit_zero (S := S256x256) hz2, View.ld_unit_zero (S := S1x256) hz2, View.ld_unit_zero (S := S400x256) hz2]

set_option maxHeartbeats 2000000 in
/-- The body at a later point (the condition fails): the scratch, held at `xs`, is read and left as it is; the two
    outputs are left at their payloads over the block and `xs`. -/
theorem sound_later (c : Dev nD) (E : Set ℕ) (i : grid0.Coords) (arg1 : Memref sig .tc .vmem S400x10000 .f32) (harg1 : arg1.IsWhole) (arg2 : Memref sig .tc .vmem S10000x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S400x256 .f32) (harg7 : arg7.IsWhole) (arg8 : Memref sig .tc .vmem S400x256 .f32) (harg8 : arg8.IsWhole) (arg9 : Memref sig .tc .vmem S10000x256 .bf16) (harg9 : arg9.IsWhole)
    (hc : ¬cond0 i) (x0 : Vec F S400x10000 .f32) (x1 : Vec F S10000x256 .f32) (x2 : Vec F S256x256 .f32) (x3 : Vec F S1x256 .f32) (x4 : Vec F S256x256 .f32) (x5 : Vec F S1x256 .f32) (xs : Vec F S10000x256 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ owns (c : Thread nD τ) arg9 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (k0_pay2 x0 xs)
            ∗ owns (c : Thread nD τ) arg8 fullShare (k0_pay3 x0 xs x4 x5)
            ∗ owns (c : Thread nD τ) arg9 fullShare xs) -∗ K ⟨⟩))
      ⊢ wp frame (wpE (defs₀ (F := F)) Variants.none c none) E (cc0__hyper_body i arg1 harg1 arg2 harg2 arg3 harg3 arg4 harg4 arg5 harg5 arg6 harg6 arg7 harg7 arg8 harg8 arg9 harg9) K := by
  simp only [cc0__hyper_body_eq_skeleton]; unfold cc0__hyper_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, Hk⟩
  subst hf0 hf1 hf2 hf3 hf4 hf5 hf8
  sl_exec (disch := first | exact hc)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    rw [View.read_writes_eq_canon _ _ _ (cover_whole hz2 _ _), View.canon_unit_zero hz2]
    simp only [View.readAt_eq_ld, View.ld_unit_zero (S := S400x10000) hz2, View.ld_unit_zero (S := S10000x256) hz2, View.ld_unit_zero (S := S256x256) hz2, View.ld_unit_zero (S := S1x256) hz2, View.ld_unit_zero (S := S400x256) hz2]
  isplitl [H7]
  · iexists _; isplitr
    swap; · iexact H7
    ipureintro
    rw [View.read_writes_eq_canon _ _ _ (cover_whole hz2 _ _), View.canon_unit_zero hz2]
    simp only [View.readAt_eq_ld, View.ld_unit_zero (S := S400x10000) hz2, View.ld_unit_zero (S := S10000x256) hz2, View.ld_unit_zero (S := S256x256) hz2, View.ld_unit_zero (S := S1x256) hz2, View.ld_unit_zero (S := S400x256) hz2]
  iexists f8; isplitr; · ipureintro; rfl
  iexact H8

-- the TensorCore's buffer contents when the region is entered: a PARAMETER
variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, fetched there or not, for any proof
    data whose array is `V`'s and whose body leaves the block in place: unfetched, the block index has not moved. -/

theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The first point of the grid. -/
def t00 : Fin cfg0.N := ⟨0, by decide⟩

/-- What the scratch holds from the first point on: the projection of the whole first operand, computed once. -/
def scr (c : Dev nD) : Vec F S10000x256 .bf16 := k0_pay1 (iblk V c 1 t00) (iblk V c 2 t00) (iblk V c 3 t00)

/-- The invariant before point `t`: the scoped rest but the scratch, the generator register at some state, and the
    scratch whole at some contents — from the second point on, the projection `scr`. -/
def Phi (c : Dev nD) (n : ℕ) : sProp 𝕄 :=
  iprop(Pipeline.scopedRestBut (Ix := Unit) (Name := ℕ) (U := UR sig nD τ) (Lvl := ℕ) (Val := Elt F) spec0 c [cc0_scratch0]
    ∗ (∃ r, prngReg c r)
    ∗ ∃ f : Vec F S10000x256 .bf16, owns (c : Thread nD τ) (Memref.whole cc0_scratch0) fullShare f ∗ ⌜n ≠ 0 → f = scr V c⌝)

/-- The proof data of the region on core `c`: the arrays as the region finds them; after the body at point `t` each
    input's buffer at its block, the two outputs' at their payloads over the block and the projection; nothing owed;
    full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => k0_pay2 (iblk V c 0 t) (scr V c)
    | ⟨7, _⟩ => k0_pay3 (iblk V c 0 t) (scr V c) (iblk V c 4 t) (iblk V c 5 t)
  Φ t := Phi V c t.val
  q _ := fullShare
  owed _ := 0

theorem A_eq (c : Dev nD) (w : Fin cfg0.W) : (dat V c).A w = V c (Pipeline.arrRef spec0 w) := by
  dsimp only [dat]
theorem q_eq (c : Dev nD) (w : Fin cfg0.W) : (dat V c).q w = fullShare := by
  dsimp only [dat]
theorem owed_eq (c : Dev nD) (t : Fin (cfg0.N + 1)) : (dat V c).owed t = 0 := by
  dsimp only [dat]
theorem Phi_eq (c : Dev nD) (t : Fin (cfg0.N + 1)) : (dat V c).Φ t = Phi V c t.val := by
  dsimp only [dat]

theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = iblk V c 4 t := by dsimp only [dat]
theorem after5 (c : Dev nD) (t : Fin cfg0.N) : (dat V c).after 5 t = iblk V c 5 t := by dsimp only [dat]
theorem after6 (c : Dev nD) (t : Fin cfg0.N) : (dat V c).after 6 t = k0_pay2 (iblk V c 0 t) (scr V c) := by dsimp only [dat]
theorem after7 (c : Dev nD) (t : Fin cfg0.N) : (dat V c).after 7 t = k0_pay3 (iblk V c 0 t) (scr V c) (iblk V c 4 t) (iblk V c 5 t) := by dsimp only [dat]

theorem before0 (c : Dev nD) (t : Fin cfg0.N) (d) : (dat V c).before 0 t d = iblk V c 0 t :=
  before0_of V (dat V c) (A_eq V c 0) (after0 V c) t d
theorem before1 (c : Dev nD) (t : Fin cfg0.N) (d) : (dat V c).before 1 t d = iblk V c 1 t :=
  before1_of V (dat V c) (A_eq V c 1) (after1 V c) t d
theorem before2 (c : Dev nD) (t : Fin cfg0.N) (d) : (dat V c).before 2 t d = iblk V c 2 t :=
  before2_of V (dat V c) (A_eq V c 2) (after2 V c) t d
theorem before3 (c : Dev nD) (t : Fin cfg0.N) (d) : (dat V c).before 3 t d = iblk V c 3 t :=
  before3_of V (dat V c) (A_eq V c 3) (after3 V c) t d
theorem before4 (c : Dev nD) (t : Fin cfg0.N) (d) : (dat V c).before 4 t d = iblk V c 4 t :=
  before4_of V (dat V c) (A_eq V c 4) (after4 V c) t d
theorem before5 (c : Dev nD) (t : Fin cfg0.N) (d) : (dat V c).before 5 t d = iblk V c 5 t :=
  before5_of V (dat V c) (A_eq V c 5) (after5 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t))

set_option maxHeartbeats 4000000 in
/-- The body at any point: the inputs' memrefs hold their blocks; at the first point the scratch is at anything and the
    body fills it with the projection, afterwards the invariant hands it over at the projection and takes it back
    unchanged; the core's `owes` pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4, before5]
  rw [show (dat V c).owesAt () t.succ = (dat V c).owesAt () t.castSucc from rfl,
    after0, after1, after2, after3, after4, after5, after6, after7, Phi_eq, Phi_eq]
  unfold Phi
  by_cases h0 : t.val = 0
  · obtain rfl : t = t00 := Fin.ext h0
    iintro ⟨⟨Hr, Hg, ⟨%f, Hs, -⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_first c Set.univ (grid0.coords t00) _ _ _ _ _ _ _ _ _ _ _ _ _ _ _ _ _ _ ((hcond0 t00).mpr rfl)
      (iblk V c 0 t00) (iblk V c 1 t00) (iblk V c 2 t00) (iblk V c 3 t00) (iblk V c 4 t00) (iblk V c 5 t00) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [Hs]; · iexists _; iexact Hs
    iintro ⟨H0, H1, H2, H3, H4, H5, H6, H7, Hs⟩
    isplitl [Hr Hg Hs]
    · isplitl [Hr]; · iexact Hr
      isplitl [Hg]; · iexact Hg
      iexists _; isplitl [Hs]; · iexact Hs
      ipureintro; intro _; rfl
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · iintro ⟨⟨Hr, Hg, ⟨%f, Hs, %hf⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
    obtain rfl : f = scr V c := hf h0
    iapply (sound_later c Set.univ (grid0.coords t) _ _ _ _ _ _ _ _ _ _ _ _ _ _ _ _ _ _ (fun h => h0 ((hcond0 t).mp h))
      (iblk V c 0 t) (iblk V c 1 t) (iblk V c 2 t) (iblk V c 3 t) (iblk V c 4 t) (iblk V c 5 t) (scr V c) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [Hs]; · iexact Hs
    iintro ⟨H0, H1, H2, H3, H4, H5, H6, H7, Hs⟩
    isplitl [Hr Hg Hs]
    · isplitl [Hr]; · iexact Hr
      isplitl [Hg]; · iexact Hg
      iexists _; isplitl [Hs]; · iexact Hs
      ipureintro; intro _; rfl
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation, at every point. -/
theorem body_obligation (c : Dev nD) : BodyObligation (dat (F := F) V c) (defs₀ (F := F)) Variants.none () Set.univ := fun t => by
  rw [bigSep_W0, bigSep_W0]
  exact sound_body V c t

/-! ## The invariant's two ends -/

/-- The scoped rest split at the region's own scratch. -/
theorem scopedRest0_split (c : Dev nD) :
    (Pipeline.scopedRest (Ix := Unit) (Name := ℕ) (U := UR sig nD τ) (Lvl := ℕ) (Val := Elt F) spec0 c : sProp 𝕄)
      = iprop(iprop((∃ f : Buf (Elt F) ((c : Thread nD τ).loc cc0_scratch0), ((c : Thread nD τ).loc cc0_scratch0) ↦{fullShare} f))
          ∗ Pipeline.scopedRestBut (Ix := Unit) (Name := ℕ) (U := UR sig nD τ) (Lvl := ℕ) (Val := Elt F) spec0 c [cc0_scratch0]) :=
  Pipeline.scopedRest_split_of_list spec0 c [cc0_scratch0] (by decide) (by decide)

/-- What the region is entered with makes the invariant before the first point: the scratch at anything. -/
theorem phi_in (c : Dev nD) : iprop((∃ r, prngReg c r) ∗ Pipeline.scopedRest (Ix := Unit) (Name := ℕ) (U := UR sig nD τ) (Lvl := ℕ) (Val := Elt F) spec0 c) ⊢ ((dat V c).Φ 0 : sProp 𝕄) := by
  rw [Phi_eq, scopedRest0_split]; unfold Phi
  simp only [owns_whole]
  iintro ⟨Hg, ⟨%f, Hs⟩, Hr⟩
  isplitl [Hr]; · iexact Hr
  isplitl [Hg]; · iexact Hg
  iexists f; isplitl [Hs]
  · iexact Hs
  ipureintro; intro h; exact absurd rfl h

/-- After the last point the invariant gives it back: the scratch's named contents are forgotten. -/
theorem phi_out (c : Dev nD) : ((dat V c).Φ (Fin.last cfg0.N) : sProp 𝕄) ⊢ iprop((∃ r, prngReg c r) ∗ Pipeline.scopedRest (Ix := Unit) (Name := ℕ) (U := UR sig nD τ) (Lvl := ℕ) (Val := Elt F) spec0 c) := by
  rw [Phi_eq, scopedRest0_split]; unfold Phi
  simp only [owns_whole]
  iintro ⟨Hr, Hg, ⟨%f, Hs, -⟩⟩
  isplitl [Hg]; · iexact Hg
  isplitl [Hs]
  · iexists f; iexact Hs
  iexact Hr

end Cert.Kernel.Reg0

end
-- ==== Proof.KReg1.lean ====
import proofs.«172434_g28836410425910_retrytranche2_620_32_alg».proof.Proof.Gen.Kernel.Launch
import proofs.«172434_g28836410425910_retrytranche2_620_32_alg».proof.Proof.Gen.Kernel.Skeleton
import proofs.«172434_g28836410425910_retrytranche2_620_32_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
-- the TensorCore's buffer contents when the region is entered: a PARAMETER
variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, for any proof data whose array is
    `V`'s and whose body leaves the block in place. -/
theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's three conditions, in closed form over the grid -/

/-- "This is the first point": the condition of the first `scf.if`. -/
abbrev condA (i : grid1.Coords) : Prop :=
  (Scalar.cmpi .ne (Scalar.extui (Scalar.cmpi .eq (BitVec.ofNat 32 (i 0).val) 0#32)) 0#32) = 1#1
/-- "This is not the first point": the condition of the second. -/
abbrev condB (i : grid1.Coords) : Prop :=
  (Scalar.cmpi .ne (Scalar.extui (Scalar.cmpi .ne (BitVec.ofNat 32 (i 0).val) 0#32)) 0#32) = 1#1
/-- "This is the last point": the condition of the third. -/
abbrev condC (i : grid1.Coords) : Prop := k1_cond3 i = 1#1

theorem hcondA : ∀ t : Fin cfg1.N, condA (grid1.coords t) ↔ t.val = 0 :=
  (by decide +kernel : ∀ t : Fin grid1.N, condA (grid1.coords t) ↔ t.val = 0)
theorem hcondB : ∀ t : Fin cfg1.N, condB (grid1.coords t) ↔ t.val ≠ 0 :=
  (by decide +kernel : ∀ t : Fin grid1.N, condB (grid1.coords t) ↔ t.val ≠ 0)
theorem hcondC : ∀ t : Fin cfg1.N, condC (grid1.coords t) ↔ t.val = 4 :=
  (by decide +kernel : ∀ t : Fin grid1.N, condC (grid1.coords t) ↔ t.val = 4)

/-! ## Where the windows are idle and where the output is written back -/

theorem liveAt0 : ∀ t : Fin cfg1.N, cfg1.idle 0 (grid1.coords t) = false := by decide +kernel
theorem liveAt1 : ∀ t : Fin cfg1.N, cfg1.idle 1 (grid1.coords t) = false := by decide +kernel
theorem idleAt2 : ∀ t : Fin cfg1.N, t.val ≠ 4 → cfg1.idle 2 (grid1.coords t) = true := by decide +kernel
theorem liveAt2 : ∀ t : Fin cfg1.N, t.val = 4 → cfg1.idle 2 (grid1.coords t) = false := by decide +kernel
theorem noFlush2 : ∀ t : Fin cfg1.N, t.val ≠ 4 → (cfg1.win 2).flush t = false := by decide +kernel

/-! ## The body's accesses: every one is of a whole buffer -/

abbrev rA : Rect S400x10000 := Rect.unit (s := S400x10000) ![0, 0] S400x10000.size inb_S400x10000_S400x10000_0_0
abbrev rZ : Rect S400x256 := Rect.unit (s := S400x256) ![0, 0] S400x256.size inb_S400x256_S400x256_0_0
abbrev rS : Rect S10000x256 := Rect.unit (s := S10000x256) ![0, 0] S10000x256.size inb_S10000x256_S10000x256_0_0

theorem zeros2 : (![0, 0] : Fin 2 → ℕ) = fun _ => 0 := by funext a; fin_cases a <;> rfl

/-- A load of the whole shape at zero offsets reads what the view reads. -/
theorem readAt_whole {sp : Space} {S : Shape} {e : EltTy} (v : View sig .tc sp S e) (f : v.ty.Contents (Elt F))
    {off : Fin S.rank → ℕ} (h : off = fun _ => 0) (inb : ∀ a, off a + S.size a ≤ S.size a) :
    v.readAt (Elt F) (Rect.unit off S.size inb).toLoadRect f = v.read (Elt F) f :=
  (View.readAt_eq_ld v f (Rect.unit off S.size inb)).trans (View.ld_unit_zero h inb _)

/-- One store of the whole shape at zero offsets leaves its payload. -/
theorem read_write_whole {sp : Space} {S : Shape} {e : EltTy} (v : View sig .tc sp S e) (f : v.ty.Contents (Elt F))
    {off : Fin S.rank → ℕ} (h : off = fun _ => 0) (inb : ∀ a, off a + S.size a ≤ S.size a) (w : S.Idx → Elt F e) :
    v.read (Elt F) (v.writes (Elt F) f [⟨Rect.unit off S.size inb, w⟩]) = w :=
  (View.read_writes_eq_canon v f _ (fun y => ⟨_, List.mem_singleton_self _, View.mem_set_unit_zero h inb y⟩)).trans
    (View.canon_unit_zero h inb w)

set_option maxHeartbeats 1000000 in
/-- The body at the first point: the accumulator is set to the partial product; the output is not touched. -/
theorem tripleA (c : Dev nD) (E : Set ℕ) (i : grid1.Coords)
    (arg1 : Memref sig .tc .vmem S400x10000 .f32) (harg1 : arg1.IsWhole) (arg2 : Memref sig .tc .vmem S400x256 .f32) (harg2 : arg2.IsWhole)
    (arg3 : Memref sig .tc .vmem S10000x256 .bf16) (harg3 : arg3.IsWhole) (arg4 : Memref sig .tc .vmem S10000x256 .f32) (harg4 : arg4.IsWhole)
    (hA : condA i) (hB : ¬ condB i) (hC : ¬ condC i)
    (x0 : Vec F S400x10000 .f32) (x1 : Vec F S400x256 .f32) (K : PUnit → sProp 𝕄) :
    iprop(owns (c : Thread nD τ) arg1 fullShare x0 ∗ owns (c : Thread nD τ) arg2 fullShare x1 ∗ (∃ s, owns (c : Thread nD τ) arg4 fullShare s)
        ∗ (iprop(owns (c : Thread nD τ) arg1 fullShare x0 ∗ owns (c : Thread nD τ) arg2 fullShare x1
              ∗ owns (c : Thread nD τ) arg4 fullShare (k1_pay2 x0 x1)) -∗ K ⟨⟩))
      ⊢ wp frame (wpE (defs₀ (F := F)) Variants.none c none) E (cc1__hg_body i arg1 harg1 arg2 harg2 arg3 harg3 arg4 harg4) K := by
  simp only [cc1__hg_body_eq_skeleton]; unfold cc1__hg_body_skel
  unfold owns
  iintro ⟨⟨%f0, %hf0, H0⟩, ⟨%f1, %hf1, H1⟩, ⟨%s, %fs, -, HS⟩, Hk⟩
  subst hf0; subst hf1
  sl_exec (disch := first | exact hA | exact hB | exact hC)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [read_write_whole _ _ zeros2, readAt_whole _ _ zeros2, readAt_whole _ _ zeros2]

set_option maxHeartbeats 1000000 in
/-- The body at a middle point: the partial product is added to the accumulator; the output is not touched. -/
theorem tripleB (c : Dev nD) (E : Set ℕ) (i : grid1.Coords)
    (arg1 : Memref sig .tc .vmem S400x10000 .f32) (harg1 : arg1.IsWhole) (arg2 : Memref sig .tc .vmem S400x256 .f32) (harg2 : arg2.IsWhole)
    (arg3 : Memref sig .tc .vmem S10000x256 .bf16) (harg3 : arg3.IsWhole) (arg4 : Memref sig .tc .vmem S10000x256 .f32) (harg4 : arg4.IsWhole)
    (hA : ¬ condA i) (hB : condB i) (hC : ¬ condC i)
    (x0 : Vec F S400x10000 .f32) (x1 : Vec F S400x256 .f32) (s : Vec F S10000x256 .f32) (K : PUnit → sProp 𝕄) :
    iprop(owns (c : Thread nD τ) arg1 fullShare x0 ∗ owns (c : Thread nD τ) arg2 fullShare x1 ∗ owns (c : Thread nD τ) arg4 fullShare s
        ∗ (iprop(owns (c : Thread nD τ) arg1 fullShare x0 ∗ owns (c : Thread nD τ) arg2 fullShare x1
              ∗ owns (c : Thread nD τ) arg4 fullShare (k1_pay3 x0 x1 s)) -∗ K ⟨⟩))
      ⊢ wp frame (wpE (defs₀ (F := F)) Variants.none c none) E (cc1__hg_body i arg1 harg1 arg2 harg2 arg3 harg3 arg4 harg4) K := by
  simp only [cc1__hg_body_eq_skeleton]; unfold cc1__hg_body_skel
  unfold owns
  iintro ⟨⟨%f0, %hf0, H0⟩, ⟨%f1, %hf1, H1⟩, ⟨%fs, %hfs, HS⟩, Hk⟩
  subst hf0; subst hf1; subst hfs
  sl_exec (disch := first | exact hA | exact hB | exact hC)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [read_write_whole _ _ zeros2, readAt_whole _ _ zeros2, readAt_whole _ _ zeros2, readAt_whole _ _ zeros2]

set_option maxHeartbeats 1000000 in
/-- The body at the last point: the partial product is added to the accumulator and the output block is set to the
    rectified, rounded accumulator. -/
theorem tripleC (c : Dev nD) (E : Set ℕ) (i : grid1.Coords)
    (arg1 : Memref sig .tc .vmem S400x10000 .f32) (harg1 : arg1.IsWhole) (arg2 : Memref sig .tc .vmem S400x256 .f32) (harg2 : arg2.IsWhole)
    (arg3 : Memref sig .tc .vmem S10000x256 .bf16) (harg3 : arg3.IsWhole) (arg4 : Memref sig .tc .vmem S10000x256 .f32) (harg4 : arg4.IsWhole)
    (hA : ¬ condA i) (hB : condB i) (hC : condC i)
    (x0 : Vec F S400x10000 .f32) (x1 : Vec F S400x256 .f32) (s : Vec F S10000x256 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare s
        ∗ (iprop(owns (c : Thread nD τ) arg1 fullShare x0 ∗ owns (c : Thread nD τ) arg2 fullShare x1
              ∗ owns (c : Thread nD τ) arg3 fullShare (k1_pay4 (k1_pay3 x0 x1 s))
              ∗ owns (c : Thread nD τ) arg4 fullShare (k1_pay3 x0 x1 s)) -∗ K ⟨⟩))
      ⊢ wp frame (wpE (defs₀ (F := F)) Variants.none c none) E (cc1__hg_body i arg1 harg1 arg2 harg2 arg3 harg3 arg4 harg4) K := by
  simp only [cc1__hg_body_eq_skeleton]; unfold cc1__hg_body_skel
  unfold owns
  iintro ⟨⟨%f0, %hf0, H0⟩, ⟨%f1, %hf1, H1⟩, ⟨%d, %f3, -, H3⟩, ⟨%fs, %hfs, HS⟩, Hk⟩
  subst hf0; subst hf1; subst hfs
  sl_exec (disch := first | exact hA | exact hB | exact hC)
  sl_step
  iapply Hk
  isplitl [H0]
  · iexists f0; isplitr; · ipureintro; rfl
    iexact H0
  isplitl [H1]
  · iexists f1; isplitr; · ipureintro; rfl
    iexact H1
  isplitl [H3]
  · iexists _; isplitr
    swap; · iexact H3
    ipureintro
    sl_unfold_run_names
    rw [read_write_whole _ _ zeros2, View.readCov_unit_zero _ zeros2, readAt_whole _ _ zeros2, readAt_whole _ _ zeros2,
      readAt_whole _ _ zeros2]
  iexists _; isplitr
  swap; · iexact HS
  ipureintro
  sl_unfold_run_names
  rw [read_write_whole _ _ zeros2, readAt_whole _ _ zeros2, readAt_whole _ _ zeros2, readAt_whole _ _ zeros2]

/-! ## The accumulator, point by point -/

theorem N5 : cfg1.N = 5 := N_1

/-- The point numbered `n` modulo five: every natural number names a point. -/
def pt (n : ℕ) : Fin cfg1.N := ⟨n % 5, lt_of_lt_of_eq (Nat.mod_lt n (by decide)) N5.symm⟩

theorem pt_val (t : Fin cfg1.N) : pt t.val = t :=
  Fin.ext (Nat.mod_eq_of_lt (lt_of_lt_of_eq t.isLt N5))

/-- What the accumulator holds after the body at point `n`: the first partial product at the first point, the
    point's partial product added to what the point before left afterwards. -/
def acc (c : Dev nD) : ℕ → Vec F S10000x256 .f32
  | 0 => k1_pay2 (iblk V c 0 (pt 0)) (iblk V c 1 (pt 0))
  | n + 1 => k1_pay3 (iblk V c 0 (pt (n + 1))) (iblk V c 1 (pt (n + 1))) (acc c n)

theorem acc_zero (c : Dev nD) : acc V c 0 = k1_pay2 (iblk V c 0 (pt 0)) (iblk V c 1 (pt 0)) := by rw [acc]
theorem acc_succ (c : Dev nD) (n : ℕ) :
    acc V c (n + 1) = k1_pay3 (iblk V c 0 (pt (n + 1))) (iblk V c 1 (pt (n + 1))) (acc V c n) := by rw [acc]

theorem acc_at_zero (c : Dev nD) (t : Fin cfg1.N) (h : t.val = 0) :
    acc V c t.val = k1_pay2 (iblk V c 0 t) (iblk V c 1 t) := by
  have e := pt_val t
  rw [h] at e ⊢
  rw [acc_zero, e]

theorem acc_at_pos (c : Dev nD) (t : Fin cfg1.N) (h : t.val ≠ 0) :
    acc V c t.val = k1_pay3 (iblk V c 0 t) (iblk V c 1 t) (acc V c (t.val - 1)) := by
  have e := pt_val t
  obtain ⟨n, hn⟩ : ∃ n, t.val = n + 1 := ⟨t.val - 1, by omega⟩
  rw [hn] at e ⊢
  rw [acc_succ, e, Nat.add_sub_cancel]

/-! ## The invariant between points -/

/-- The kernel's accumulator: a whole scoped buffer of its own. -/
abbrev scM : Memref sig .tc .vmem S10000x256 .f32 := Memref.whole cc1_scratch0

/-- Every scoped buffer that is neither a staging buffer of this call nor its accumulator, unopened. -/
abbrev SR (c : Dev nD) : sProp 𝕄 :=
  Pipeline.scopedRestBut (Ix := Unit) (Name := ℕ) (U := UR sig nD τ) (Lvl := ℕ) (Val := Elt F) spec1 c [cc1_scratch0]

/-- Before the first point the accumulator holds anything; before point `n + 1` what point `n` left in it. The other
    scoped buffers and the generator register ride along. -/
def Phi (c : Dev nD) : ℕ → sProp 𝕄
  | 0 => iprop(SR c ∗ (∃ r, prngReg c r) ∗ ∃ s, owns (c : Thread nD τ) scM fullShare s)
  | n + 1 => iprop(SR c ∗ (∃ r, prngReg c r) ∗ owns (c : Thread nD τ) scM fullShare (acc V c n))

theorem Phi_zero (c : Dev nD) (n : ℕ) (h : n = 0) :
    Phi V c n = iprop(SR c ∗ (∃ r, prngReg c r) ∗ ∃ s, owns (c : Thread nD τ) scM fullShare s) := by
  subst h; rfl
theorem Phi_succ (c : Dev nD) (n : ℕ) :
    Phi V c (n + 1) = iprop(SR c ∗ (∃ r, prngReg c r) ∗ owns (c : Thread nD τ) scM fullShare (acc V c n)) := rfl
theorem Phi_pos (c : Dev nD) (n : ℕ) (h : n ≠ 0) :
    Phi V c n = iprop(SR c ∗ (∃ r, prngReg c r) ∗ owns (c : Thread nD τ) scM fullShare (acc V c (n - 1))) := by
  cases n with
  | zero => exact absurd rfl h
  | succ n => rfl

/-! ## The proof data -/

/-- The arrays as the region finds them; after the body each input's buffer at its block and the output's at the
    rectified, rounded accumulator (consulted at the last point only); the invariant `Phi`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => k1_pay4 (acc V c t.val)
  Φ t := Phi V c t.val
  q _ := fullShare
  owed _ := 0

theorem A_eq (c : Dev nD) (w : Fin cfg1.W) : (dat V c).A w = V c (Pipeline.arrRef spec1 w) := by
  dsimp only [dat]
theorem q_eq (c : Dev nD) (w : Fin cfg1.W) : (dat V c).q w = fullShare := by
  dsimp only [dat]
theorem owed_eq (c : Dev nD) (t) : (dat V c).owed t = 0 := by
  dsimp only [dat]

theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = k1_pay4 (acc V c t.val) := by dsimp only [dat]

theorem before0 (c : Dev nD) (t : Fin cfg1.N) (d) : (dat V c).before 0 t d = iblk V c 0 t :=
  before0_of V (dat V c) (A_eq V c 0) (after0 V c) t d
theorem before1 (c : Dev nD) (t : Fin cfg1.N) (d) : (dat V c).before 1 t d = iblk V c 1 t :=
  before1_of V (dat V c) (A_eq V c 1) (after1 V c) t d

theorem Phi_castSucc (c : Dev nD) (t : Fin cfg1.N) : (dat V c).Φ t.castSucc = Phi V c t.val := by
  dsimp only [dat]; simp only [Fin.coe_castSucc]

/-! ## The body obligation -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4000000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1]
  rw [show (dat V c).owesAt () t.succ = (dat V c).owesAt () t.castSucc from rfl]
  rw [show (dat V c).Φ t.succ = Phi V c (t.val + 1) from rfl, Phi_succ, Phi_castSucc]
  rw [show (dat V c).leavesExact 0 t = owns (c : Thread nD τ) (st1_0 t) fullShare ((dat V c).after 0 t) from by
    unfold Dat.leavesExact; rw [liveAt0 t], after0]
  rw [show (dat V c).leavesExact 1 t = owns (c : Thread nD τ) (st1_1 t) fullShare ((dat V c).after 1 t) from by
    unfold Dat.leavesExact; rw [liveAt1 t], after1]
  have hN : t.val < 5 := lt_of_lt_of_eq t.isLt N5
  by_cases h0 : t.val = 0
  · rw [Dat.leavesExact_idle (dat V c) 2 t (idleAt2 t (by omega)) (noFlush2 t (by omega))]
    rw [acc_at_zero V c t h0, Phi_zero V c _ h0]
    iintro ⟨⟨HR, Hg, ⟨%s, HS⟩⟩, Ho, ⟨%d0, H0⟩, ⟨%d1, H1⟩, H2⟩
    iapply (tripleA c Set.univ (grid1.coords t) _ _ _ _ _ _ _ _ ((hcondA t).mpr h0) (fun h => (hcondB t).mp h h0)
      (fun h => by have := (hcondC t).mp h; omega) (iblk V c 0 t) (iblk V c 1 t) _)
    isplitl [H0]; · iexact H0
    isplitl [H1]; · iexact H1
    isplitl [HS]; · iexists _; iexact HS
    iintro ⟨H0, H1, HS⟩
    isplitl [HR Hg HS]
    · isplitl [HR]; · iexact HR
      isplitl [Hg]; · iexact Hg
      iexact HS
    isplitl [Ho]; · iexact Ho
    isplitl [H0]; · iexact H0
    isplitl [H1]; · iexact H1
    iexact H2
  · by_cases h4 : t.val = 4
    · rw [show (dat V c).leavesExact 2 t = owns (c : Thread nD τ) (st1_2 t) fullShare ((dat V c).after 2 t) from by
        unfold Dat.leavesExact; rw [liveAt2 t h4], after2]
      rw [acc_at_pos V c t h0, Phi_pos V c _ h0]
      iintro ⟨⟨HR, Hg, HS⟩, Ho, ⟨%d0, H0⟩, ⟨%d1, H1⟩, ⟨%d2, H2⟩⟩
      iapply (tripleC c Set.univ (grid1.coords t) _ _ _ _ _ _ _ _ (fun h => h0 ((hcondA t).mp h)) ((hcondB t).mpr h0)
        ((hcondC t).mpr h4) (iblk V c 0 t) (iblk V c 1 t) (acc V c (t.val - 1)) _)
      isplitl [H0]; · iexact H0
      isplitl [H1]; · iexact H1
      isplitl [H2]; · iexists _; iexact H2
      isplitl [HS]; · iexact HS
      iintro ⟨H0, H1, H2, HS⟩
      isplitl [HR Hg HS]
      · isplitl [HR]; · iexact HR
        isplitl [Hg]; · iexact Hg
        iexact HS
      isplitl [Ho]; · iexact Ho
      isplitl [H0]; · iexact H0
      isplitl [H1]; · iexact H1
      iexact H2
    · rw [Dat.leavesExact_idle (dat V c) 2 t (idleAt2 t h4) (noFlush2 t h4)]
      rw [acc_at_pos V c t h0, Phi_pos V c _ h0]
      iintro ⟨⟨HR, Hg, HS⟩, Ho, ⟨%d0, H0⟩, ⟨%d1, H1⟩, H2⟩
      iapply (tripleB c Set.univ (grid1.coords t) _ _ _ _ _ _ _ _ (fun h => h0 ((hcondA t).mp h)) ((hcondB t).mpr h0)
        (fun h => h4 ((hcondC t).mp h)) (iblk V c 0 t) (iblk V c 1 t) (acc V c (t.val - 1)) _)
      isplitl [H0]; · iexact H0
      isplitl [H1]; · iexact H1
      isplitl [HS]; · iexact HS
      iintro ⟨H0, H1, HS⟩
      isplitl [HR Hg HS]
      · isplitl [HR]; · iexact HR
        isplitl [Hg]; · iexact Hg
        iexact HS
      isplitl [Ho]; · iexact Ho
      isplitl [H0]; · iexact H0
      isplitl [H1]; · iexact H1
      iexact H2

/-- The library's body obligation, at every point. -/
theorem body_obligation (c : Dev nD) : BodyObligation (dat (F := F) V c) (defs₀ (F := F)) Variants.none () Set.univ := fun t => by
  rw [bigSep_W1, bigSep_W1]
  exact sound_body V c t

/-! ## The invariant's two ends -/

/-- What the launch hands the region — the generator register and every scoped buffer that is no staging buffer of the
    call, at anything — is the invariant before the first point. -/
theorem phi_in (c : Dev nD) :
    iprop((∃ r, prngReg c r) ∗ Pipeline.scopedRest (Ix := Unit) (Name := ℕ) (U := UR sig nD τ) (Lvl := ℕ) (Val := Elt F) spec1 c)
      ⊢ ((dat V c).Φ 0 : sProp 𝕄) := by
  rw [show (dat V c).Φ 0 = Phi V c 0 from rfl, Phi_zero V c 0 rfl, scopedRest1_split]
  simp only [scM, owns_whole]
  iintro ⟨Hg, ⟨%f, HS⟩, HR⟩
  isplitl [HR]; · iexact HR
  isplitl [Hg]; · iexact Hg
  iexists f; iexact HS

/-- After the last point the invariant gives them back: the accumulator's named contents are forgotten. -/
theorem phi_out (c : Dev nD) :
    ((dat V c).Φ (Fin.last cfg1.N) : sProp 𝕄)
      ⊢ iprop((∃ r, prngReg c r) ∗ Pipeline.scopedRest (Ix := Unit) (Name := ℕ) (U := UR sig nD τ) (Lvl := ℕ) (Val := Elt F) spec1 c) := by
  rw [show (dat V c).Φ (Fin.last cfg1.N) = Phi V c (Fin.last cfg1.N).val from rfl,
    Phi_pos V c _ (by rw [Fin.val_last]; have := N5; omega), scopedRest1_split]
  simp only [scM, owns_whole]
  iintro ⟨HR, Hg, HS⟩
  isplitl [Hg]; · iexact Hg
  isplitl [HS]; · iexists _; iexact HS
  iexact HR

end Cert.Kernel.Reg1

end
-- ==== Proof.KReg2.lean ====
import proofs.«172434_g28836410425910_retrytranche2_620_32_alg».proof.Proof.Gen.Kernel.Launch
import proofs.«172434_g28836410425910_retrytranche2_620_32_alg».proof.Proof.Gen.Kernel.Skeleton
import proofs.«172434_g28836410425910_retrytranche2_620_32_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
-- the TensorCore's buffer contents when the region is entered: a PARAMETER
variable (V : (c : Dev nD) → (b : Ref sig .tc) → Buf (Elt F) ((c : Thread nD τ).loc b))

/-! # Region 2: the fused layer, 25 grid points

Per point the body reads two row blocks of the adjacency (two windows on one array), the whole feature matrix, a row
block of the hypergraph features and the weights; at the first point it stores the linear map of the features into the
scratch buffer, which it reads at every point; it writes the two halves of the output's row block. -/

/-! ## The body's one condition: the grid coordinate is zero -/

/-- The condition of the body's `scf.if`, from the grid coordinate. -/
abbrev cond (i : grid2.Coords) : Prop := (Scalar.cmpi .ne (Scalar.extui (Scalar.cmpi .eq (BitVec.ofNat 32 (i 0).val) 0#32)) 0#32) = 1#1

/-- It holds at the first point only: decided over the grid. -/
theorem hcond : ∀ t : Fin cfg2.N, cond (grid2.coords t) ↔ t.val = 0 :=
  (by decide +kernel : ∀ t : Fin grid2.N, cond (grid2.coords t) ↔ t.val = 0)

/-- The first point. -/
def t0 : Fin cfg2.N := ⟨0, by decide⟩

/-! ## The rectangles the body reads and writes -/

abbrev rGG : Rect S200x10000 := Rect.unit (s := S200x10000) ![0, 0] S200x10000.size inb_S200x10000_S200x10000_0_0
abbrev rS : Rect S10000x256 := Rect.unit (s := S10000x256) ![0, 0] S10000x256.size inb_S10000x256_S10000x256_0_0
abbrev rWg : Rect S256x256 := Rect.unit (s := S256x256) ![0, 0] S256x256.size inb_S256x256_S256x256_0_0
abbrev rRow : Rect S1x256 := Rect.unit (s := S1x256) ![0, 0] S1x256.size inb_S1x256_S1x256_0_0
abbrev rW0 : Rect S768x256 := Rect.unit (s := S768x256) ![0, 0] S256x256.size inb_S768x256_S256x256_0_0
abbrev rW1 : Rect S768x256 := Rect.unit (s := S768x256) ![256, 0] S256x256.size inb_S768x256_S256x256_256_0
abbrev rW2 : Rect S768x256 := Rect.unit (s := S768x256) ![512, 0] S256x256.size inb_S768x256_S256x256_512_0
abbrev rA : Rect S400x256 := Rect.unit (s := S400x256) ![0, 0] S200x256.size inb_S400x256_S200x256_0_0
abbrev rB : Rect S400x256 := Rect.unit (s := S400x256) ![200, 0] S200x256.size inb_S400x256_S200x256_200_0
/-- The rows of the feature matrix the first half of the block reads: from row `400 i`. -/
abbrev rX0 (i : grid2.Coords) : Rect S10000x256 := Rect.unit (s := S10000x256) (k2_off1 i 0#32) S200x256.size (k2_off1_inb i 0)
/-- and the second half: from row `400 i + 200`. -/
abbrev rX1 (i : grid2.Coords) : Rect S10000x256 := Rect.unit (s := S10000x256) (k2_off1 i 200#32) S200x256.size (k2_off1_inb i 1)

/-! ## What the body leaves -/

/-- The scratch after the first point's store: the linear map of the features, one whole-buffer piece. -/
def G0 (x2 : Vec F S10000x256 .f32) (x4 : Vec F S256x256 .f32) (x5 : Vec F S1x256 .f32) : Vec F S10000x256 .bf16 :=
  View.canon [⟨rS, k2_pay2 (View.ld x2 rS) (View.ld x4 rWg) (View.ld x5 rRow)⟩]

/-- The output's staging buffer after the body: its two half-block stores as pieces, last first. -/
def out8 (i : grid2.Coords) (x0 x1 : Vec F S200x10000 .f32) (g : Vec F S10000x256 .bf16) (x2 : Vec F S10000x256 .f32)
    (x3 : Vec F S400x256 .bf16) (x6 : Vec F S768x256 .f32) (x7 : Vec F S1x256 .f32) : Vec F S400x256 .f32 :=
  View.canon [⟨rB, k2_pay1 (View.ld x1 rGG) (View.ld g rS) (View.ld x2 (rX1 i)) (View.ld x6 rW0) (View.ld x6 rW1) (View.ld x3 rB) (View.ld x6 rW2) (View.ld x7 rRow)⟩,
    ⟨rA, k2_pay3 (View.ld x0 rGG) (View.ld g rS) (View.ld x2 (rX0 i)) (View.ld x6 rW0) (View.ld x6 rW1) (View.ld x3 rA) (View.ld x6 rW2) (View.ld x7 rRow)⟩]

/-- The scratch's one piece covers it. -/
theorem coverS (p0 : Vec F S10000x256 .bf16) (y : S10000x256.Idx) :
    ∃ pc ∈ ([⟨rS, p0⟩] : List (View.Piece (Elt F) S10000x256 .bf16)), y ∈ pc.1.set :=
  View.cover_of_tiled [⟨rS, p0⟩] S10000x256.size (by rfl) y

/-- The two halves tile the output block. -/
theorem cover8 (p0 p1 : Vec F S200x256 .f32) (y : S400x256.Idx) :
    ∃ pc ∈ ([⟨rB, p0⟩, ⟨rA, p1⟩] : List (View.Piece (Elt F) S400x256 .f32)), y ∈ pc.1.set :=
  View.cover_of_tiled [⟨rB, p0⟩, ⟨rA, p1⟩] S200x256.size (by rfl) y

/-! ## The body's triples, one per case of the condition -/

set_option maxHeartbeats 4000000 in
/-- At the first point: the scratch at anything; it ends at `G0` of the features and the weights, and the output block
    is computed from that. -/
theorem sound_first (c : Dev nD) (E : Set ℕ) (i : grid2.Coords)
    (arg1 : Memref sig .tc .vmem S200x10000 .f32) (harg1 : arg1.IsWhole) (arg2 : Memref sig .tc .vmem S200x10000 .f32) (harg2 : arg2.IsWhole) (arg3 : Memref sig .tc .vmem S10000x256 .f32) (harg3 : arg3.IsWhole) (arg4 : Memref sig .tc .vmem S400x256 .bf16) (harg4 : arg4.IsWhole) (arg5 : Memref sig .tc .vmem S256x256 .f32) (harg5 : arg5.IsWhole) (arg6 : Memref sig .tc .vmem S1x256 .f32) (harg6 : arg6.IsWhole) (arg7 : Memref sig .tc .vmem S768x256 .f32) (harg7 : arg7.IsWhole) (arg8 : Memref sig .tc .vmem S1x256 .f32) (harg8 : arg8.IsWhole) (arg9 : Memref sig .tc .vmem S400x256 .f32) (harg9 : arg9.IsWhole) (arg10 : Memref sig .tc .vmem S10000x256 .bf16) (harg10 : arg10.IsWhole)
    (hc : cond i)
    (x0 : Vec F S200x10000 .f32) (x1 : Vec F S200x10000 .f32) (x2 : Vec F S10000x256 .f32) (x3 : Vec F S400x256 .bf16) (x4 : Vec F S256x256 .f32) (x5 : Vec F S1x256 .f32) (x6 : Vec F S768x256 .f32) (x7 : Vec F S1x256 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out8 i x0 x1 (G0 x2 x4 x5) x2 x3 x6 x7) ∗ owns (c : Thread nD τ) arg10 fullShare (G0 x2 x4 x5)) -∗ K ⟨⟩))
      ⊢ wp frame (wpE (defs₀ (F := F)) Variants.none c none) E (cc2__main_body i arg1 harg1 arg2 harg2 arg3 harg3 arg4 harg4 arg5 harg5 arg6 harg6 arg7 harg7 arg8 harg8 arg9 harg9 arg10 harg10) K := by
  simp only [cc2__main_body_eq_skeleton]; unfold cc2__main_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec (disch := first | exact hc)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]
  · iexists _; isplitr
    swap; · iexact H8
    ipureintro
    sl_unfold_run_names
    rw [View.readCov_eq_canon_ld _ _ rS (coverS _)]
    exact View.read_writes_eq_canon _ _ _ (cover8 _ _)
  iexists _; isplitr
  swap; · iexact H9
  ipureintro
  sl_unfold_run_names
  exact View.read_writes_eq_canon _ _ _ (coverS _)

set_option maxHeartbeats 4000000 in
/-- At a later point: the scratch holds `g`; the body reads it and leaves it. -/
theorem sound_later (c : Dev nD) (E : Set ℕ) (i : grid2.Coords)
    (arg1 : Memref sig .tc .vmem S200x10000 .f32) (harg1 : arg1.IsWhole) (arg2 : Memref sig .tc .vmem S200x10000 .f32) (harg2 : arg2.IsWhole) (arg3 : Memref sig .tc .vmem S10000x256 .f32) (harg3 : arg3.IsWhole) (arg4 : Memref sig .tc .vmem S400x256 .bf16) (harg4 : arg4.IsWhole) (arg5 : Memref sig .tc .vmem S256x256 .f32) (harg5 : arg5.IsWhole) (arg6 : Memref sig .tc .vmem S1x256 .f32) (harg6 : arg6.IsWhole) (arg7 : Memref sig .tc .vmem S768x256 .f32) (harg7 : arg7.IsWhole) (arg8 : Memref sig .tc .vmem S1x256 .f32) (harg8 : arg8.IsWhole) (arg9 : Memref sig .tc .vmem S400x256 .f32) (harg9 : arg9.IsWhole) (arg10 : Memref sig .tc .vmem S10000x256 .bf16) (harg10 : arg10.IsWhole)
    (hc : ¬cond i)
    (x0 : Vec F S200x10000 .f32) (x1 : Vec F S200x10000 .f32) (x2 : Vec F S10000x256 .f32) (x3 : Vec F S400x256 .bf16) (x4 : Vec F S256x256 .f32) (x5 : Vec F S1x256 .f32) (x6 : Vec F S768x256 .f32) (x7 : Vec F S1x256 .f32) (g : Vec F S10000x256 .bf16)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ owns (c : Thread nD τ) arg10 fullShare g
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out8 i x0 x1 g x2 x3 x6 x7) ∗ owns (c : Thread nD τ) arg10 fullShare g) -∗ K ⟨⟩))
      ⊢ wp frame (wpE (defs₀ (F := F)) Variants.none c none) E (cc2__main_body i arg1 harg1 arg2 harg2 arg3 harg3 arg4 harg4 arg5 harg5 arg6 harg6 arg7 harg7 arg8 harg8 arg9 harg9 arg10 harg10) K := by
  simp only [cc2__main_body_eq_skeleton]; unfold cc2__main_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, Hk⟩
  subst hf0 hf1 hf2 hf3 hf4 hf5 hf6 hf7 hf9
  sl_exec (disch := first | exact hc)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]
  · iexists _; isplitr
    swap; · iexact H8
    ipureintro
    exact View.read_writes_eq_canon _ _ _ (cover8 _ _)
  iexists f9; isplitr; · ipureintro; rfl
  iexact H9

/-! ## The windows' blocks -/

/-- Window `w`'s block at point `t`, read off its array as the region finds it (`V`). -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input window's current staging buffer holds its block at every point, fetched there or not, for any proof
    data whose array is `V`'s and whose body leaves the block in place. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg2 c) (hA : dat.A 5 = V c (Pipeline.arrRef spec2 5))
    (hafter : ∀ t, dat.after 5 t = iblk V c 5 t) (t : Fin cfg2.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg2 c) (hA : dat.A 6 = V c (Pipeline.arrRef spec2 6))
    (hafter : ∀ t, dat.after 6 t = iblk V c 6 t) (t : Fin cfg2.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of {c : Dev nD} (dat : Dat τ (Elt F) Unit ℕ (UR sig nD τ) ℕ cfg2 c) (hA : dat.A 7 = V c (Pipeline.arrRef spec2 7))
    (hafter : ∀ t, dat.after 7 t = iblk V c 7 t) (t : Fin cfg2.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The scratch operand: a whole scoped buffer of the kernel's own. -/
abbrev scM : Memref sig .tc .vmem S10000x256 .bf16 := Memref.whole cc2_scratch0

/-- What the scratch holds from the first point on: the linear map of the features as the first point finds them. -/
def G (c : Dev nD) : Vec F S10000x256 .bf16 := G0 (iblk V c 2 t0) (iblk V c 4 t0) (iblk V c 5 t0)

/-- The invariant before position `n`: the scratch at some contents — from position 1 on at `G` —, the other scoped
    buffers unopened, the generator register at some state. -/
def Phi (c : Dev nD) (n : ℕ) : sProp 𝕄 :=
  iprop((∃ g : Vec F S10000x256 .bf16, owns (c : Thread nD τ) scM fullShare g ∗ ⌜n ≠ 0 → g = G V c⌝)
    ∗ Pipeline.scopedRestBut (Ix := Unit) (Name := ℕ) (U := UR sig nD τ) (Lvl := ℕ) (Val := Elt F) spec2 c [cc2_scratch0]
    ∗ (∃ r, prngReg c r))

/-- The proof data of the pipeline on core `c`: the arrays as the region finds them; after the body each input's buffer
    at its block and the output's at `out8` of the blocks and the scratch; the two windows on the adjacency hold it at
    the two halves of the full share. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => out8 (grid2.coords t) (iblk V c 0 t) (iblk V c 1 t) (G V c) (iblk V c 2 t) (iblk V c 3 t) (iblk V c 6 t) (iblk V c 7 t)
  Φ t := Phi V c t.val
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
  owed _ := 0

theorem A_eq (c : Dev nD) (w : Fin cfg2.W) : (dat V c).A w = V c (Pipeline.arrRef spec2 w) := by
  dsimp only [dat]

theorem owed_eq (c : Dev nD) (t) : (dat V c).owed t = 0 := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) : (dat V c).after 5 t = iblk V c 5 t := by dsimp only [dat]
theorem after_6 (c : Dev nD) (t : Fin cfg2.N) : (dat V c).after 6 t = iblk V c 6 t := by dsimp only [dat]
theorem after_7 (c : Dev nD) (t : Fin cfg2.N) : (dat V c).after 7 t = iblk V c 7 t := by dsimp only [dat]
theorem after_8 (c : Dev nD) (t : Fin cfg2.N) : (dat V c).after 8 t = out8 (grid2.coords t) (iblk V c 0 t) (iblk V c 1 t) (G V c) (iblk V c 2 t) (iblk V c 3 t) (iblk V c 6 t) (iblk V c 7 t) := by dsimp only [dat]

theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d
theorem before_3 (c : Dev nD) (t : Fin cfg2.N) (d) : (dat V c).before 3 t d = iblk V c 3 t :=
  before_3_of V (dat V c) (A_eq V c 3) (after_3 V c) t d
theorem before_4 (c : Dev nD) (t : Fin cfg2.N) (d) : (dat V c).before 4 t d = iblk V c 4 t :=
  before_4_of V (dat V c) (A_eq V c 4) (after_4 V c) t d
theorem before_5 (c : Dev nD) (t : Fin cfg2.N) (d) : (dat V c).before 5 t d = iblk V c 5 t :=
  before_5_of V (dat V c) (A_eq V c 5) (after_5 V c) t d
theorem before_6 (c : Dev nD) (t : Fin cfg2.N) (d) : (dat V c).before 6 t d = iblk V c 6 t :=
  before_6_of V (dat V c) (A_eq V c 6) (after_6 V c) t d
theorem before_7 (c : Dev nD) (t : Fin cfg2.N) (d) : (dat V c).before 7 t d = iblk V c 7 t :=
  before_7_of V (dat V c) (A_eq V c 7) (after_7 V c) t d

theorem Phi_castSucc (c : Dev nD) (t : Fin cfg2.N) : (dat V c).Φ t.castSucc = Phi V c t.val := by
  dsimp only [dat]; simp only [Fin.coe_castSucc]

theorem Phi_succ (c : Dev nD) (t : Fin cfg2.N) : (dat V c).Φ t.succ = Phi V c (t.val + 1) := by
  dsimp only [dat]; simp only [Fin.val_succ]

/-! ## The body obligation, at a generic point -/

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d))
    ∗ (∃ d, owns (c : Thread nD τ) (st2_7 t) fullShare ((dat V c).before 7 t d))
    ∗ (∃ d, owns (c : Thread nD τ) (st2_8 t) fullShare ((dat V c).before 8 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t)
    ∗ owns (c : Thread nD τ) (st2_6 t) fullShare ((dat V c).after 6 t)
    ∗ owns (c : Thread nD τ) (st2_7 t) fullShare ((dat V c).after 7 t)
    ∗ owns (c : Thread nD τ) (st2_8 t) fullShare ((dat V c).after 8 t))

set_option maxHeartbeats 4000000 in
/-- The body at any point: the inputs' memrefs hold their blocks; at the first point the scratch is at anything and
    ends at `G`, afterwards it is at `G` and stays; the core owes nothing throughout. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4, before_5, before_6, before_7]
  rw [show (dat V c).owesAt () t.succ = (dat V c).owesAt () t.castSucc from rfl,
    Phi_castSucc, Phi_succ, after_0, after_1, after_2, after_3, after_4, after_5, after_6, after_7, after_8]
  unfold Phi
  by_cases h0 : t.val = 0
  · obtain rfl : t = t0 := Fin.ext h0
    iintro ⟨⟨⟨%g, HS, -⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_first c Set.univ (grid2.coords t0) _ _ _ _ _ _ _ _ _ _ _ _ _ _ _ _ _ _ _ _ ((hcond t0).mpr h0)
      (iblk V c 0 t0) (iblk V c 1 t0) (iblk V c 2 t0) (iblk V c 3 t0) (iblk V c 4 t0) (iblk V c 5 t0) (iblk V c 6 t0) (iblk V c 7 t0) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS]; · iexists _; iexact HS
    iintro ⟨H0, H1, H2, H3, H4, H5, H6, H7, H8, HS⟩
    isplitl [HS Hrest Hg]
    · isplitl [HS]
      · iexists _; isplitl [HS]; · iexact HS
        ipureintro; intro _; rfl
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · iintro ⟨⟨⟨%g, HS, %hg⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    obtain rfl := hg h0
    iapply (sound_later c Set.univ (grid2.coords t) _ _ _ _ _ _ _ _ _ _ _ _ _ _ _ _ _ _ _ _ (fun h => h0 ((hcond t).mp h))
      (iblk V c 0 t) (iblk V c 1 t) (iblk V c 2 t) (iblk V c 3 t) (iblk V c 4 t) (iblk V c 5 t) (iblk V c 6 t) (iblk V c 7 t) (G V c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS]; · iexact HS
    iintro ⟨H0, H1, H2, H3, H4, H5, H6, H7, H8, HS⟩
    isplitl [HS Hrest Hg]
    · isplitl [HS]
      · iexists _; isplitl [HS]; · iexact HS
        ipureintro; intro _; rfl
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The library's body obligation, at every point. -/
theorem body_obligation (c : Dev nD) : BodyObligation (dat (F := F) V c) (defs₀ (F := F)) Variants.none () Set.univ := fun t => by
  rw [bigSep_W2, bigSep_W2]
  exact sound_body V c t

/-! ## The invariant's two ends -/

/-- The scoped rest split at the call's own scratch, whole at some contents; the remainder unopened. -/
theorem scopedRest2_split (c : Dev nD) :
    (Pipeline.scopedRest (Ix := Unit) (Name := ℕ) (U := UR sig nD τ) (Lvl := ℕ) (Val := Elt F) spec2 c : sProp 𝕄)
      = iprop(iprop((∃ f : Buf (Elt F) ((c : Thread nD τ).loc cc2_scratch0), ((c : Thread nD τ).loc cc2_scratch0) ↦{fullShare} f))
          ∗ Pipeline.scopedRestBut (Ix := Unit) (Name := ℕ) (U := UR sig nD τ) (Lvl := ℕ) (Val := Elt F) spec2 c [cc2_scratch0]) :=
  Pipeline.scopedRest_split_of_list spec2 c [cc2_scratch0] (by decide) (by decide)

/-- What the launch hands the region — the scoped rest and the generator register — is the invariant before the first
    point: the scratch split out of the scoped rest at some contents. -/
theorem phi_in (c : Dev nD) : iprop((∃ r, prngReg c r) ∗ Pipeline.scopedRest (Ix := Unit) (Name := ℕ) (U := UR sig nD τ) (Lvl := ℕ) (Val := Elt F) spec2 c) ⊢ ((dat V c).Φ 0 : sProp 𝕄) := by
  rw [show (dat V c).Φ 0 = Phi V c 0 from rfl, scopedRest2_split]
  unfold Phi; simp only [scM, owns_whole]
  iintro ⟨Hp, ⟨%f, Hs⟩, Hrest⟩
  isplitl [Hs]
  · iexists f; isplitl [Hs]; · iexact Hs
    ipureintro; intro h; exact absurd rfl h
  isplitl [Hrest]; · iexact Hrest
  iexact Hp

/-- After the last point the invariant gives them back: the scratch's named contents are forgotten. -/
theorem phi_out (c : Dev nD) : ((dat V c).Φ (Fin.last cfg2.N) : sProp 𝕄) ⊢ iprop((∃ r, prngReg c r) ∗ Pipeline.scopedRest (Ix := Unit) (Name := ℕ) (U := UR sig nD τ) (Lvl := ℕ) (Val := Elt F) spec2 c) := by
  rw [show (dat V c).Φ (Fin.last cfg2.N) = Phi V c (Fin.last cfg2.N).val from rfl, scopedRest2_split]
  unfold Phi; simp only [scM, owns_whole]
  iintro ⟨⟨%g, Hs, -⟩, Hrest, Hp⟩
  isplitl [Hp]; · iexact Hp
  isplitl [Hs]; · iexists g; iexact Hs
  iexact Hrest

/-! ## The arrays at the region's two ends

Two windows read the adjacency: the pipeline holds it once per window, at the two halves of the full share. -/

/-- The share the proof data hold each array at. -/
theorem share_eq (c : Dev nD) (w : Fin cfg2.W) :
    (dat V c).share w = (if w = 0 then fullShare.left else if w = 1 then fullShare.right else fullShare) := by
  fin_cases w <;> rfl

/-- The buffers behind the windows' arrays, listed: eight buffers for nine windows. -/
theorem arr_image : Finset.univ.image (Pipeline.arrRef spec2)
    = [main_arg1, main_arg0, main_v6, main_arg4, main_v0, main_arg10, main_v3, main_v7].toFinset := by decide

/-- Each window's array is a whole buffer: its points-to is the buffer's, at the window's share. -/
theorem arr_term (c : Dev nD) (Fw : (w : Fin cfg2.W) → Buf (Elt F) ((cfg2.win w).arr.view.loc (c : Thread nD τ))) (w : Fin cfg2.W) :
    ((cfg2.win w).arr.view.loc (c : Thread nD τ) ↦[(cfg2.win w).arr.view.set]{(dat V c).share w} Fw w : sProp 𝕄)
      = (((c : Thread nD τ).loc (Pipeline.arrRef spec2 w)) ↦{(dat V c).share w} Fw w : sProp 𝕄) := by
  rw [(arr_whole2 w).set_eq_univ]

/-- The pipeline's arrays, window by window, each a whole buffer at its share. -/
theorem arrays_chain (c : Dev nD) (Fw : (w : Fin cfg2.W) → Buf (Elt F) ((cfg2.win w).arr.view.loc (c : Thread nD τ))) :
    ((dat V c).arrays Fw : sProp 𝕄) = iprop(
      ((((c : Thread nD τ).loc main_arg1) ↦{fullShare.left} Fw 0))
      ∗ ((((c : Thread nD τ).loc main_arg1) ↦{fullShare.right} Fw 1))
      ∗ ((((c : Thread nD τ).loc main_arg0) ↦{fullShare} Fw 2))
      ∗ ((((c : Thread nD τ).loc main_v6) ↦{fullShare} Fw 3))
      ∗ ((((c : Thread nD τ).loc main_arg4) ↦{fullShare} Fw 4))
      ∗ ((((c : Thread nD τ).loc main_v0) ↦{fullShare} Fw 5))
      ∗ ((((c : Thread nD τ).loc main_arg10) ↦{fullShare} Fw 6))
      ∗ ((((c : Thread nD τ).loc main_v3) ↦{fullShare} Fw 7))
      ∗ ((((c : Thread nD τ).loc main_v7) ↦{fullShare} Fw 8))) := by
  unfold Dat.arrays
  rw [BI.bigSep_congr (fun w _ => arr_term V c Fw w), bigSep_W2]
  rfl

/-- The distinct buffers behind the arrays, one by one. -/
theorem arrBufs_chain (c : Dev nD) (W : (b : Ref sig .tc) → Buf (Elt F) ((c : Thread nD τ).loc b)) :
    (Pipeline.arrBufs (Ix := Unit) (Name := ℕ) (U := UR sig nD τ) (Lvl := ℕ) spec2 c W : sProp 𝕄) = iprop(
      ((((c : Thread nD τ).loc main_arg1) ↦{fullShare} W main_arg1))
      ∗ ((((c : Thread nD τ).loc main_arg0) ↦{fullShare} W main_arg0))
      ∗ ((((c : Thread nD τ).loc main_v6) ↦{fullShare} W main_v6))
      ∗ ((((c : Thread nD τ).loc main_arg4) ↦{fullShare} W main_arg4))
      ∗ ((((c : Thread nD τ).loc main_v0) ↦{fullShare} W main_v0))
      ∗ ((((c : Thread nD τ).loc main_arg10) ↦{fullShare} W main_arg10))
      ∗ ((((c : Thread nD τ).loc main_v3) ↦{fullShare} W main_v3))
      ∗ ((((c : Thread nD τ).loc main_v7) ↦{fullShare} W main_v7))) := by
  unfold Pipeline.arrBufs
  rw [BI.bigSep_eq_bigSepL_of_eq _ arr_image (by decide)]
  rfl

/-- At the region's entry: the buffers behind the arrays, each whole at the full share, are the pipeline's arrays —
    the adjacency's buffer split into its two halves, one per window. -/
theorem arrays_in (c : Dev nD) (W : (b : Ref sig .tc) → Buf (Elt F) ((c : Thread nD τ).loc b))
    (Fw : (w : Fin cfg2.W) → Buf (Elt F) ((cfg2.win w).arr.view.loc (c : Thread nD τ)))
    (hF : ∀ w, Fw w = W (Pipeline.arrRef spec2 w)) :
    (Pipeline.arrBufs (Ix := Unit) (Name := ℕ) (U := UR sig nD τ) (Lvl := ℕ) spec2 c W : sProp 𝕄) ⊢ (dat V c).arrays Fw := by
  rw [arrays_chain, arrBufs_chain, hF 0, hF 1, hF 2, hF 3, hF 4, hF 5, hF 6, hF 7, hF 8]
  iintro ⟨H1, H0, H6, H4, Hv0, H10, Hv3, Hv7⟩
  ihave H1' := (pointsTo_share (PosShare.mem_left_op_right fullShare)).1 $$ H1
  icases H1' with ⟨H1l, H1r⟩
  isplitl [H1l]; · iexact H1l
  isplitl [H1r]; · iexact H1r
  isplitl [H0]; · iexact H0
  isplitl [H6]; · iexact H6
  isplitl [H4]; · iexact H4
  isplitl [Hv0]; · iexact Hv0
  isplitl [H10]; · iexact H10
  isplitl [Hv3]; · iexact Hv3
  iexact Hv7

/-- At its exit the two halves join again. -/
theorem arrays_out (c : Dev nD) (W : (b : Ref sig .tc) → Buf (Elt F) ((c : Thread nD τ).loc b))
    (Fw : (w : Fin cfg2.W) → Buf (Elt F) ((cfg2.win w).arr.view.loc (c : Thread nD τ)))
    (hF : ∀ w, Fw w = W (Pipeline.arrRef spec2 w)) :
    ((dat V c).arrays Fw : sProp 𝕄) ⊢ Pipeline.arrBufs (Ix := Unit) (Name := ℕ) (U := UR sig nD τ) (Lvl := ℕ) spec2 c W := by
  rw [arrays_chain, arrBufs_chain, hF 0, hF 1, hF 2, hF 3, hF 4, hF 5, hF 6, hF 7, hF 8]
  iintro ⟨H1l, H1r, H0, H6, H4, Hv0, H10, Hv3, Hv7⟩
  isplitl [H1l H1r]
  · iapply (pointsTo_share (PosShare.mem_left_op_right fullShare)).2
    isplitl [H1l]; · iexact H1l
    iexact H1r
  isplitl [H0]; · iexact H0
  isplitl [H6]; · iexact H6
  isplitl [H4]; · iexact H4
  isplitl [Hv0]; · iexact Hv0
  isplitl [H10]; · iexact H10
  isplitl [Hv3]; · iexact Hv3
  iexact Hv7

end Cert.Kernel.Reg2

end
-- ==== Proof.KAsm.lean ====
/-
  The run of the whole program: five host operations and three kernel regions, composed. Each region is entered
  with every unscoped buffer of the core at known contents and left with its arrays at what its write-backs
  leave; the regions' bodies and what they leave are the three region modules'. From the run: every argument
  array ends as launched, and the two results end at named contents.
-/
import proofs.«172434_g28836410425910_retrytranche2_620_32_alg».proof.Proof.KReg0
import proofs.«172434_g28836410425910_retrytranche2_620_32_alg».proof.Proof.KReg1
import proofs.«172434_g28836410425910_retrytranche2_620_32_alg».proof.Proof.KReg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Asm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items of the program

The program is five host operations (four reshapes of the biases into rows, one transpose), then the three kernel
regions. Between two items every unscoped buffer of a core holds a known value: the launch contents, then the
host operations' results, then after each region that region's arrays at what its write-backs leave. -/

/-- At launch. -/
abbrev W0 : Dev nD → Valuation τ sig (Elt F) := fun c b => (s₀ m ρ).mem ((c : Dev nD), b)
/-- After the host operations: the first region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first region: its arrays at what the pipeline leaves. -/
def W2 (c : Dev nD) : Valuation τ sig (Elt F) :=
  Pipeline.withArrays spec0 c (W1 m ρ c) fun w => (Reg0.dat (V1 m ρ) c).arrAt w cfg0.N
theorem W2_arr (c : Dev nD) (w : Fin cfg0.W) :
    W2 m ρ c (Proc.devRef .tc (Pipeline.arrRef spec0 w)) = (Reg0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Reg0.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second region. -/
def W3 (c : Dev nD) : Valuation τ sig (Elt F) :=
  Pipeline.withArrays spec1 c (W2 m ρ c) fun w => (Reg1.dat (V2 m ρ) c).arrAt w cfg1.N
theorem W3_arr (c : Dev nD) (w : Fin cfg1.W) :
    W3 m ρ c (Proc.devRef .tc (Pipeline.arrRef spec1 w)) = (Reg1.dat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (Reg1.dat (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the third region: only its one output array changes (two of its input windows read the same array, so
    the arrays are not pairwise distinct and the exit contents are stated as an update at the output). -/
def W4 (c : Dev nD) : Valuation τ sig (Elt F) :=
  Function.update (W3 m ρ c) (Proc.devRef .tc main_v7) ((Reg2.dat (V3 m ρ) c).arrAt 8 cfg2.N)
abbrev V4 : (c : Dev nD) → (b : Ref sig .tc) → Buf (Elt F) ((c : Thread nD τ).loc b) := fun c b => W4 m ρ c b
theorem W4_out (c : Dev nD) : W4 m ρ c (Proc.devRef .tc main_v7) = (Reg2.dat (V3 m ρ) c).arrAt 8 cfg2.N := by
  unfold W4; exact Function.update_self ..
theorem W4_of_ne (c : Dev nD) (b : Ref sig .tc) (hb : b ≠ main_v7) :
    W4 m ρ c (Proc.devRef .tc b) = W3 m ρ c (Proc.devRef .tc b) := by
  unfold W4; exact Function.update_of_ne (StableHlo.devRef_ne_of_ne hb) ..

/-! ## The proof data of the three pipelines and what rides beside the buffers -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => Reg0.dat (V1 m ρ) c
  | ⟨1, _⟩ => fun c => Reg1.dat (V2 m ρ) c
  | ⟨2, _⟩ => fun c => Reg2.dat (V3 m ρ) c
abbrev 𝒱₀ : Variants := Variants.none
abbrev L : GSem nD τ sig → Finset Unit := fun _ => ∅
abbrev lv : GSem nD τ sig → Unit → ℕ := fun _ _ => 0
/-- Beside the buffers: the core's generator register at some state, and that it owes nothing. -/
abbrev R (c : Dev nD) : sProp 𝕄 := iprop((∃ r, prngReg c r) ∗ ∃ W, owes (c : Thread nD τ) (0 : CellTallies nD τ sig Unit) W)
theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments of the program -/

set_option backward.isDefEq.respectTransparency.types false in
/-- The first region: entered with every unscoped buffer at `W1`, left with them at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation (V1 m ρ) c).loose
  hwaits := Pipeline.hwaits_of_owed_zero _ _ _ _ L lv 0 fun c t => Reg0.owed_eq (V1 m ρ) c t
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun w => Reg0.q_eq (V1 m ρ) c w) (V1 m ρ c) fun w => Reg0.A_eq (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 0 c).owed 0 = 0 from Reg0.owed_eq (V1 m ρ) c 0]
      icases HO with ⟨%W, HO⟩; iexists W; isplitr; · ipureintro; exact fun _ _ => Or.inl trivial
      iexact HO
    isplitl [Hp]; · iexact Hp
    iexact Hrest
  hin c := by
    rw [show (pdats m ρ 0 c).Φ 0 = (Reg0.dat (V1 m ρ) c).Φ 0 from rfl]
    iintro ⟨Hp, -, Hr⟩
    iapply (Reg0.phi_in (V1 m ρ) c)
    isplitl [Hp]; · iexact Hp
    iexact Hr
  hout c := by
    rw [Pipeline.ownSems0_none, show (pdats m ρ 0 c).Φ (Fin.last _) = (Reg0.dat (V1 m ρ) c).Φ (Fin.last cfg0.N) from rfl]
    iintro H
    ihave H' := (Reg0.phi_out (V1 m ρ) c) $$ H
    icases H' with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun w => Reg0.q_eq (V1 m ρ) c w)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 0 c).owed (Fin.last _) = 0 from Reg0.owed_eq (V1 m ρ) c _]
    icases HO with ⟨%W, -, HO⟩; iexists W; iexact HO
set_option backward.isDefEq.respectTransparency.types false in
/-- The first region: entered with every unscoped buffer at `W1`, left with them at `W2`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation (V2 m ρ) c).loose
  hwaits := Pipeline.hwaits_of_owed_zero _ _ _ _ L lv 1 fun c t => Reg1.owed_eq (V2 m ρ) c t
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun w => Reg1.q_eq (V2 m ρ) c w) (V2 m ρ c) fun w => Reg1.A_eq (V2 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 1 c).owed 0 = 0 from Reg1.owed_eq (V2 m ρ) c 0]
      icases HO with ⟨%W, HO⟩; iexists W; isplitr; · ipureintro; exact fun _ _ => Or.inl trivial
      iexact HO
    isplitl [Hp]; · iexact Hp
    iexact Hrest
  hin c := by
    rw [show (pdats m ρ 1 c).Φ 0 = (Reg1.dat (V2 m ρ) c).Φ 0 from rfl]
    iintro ⟨Hp, -, Hr⟩
    iapply (Reg1.phi_in (V2 m ρ) c)
    isplitl [Hp]; · iexact Hp
    iexact Hr
  hout c := by
    rw [Pipeline.ownSems0_none, show (pdats m ρ 1 c).Φ (Fin.last _) = (Reg1.dat (V2 m ρ) c).Φ (Fin.last cfg1.N) from rfl]
    iintro H
    ihave H' := (Reg1.phi_out (V2 m ρ) c) $$ H
    icases H' with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun w => Reg1.q_eq (V2 m ρ) c w)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 1 c).owed (Fin.last _) = 0 from Reg1.owed_eq (V2 m ρ) c _]
    icases HO with ⟨%W, -, HO⟩; iexists W; iexact HO

theorem hF2 (c : Dev nD) (w : Fin cfg2.W) : (Reg2.dat (V3 m ρ) c).arrAt w cfg2.N = V4 m ρ c (Pipeline.arrRef spec2 w) := by
  match w with
  | ⟨8, _⟩ => exact (W4_out m ρ c).symm
  | ⟨0, _⟩ => exact ((Reg2.dat (V3 m ρ) c).arrAt_in 0 rfl _).trans ((Reg2.A_eq (V3 m ρ) c 0).trans (W4_of_ne m ρ c _ (by decide)).symm)
  | ⟨1, _⟩ => exact ((Reg2.dat (V3 m ρ) c).arrAt_in 1 rfl _).trans ((Reg2.A_eq (V3 m ρ) c 1).trans (W4_of_ne m ρ c _ (by decide)).symm)
  | ⟨2, _⟩ => exact ((Reg2.dat (V3 m ρ) c).arrAt_in 2 rfl _).trans ((Reg2.A_eq (V3 m ρ) c 2).trans (W4_of_ne m ρ c _ (by decide)).symm)
  | ⟨3, _⟩ => exact ((Reg2.dat (V3 m ρ) c).arrAt_in 3 rfl _).trans ((Reg2.A_eq (V3 m ρ) c 3).trans (W4_of_ne m ρ c _ (by decide)).symm)
  | ⟨4, _⟩ => exact ((Reg2.dat (V3 m ρ) c).arrAt_in 4 rfl _).trans ((Reg2.A_eq (V3 m ρ) c 4).trans (W4_of_ne m ρ c _ (by decide)).symm)
  | ⟨5, _⟩ => exact ((Reg2.dat (V3 m ρ) c).arrAt_in 5 rfl _).trans ((Reg2.A_eq (V3 m ρ) c 5).trans (W4_of_ne m ρ c _ (by decide)).symm)
  | ⟨6, _⟩ => exact ((Reg2.dat (V3 m ρ) c).arrAt_in 6 rfl _).trans ((Reg2.A_eq (V3 m ρ) c 6).trans (W4_of_ne m ρ c _ (by decide)).symm)
  | ⟨7, _⟩ => exact ((Reg2.dat (V3 m ρ) c).arrAt_in 7 rfl _).trans ((Reg2.A_eq (V3 m ρ) c 7).trans (W4_of_ne m ρ c _ (by decide)).symm)
theorem hrest2 (c : Dev nD) : ∀ b, b ∉ Finset.univ.image (Pipeline.arrRef spec2) → V4 m ρ c b = V3 m ρ c b :=
  fun b hb => W4_of_ne m ρ c b fun e => hb (Finset.mem_image.mpr ⟨8, Finset.mem_univ _, e.symm⟩)

set_option backward.isDefEq.respectTransparency.types false in
/-- The third region: entered with every unscoped buffer at `W3`, left with them at `W4`. Two of its input windows
    read one array, each holding half of that buffer's share inside the region. -/
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (Reg2.body_obligation (V3 m ρ) c).loose
  hwaits := Pipeline.hwaits_of_owed_zero _ _ _ _ L lv 2 fun c t => Reg2.owed_eq (V3 m ρ) c t
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.unscopedBufs_split₀ (Ix := Unit) (Name := ℕ) (U := UR sig nD τ) (Lvl := ℕ) (Pipeline.pin (pcfgs (F := F)) adm) 2 winFacts₀2.arr_unscoped c (V3 m ρ c)
    rw [Pipeline.unscopedBufs_held] at hsplit
    rw [hsplit]
    iintro ⟨⟨⟨Hab, Hrest⟩, Hp, HO⟩, -, -⟩
    ihave Ha := (Reg2.arrays_in (V3 m ρ) c (V3 m ρ c) (fun w => (Reg2.dat (V3 m ρ) c).arrAt w 0) (fun w => Reg2.A_eq (V3 m ρ) c w)) $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 2 c).owed 0 = 0 from Reg2.owed_eq (V3 m ρ) c 0]
      icases HO with ⟨%W, HO⟩; iexists W; isplitr; · ipureintro; exact fun _ _ => Or.inl trivial
      iexact HO
    isplitl [Hp]; · iexact Hp
    iexact Hrest
  hin c := by
    rw [show (pdats m ρ 2 c).Φ 0 = (Reg2.dat (V3 m ρ) c).Φ 0 from rfl]
    iintro ⟨Hp, -, Hr⟩
    iapply (Reg2.phi_in (V3 m ρ) c)
    isplitl [Hp]; · iexact Hp
    iexact Hr
  hout c := by
    rw [Pipeline.ownSems0_none, show (pdats m ρ 2 c).Φ (Fin.last _) = (Reg2.dat (V3 m ρ) c).Φ (Fin.last cfg2.N) from rfl]
    iintro H
    ihave H' := (Reg2.phi_out (V3 m ρ) c) $$ H
    icases H' with ⟨Hp, Hr⟩
    isplitl [Hp]; · iexact Hp
    isplitr; · iempintro
    iexact Hr
  hexit c := by
    have hsplit := Pipeline.unscopedBufs_split₀ (Ix := Unit) (Name := ℕ) (U := UR sig nD τ) (Lvl := ℕ) (Pipeline.pin (pcfgs (F := F)) adm) 2 winFacts₀2.arr_unscoped c (V4 m ρ c)
    rw [Pipeline.unscopedBufs_held] at hsplit
    have hZ : (Pipeline.unscopedRest (Ix := Unit) (Name := ℕ) (U := UR sig nD τ) (Lvl := ℕ) spec2 c (V3 m ρ c) : sProp 𝕄)
        = Pipeline.unscopedRest spec2 c (V4 m ρ c) := by
      unfold Pipeline.unscopedRest
      exact bigSep_congr fun b hb => by rw [hrest2 m ρ c b (Finset.mem_sdiff.mp hb).2]
    have hgive : ((pdats m ρ 2 c).arrays fun w => (pdats m ρ 2 c).arrAt w (Pipeline.pin (pcfgs (F := F)) adm 2).N)
        ⊢ (Pipeline.arrBufs (Ix := Unit) (Name := ℕ) (U := UR sig nD τ) (Lvl := ℕ) spec2 c (V4 m ρ c) : sProp 𝕄) :=
      Reg2.arrays_out (V3 m ρ) c (V4 m ρ c) (fun w => (Reg2.dat (V3 m ρ) c).arrAt w cfg2.N) (hF2 m ρ c)
    have hback : iprop(Pipeline.arrBufs (Ix := Unit) (Name := ℕ) (U := UR sig nD τ) (Lvl := ℕ) spec2 c (V4 m ρ c)
          ∗ Pipeline.unscopedRest (Ix := Unit) (Name := ℕ) (U := UR sig nD τ) (Lvl := ℕ) spec2 c (V3 m ρ c))
        ⊢ (StableHlo.held (c : Thread nD τ) (Pipeline.ucRefs τ sig) (W4 m ρ c) : sProp 𝕄) := by
      rw [hsplit, hZ]; exact .rfl
    iintro ⟨Ha, HO, HY, Hrest⟩
    ihave Hab := hgive $$ Ha
    imodintro
    isplitl [Hab Hrest HY]
    · isplitl [Hab Hrest]
      · iapply hback; isplitl [Hab] <;> iassumption
      iexact HY
    unfold Pipeline.Dat.owesAt Pipeline.owesWithin
    rw [show (pdats m ρ 2 c).owed (Fin.last _) = 0 from Reg2.owed_eq (V3 m ρ) c _]
    icases HO with ⟨%W, -, HO⟩; iexists W; iexact HO

/-! ## The program as its segments, and the run -/

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ) ]
theorem main_run (c : Dev nD) : main (F := F) c = Pipeline.Seg.run (segs m ρ) := (main_chain c).trans (by chain_rfl)

set_option backward.isDefEq.respectTransparency.types false in
/-- THE RUN: from any memory with zero counters every weakly fair execution of the program on the TensorCores
    terminates, nothing faulting, and every final memory holds each unscoped buffer at `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-! ## The arguments end as launched, and where the two results are -/

theorem W1_of (c : Dev nD) (b : Ref sig .tc) (h : b ∉ ([main_v0, main_v1, main_v2, main_v3, main_v4] : List (Ref sig .tc))) :
    W1 m ρ c (Proc.devRef .tc b) = m ((c : Thread nD τ).loc b) :=
  StableHlo.after_of_forall_not_mem (b := Proc.devRef .tc b) _ _ (List.forall_iff_forall_mem.mp (by
    simp only [hostOps0, List.Forall, StableHlo.unary_writes, StableHlo.reshape_writes, Finset.mem_singleton]
    simp only [List.mem_cons, List.not_mem_nil, or_false, not_or] at h
    exact ⟨StableHlo.devRef_ne_of_ne h.1, StableHlo.devRef_ne_of_ne h.2.1, StableHlo.devRef_ne_of_ne h.2.2.1,
      StableHlo.devRef_ne_of_ne h.2.2.2.1, StableHlo.devRef_ne_of_ne h.2.2.2.2⟩))

/-- A buffer that is an INPUT window's array of the first region, or none of its arrays, is after it what it was. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((Reg0.dat (V1 m ρ) c).arrAt_in w hw _).trans (Reg0.A_eq (V1 m ρ) c w))
theorem W3_in (c : Dev nD) (w : Fin cfg1.W) (hw : (cfg1.win w).isOut = false) :
    W3 m ρ c (Proc.devRef .tc (Pipeline.arrRef spec1 w)) = W2 m ρ c (Proc.devRef .tc (Pipeline.arrRef spec1 w)) :=
  (W3_arr m ρ c w).trans (((Reg1.dat (V2 m ρ) c).arrAt_in w hw _).trans (Reg1.A_eq (V2 m ρ) c w))

theorem W4_main_arg0 (c : Dev nD) : W4 m ρ c (Proc.devRef .tc main_arg0) = m ((c : Thread nD τ).loc main_arg0) :=
  (W4_of_ne m ρ c main_arg0 (by decide)).trans <| (W3_of_ne m ρ c main_arg0 (by decide)).trans <| (W2_in m ρ c 1 rfl).trans (W1_of m ρ c main_arg0 (by decide))
theorem W4_main_arg1 (c : Dev nD) : W4 m ρ c (Proc.devRef .tc main_arg1) = m ((c : Thread nD τ).loc main_arg1) :=
  (W4_of_ne m ρ c main_arg1 (by decide)).trans <| (W3_of_ne m ρ c main_arg1 (by decide)).trans <| (W2_of_ne m ρ c main_arg1 (by decide)).trans (W1_of m ρ c main_arg1 (by decide))
theorem W4_main_arg2 (c : Dev nD) : W4 m ρ c (Proc.devRef .tc main_arg2) = m ((c : Thread nD τ).loc main_arg2) :=
  (W4_of_ne m ρ c main_arg2 (by decide)).trans <| (W3_of_ne m ρ c main_arg2 (by decide)).trans <| (W2_in m ρ c 0 rfl).trans (W1_of m ρ c main_arg2 (by decide))
theorem W4_main_arg3 (c : Dev nD) : W4 m ρ c (Proc.devRef .tc main_arg3) = m ((c : Thread nD τ).loc main_arg3) :=
  (W4_of_ne m ρ c main_arg3 (by decide)).trans <| (W3_of_ne m ρ c main_arg3 (by decide)).trans <| (W2_of_ne m ρ c main_arg3 (by decide)).trans (W1_of m ρ c main_arg3 (by decide))
theorem W4_main_arg4 (c : Dev nD) : W4 m ρ c (Proc.devRef .tc main_arg4) = m ((c : Thread nD τ).loc main_arg4) :=
  (W4_of_ne m ρ c main_arg4 (by decide)).trans <| (W3_of_ne m ρ c main_arg4 (by decide)).trans <| (W2_of_ne m ρ c main_arg4 (by decide)).trans (W1_of m ρ c main_arg4 (by decide))
theorem W4_main_arg5 (c : Dev nD) : W4 m ρ c (Proc.devRef .tc main_arg5) = m ((c : Thread nD τ).loc main_arg5) :=
  (W4_of_ne m ρ c main_arg5 (by decide)).trans <| (W3_of_ne m ρ c main_arg5 (by decide)).trans <| (W2_of_ne m ρ c main_arg5 (by decide)).trans (W1_of m ρ c main_arg5 (by decide))
theorem W4_main_arg6 (c : Dev nD) : W4 m ρ c (Proc.devRef .tc main_arg6) = m ((c : Thread nD τ).loc main_arg6) :=
  (W4_of_ne m ρ c main_arg6 (by decide)).trans <| (W3_of_ne m ρ c main_arg6 (by decide)).trans <| (W2_in m ρ c 2 rfl).trans (W1_of m ρ c main_arg6 (by decide))
theorem W4_main_arg7 (c : Dev nD) : W4 m ρ c (Proc.devRef .tc main_arg7) = m ((c : Thread nD τ).loc main_arg7) :=
  (W4_of_ne m ρ c main_arg7 (by decide)).trans <| (W3_of_ne m ρ c main_arg7 (by decide)).trans <| (W2_of_ne m ρ c main_arg7 (by decide)).trans (W1_of m ρ c main_arg7 (by decide))
theorem W4_main_arg8 (c : Dev nD) : W4 m ρ c (Proc.devRef .tc main_arg8) = m ((c : Thread nD τ).loc main_arg8) :=
  (W4_of_ne m ρ c main_arg8 (by decide)).trans <| (W3_of_ne m ρ c main_arg8 (by decide)).trans <| (W2_in m ρ c 4 rfl).trans (W1_of m ρ c main_arg8 (by decide))
theorem W4_main_arg9 (c : Dev nD) : W4 m ρ c (Proc.devRef .tc main_arg9) = m ((c : Thread nD τ).loc main_arg9) :=
  (W4_of_ne m ρ c main_arg9 (by decide)).trans <| (W3_of_ne m ρ c main_arg9 (by decide)).trans <| (W2_of_ne m ρ c main_arg9 (by decide)).trans (W1_of m ρ c main_arg9 (by decide))
theorem W4_main_arg10 (c : Dev nD) : W4 m ρ c (Proc.devRef .tc main_arg10) = m ((c : Thread nD τ).loc main_arg10) :=
  (W4_of_ne m ρ c main_arg10 (by decide)).trans <| (W3_of_ne m ρ c main_arg10 (by decide)).trans <| (W2_of_ne m ρ c main_arg10 (by decide)).trans (W1_of m ρ c main_arg10 (by decide))
theorem W4_main_arg11 (c : Dev nD) : W4 m ρ c (Proc.devRef .tc main_arg11) = m ((c : Thread nD τ).loc main_arg11) :=
  (W4_of_ne m ρ c main_arg11 (by decide)).trans <| (W3_of_ne m ρ c main_arg11 (by decide)).trans <| (W2_of_ne m ρ c main_arg11 (by decide)).trans (W1_of m ρ c main_arg11 (by decide))

/-- The second result of the program is the first region's first output array as that region leaves it. -/
theorem W4_main_v5_0 (c : Dev nD) : W4 m ρ c (Proc.devRef .tc main_v5_0) = (Reg0.dat (V1 m ρ) c).arrAt 6 cfg0.N :=
  (W4_of_ne m ρ c main_v5_0 (by decide)).trans <| (W3_of_ne m ρ c main_v5_0 (by decide)).trans (W2_arr m ρ c 6)

/-- THE FRAME, and with it both results: every weakly fair execution terminates without a fault; each argument
    array ends as launched; the results end at the contents `W4` names. -/
theorem run_results : θ_run defs (onTc (τ := τ) (main (F := F))) ⟨m, fun _ => 0, ρ⟩ (fun r => ∀ c : Dev nD,
      r.2.mem ((c.tc : Thread nD τ).loc main_v7) = W4 m ρ c (Proc.devRef .tc main_v7)
      ∧ r.2.mem ((c.tc : Thread nD τ).loc main_v5_0) = W4 m ρ c (Proc.devRef .tc main_v5_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨h c _ (mem_uc main_v7 (by decide)), h c _ (mem_uc main_v5_0 (by decide)),
    (h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c),
    (h c _ (mem_uc main_arg10 (by decide))).trans (W4_main_arg10 m ρ c),
    (h c _ (mem_uc main_arg11 (by decide))).trans (W4_main_arg11 m ρ c)⟩) (run_all m ρ)

/-- The frame alone. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => (h c).2.2) (run_results m ρ)

end Cert.Kernel.Asm

end
-- ==== Proof.Reg0.lean ====
import proofs.«172434_g28836410425910_retrytranche2_620_32_alg».proof.Proof.Gen.KernelIdeal.Launch
import proofs.«172434_g28836410425910_retrytranche2_620_32_alg».proof.Proof.Gen.KernelIdeal.Skeleton
import proofs.«172434_g28836410425910_retrytranche2_620_32_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

/-- The condition of the body's conditional, from the grid coordinates. -/
abbrev cond0 (i : grid0.Coords) : Prop := Scalar.cmpi .ne (Scalar.extui (Scalar.cmpi .eq (BitVec.ofNat 32 (i 0).val) 0#32)) 0#32 = 1#1
/-- It holds at the first point only — decided over the grid. -/
theorem hcond0 : ∀ t : Fin cfg0.N, cond0 (grid0.coords t) ↔ t.val = 0 :=
  (by decide +kernel : ∀ t : Fin grid0.N, cond0 (grid0.coords t) ↔ t.val = 0)

/-- The zero offsets of a rank-two rectangle, as a constant function. -/
theorem hz2 : (![0, 0] : Fin 2 → Nat) = fun _ => 0 := funext fun a => by fin_cases a <;> rfl

/-- One store through the whole-shape rectangle covers the shape. -/
theorem cover_whole {S : Shape} {e : EltTy} {off : Fin S.rank → Nat} (h : off = fun _ => 0) (inb : ∀ a, off a + S.size a ≤ S.size a)
    (p : (Rect.unit off S.size inb).shape.Idx → Elt F e) (y : S.Idx) :
    ∃ pc ∈ ([⟨Rect.unit off S.size inb, p⟩] : List (View.Piece (Elt F) S e)), y ∈ pc.1.set :=
  ⟨_, List.mem_singleton_self _, View.mem_set_unit_zero h inb y⟩

set_option maxHeartbeats 2000000 in
/-- The body at the first point (the condition holds): on whole staging memrefs, the inputs' at read contents `x·`, the
    outputs' and the scratch at anything, it runs to the continuation holding the inputs' as they were, the scratch at
    the projection `k0_pay1 x1 x2 x3` and the two outputs at their payloads over the block and that projection. -/
theorem sound_first (c : Dev nD) (E : Set ℕ) (i : grid0.Coords) (arg1 : Memref sig .tc .vmem S400x10000 .f32) (harg1 : arg1.IsWhole) (arg2 : Memref sig .tc .vmem S10000x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S400x256 .f32) (harg7 : arg7.IsWhole) (arg8 : Memref sig .tc .vmem S400x256 .f32) (harg8 : arg8.IsWhole) (arg9 : Memref sig .tc .vmem S10000x256 .bf16) (harg9 : arg9.IsWhole)
    (hc : cond0 i) (x0 : Vec F S400x10000 .f32) (x1 : Vec F S10000x256 .f32) (x2 : Vec F S256x256 .f32) (x3 : Vec F S1x256 .f32) (x4 : Vec F S256x256 .f32) (x5 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (k0_pay2 x0 (k0_pay1 x1 x2 x3))
            ∗ owns (c : Thread nD τ) arg8 fullShare (k0_pay3 x0 (k0_pay1 x1 x2 x3) x4 x5)
            ∗ owns (c : Thread nD τ) arg9 fullShare (k0_pay1 x1 x2 x3)) -∗ K ⟨⟩))
      ⊢ wp frame (wpE (defs₀ (F := F)) Variants.none c none) E (cc0__hyper_body i arg1 harg1 arg2 harg2 arg3 harg3 arg4 harg4 arg5 harg5 arg6 harg6 arg7 harg7 arg8 harg8 arg9 harg9) K := by
  simp only [cc0__hyper_body_eq_skeleton]; unfold cc0__hyper_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec (disch := first | exact hc)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    rw [View.read_writes_eq_canon _ _ _ (cover_whole hz2 _ _), View.canon_unit_zero hz2]
    sl_unfold_run_names
    rw [View.readCov_unit_zero _ hz2]
    simp only [View.readAt_eq_ld, View.ld_unit_zero (S := S400x10000) hz2, View.ld_unit_zero (S := S10000x256) hz2, View.ld_unit_zero (S := S256x256) hz2, View.ld_unit_zero (S := S1x256) hz2, View.ld_unit_zero (S := S400x256) hz2]
  isplitl [H7]
  · iexists _; isplitr
    swap; · iexact H7
    ipureintro
    rw [View.read_writes_eq_canon _ _ _ (cover_whole hz2 _ _), View.canon_unit_zero hz2]
    sl_unfold_run_names
    rw [View.readCov_unit_zero _ hz2]
    simp only [View.readAt_eq_ld, View.ld_unit_zero (S := S400x10000) hz2, View.ld_unit_zero (S := S10000x256) hz2, View.ld_unit_zero (S := S256x256) hz2, View.ld_unit_zero (S := S1x256) hz2, View.ld_unit_zero (S := S400x256) hz2]
  iexists _; isplitr
  swap; · iexact H8
  ipureintro
  sl_unfold_run_names
  rw [View.read_writes_eq_canon _ _ _ (cover_whole hz2 _ _), View.canon_unit_zero hz2]
  simp only [View.readAt_eq_ld, View.ld_unit_zero (S := S400x10000) hz2, View.ld_unit_zero (S := S10000x256) hz2, View.ld_unit_zero (S := S256x256) hz2, View.ld_unit_zero (S := S1x256) hz2, View.ld_unit_zero (S := S400x256) hz2]

set_option maxHeartbeats 2000000 in
/-- The body at a later point (the condition fails): the scratch, held at `xs`, is read and left as it is; the two
    outputs are left at their payloads over the block and `xs`. -/
theorem sound_later (c : Dev nD) (E : Set ℕ) (i : grid0.Coords) (arg1 : Memref sig .tc .vmem S400x10000 .f32) (harg1 : arg1.IsWhole) (arg2 : Memref sig .tc .vmem S10000x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S400x256 .f32) (harg7 : arg7.IsWhole) (arg8 : Memref sig .tc .vmem S400x256 .f32) (harg8 : arg8.IsWhole) (arg9 : Memref sig .tc .vmem S10000x256 .bf16) (harg9 : arg9.IsWhole)
    (hc : ¬cond0 i) (x0 : Vec F S400x10000 .f32) (x1 : Vec F S10000x256 .f32) (x2 : Vec F S256x256 .f32) (x3 : Vec F S1x256 .f32) (x4 : Vec F S256x256 .f32) (x5 : Vec F S1x256 .f32) (xs : Vec F S10000x256 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ owns (c : Thread nD τ) arg9 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (k0_pay2 x0 xs)
            ∗ owns (c : Thread nD τ) arg8 fullShare (k0_pay3 x0 xs x4 x5)
            ∗ owns (c : Thread nD τ) arg9 fullShare xs) -∗ K ⟨⟩))
      ⊢ wp frame (wpE (defs₀ (F := F)) Variants.none c none) E (cc0__hyper_body i arg1 harg1 arg2 harg2 arg3 harg3 arg4 harg4 arg5 harg5 arg6 harg6 arg7 harg7 arg8 harg8 arg9 harg9) K := by
  simp only [cc0__hyper_body_eq_skeleton]; unfold cc0__hyper_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, Hk⟩
  subst hf0 hf1 hf2 hf3 hf4 hf5 hf8
  sl_exec (disch := first | exact hc)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    rw [View.read_writes_eq_canon _ _ _ (cover_whole hz2 _ _), View.canon_unit_zero hz2]
    simp only [View.readAt_eq_ld, View.ld_unit_zero (S := S400x10000) hz2, View.ld_unit_zero (S := S10000x256) hz2, View.ld_unit_zero (S := S256x256) hz2, View.ld_unit_zero (S := S1x256) hz2, View.ld_unit_zero (S := S400x256) hz2]
  isplitl [H7]
  · iexists _; isplitr
    swap; · iexact H7
    ipureintro
    rw [View.read_writes_eq_canon _ _ _ (cover_whole hz2 _ _), View.canon_unit_zero hz2]
    simp only [View.readAt_eq_ld, View.ld_unit_zero (S := S400x10000) hz2, View.ld_unit_zero (S := S10000x256) hz2, View.ld_unit_zero (S := S256x256) hz2, View.ld_unit_zero (S := S1x256) hz2, View.ld_unit_zero (S := S400x256) hz2]
  iexists f8; isplitr; · ipureintro; rfl
  iexact H8

-- the TensorCore's buffer contents when the region is entered: a PARAMETER
variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, fetched there or not, for any proof
    data whose array is `V`'s and whose body leaves the block in place: unfetched, the block index has not moved. -/

theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The first point of the grid. -/
def t00 : Fin cfg0.N := ⟨0, by decide⟩

/-- What the scratch holds from the first point on: the projection of the whole first operand, computed once. -/
def scr (c : Dev nD) : Vec F S10000x256 .bf16 := k0_pay1 (iblk V c 1 t00) (iblk V c 2 t00) (iblk V c 3 t00)

/-- The invariant before point `t`: the scoped rest but the scratch, the generator register at some state, and the
    scratch whole at some contents — from the second point on, the projection `scr`. -/
def Phi (c : Dev nD) (n : ℕ) : sProp 𝕄 :=
  iprop(Pipeline.scopedRestBut (Ix := Unit) (Name := ℕ) (U := UR sig nD τ) (Lvl := ℕ) (Val := Elt F) spec0 c [cc0_scratch0]
    ∗ (∃ r, prngReg c r)
    ∗ ∃ f : Vec F S10000x256 .bf16, owns (c : Thread nD τ) (Memref.whole cc0_scratch0) fullShare f ∗ ⌜n ≠ 0 → f = scr V c⌝)

/-- The proof data of the region on core `c`: the arrays as the region finds them; after the body at point `t` each
    input's buffer at its block, the two outputs' at their payloads over the block and the projection; nothing owed;
    full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => k0_pay2 (iblk V c 0 t) (scr V c)
    | ⟨7, _⟩ => k0_pay3 (iblk V c 0 t) (scr V c) (iblk V c 4 t) (iblk V c 5 t)
  Φ t := Phi V c t.val
  q _ := fullShare
  owed _ := 0

theorem A_eq (c : Dev nD) (w : Fin cfg0.W) : (dat V c).A w = V c (Pipeline.arrRef spec0 w) := by
  dsimp only [dat]
theorem q_eq (c : Dev nD) (w : Fin cfg0.W) : (dat V c).q w = fullShare := by
  dsimp only [dat]
theorem owed_eq (c : Dev nD) (t : Fin (cfg0.N + 1)) : (dat V c).owed t = 0 := by
  dsimp only [dat]
theorem Phi_eq (c : Dev nD) (t : Fin (cfg0.N + 1)) : (dat V c).Φ t = Phi V c t.val := by
  dsimp only [dat]

theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = iblk V c 4 t := by dsimp only [dat]
theorem after5 (c : Dev nD) (t : Fin cfg0.N) : (dat V c).after 5 t = iblk V c 5 t := by dsimp only [dat]
theorem after6 (c : Dev nD) (t : Fin cfg0.N) : (dat V c).after 6 t = k0_pay2 (iblk V c 0 t) (scr V c) := by dsimp only [dat]
theorem after7 (c : Dev nD) (t : Fin cfg0.N) : (dat V c).after 7 t = k0_pay3 (iblk V c 0 t) (scr V c) (iblk V c 4 t) (iblk V c 5 t) := by dsimp only [dat]

theorem before0 (c : Dev nD) (t : Fin cfg0.N) (d) : (dat V c).before 0 t d = iblk V c 0 t :=
  before0_of V (dat V c) (A_eq V c 0) (after0 V c) t d
theorem before1 (c : Dev nD) (t : Fin cfg0.N) (d) : (dat V c).before 1 t d = iblk V c 1 t :=
  before1_of V (dat V c) (A_eq V c 1) (after1 V c) t d
theorem before2 (c : Dev nD) (t : Fin cfg0.N) (d) : (dat V c).before 2 t d = iblk V c 2 t :=
  before2_of V (dat V c) (A_eq V c 2) (after2 V c) t d
theorem before3 (c : Dev nD) (t : Fin cfg0.N) (d) : (dat V c).before 3 t d = iblk V c 3 t :=
  before3_of V (dat V c) (A_eq V c 3) (after3 V c) t d
theorem before4 (c : Dev nD) (t : Fin cfg0.N) (d) : (dat V c).before 4 t d = iblk V c 4 t :=
  before4_of V (dat V c) (A_eq V c 4) (after4 V c) t d
theorem before5 (c : Dev nD) (t : Fin cfg0.N) (d) : (dat V c).before 5 t d = iblk V c 5 t :=
  before5_of V (dat V c) (A_eq V c 5) (after5 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t))

set_option maxHeartbeats 4000000 in
/-- The body at any point: the inputs' memrefs hold their blocks; at the first point the scratch is at anything and the
    body fills it with the projection, afterwards the invariant hands it over at the projection and takes it back
    unchanged; the core's `owes` pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4, before5]
  rw [show (dat V c).owesAt () t.succ = (dat V c).owesAt () t.castSucc from rfl,
    after0, after1, after2, after3, after4, after5, after6, after7, Phi_eq, Phi_eq]
  unfold Phi
  by_cases h0 : t.val = 0
  · obtain rfl : t = t00 := Fin.ext h0
    iintro ⟨⟨Hr, Hg, ⟨%f, Hs, -⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_first c Set.univ (grid0.coords t00) _ _ _ _ _ _ _ _ _ _ _ _ _ _ _ _ _ _ ((hcond0 t00).mpr rfl)
      (iblk V c 0 t00) (iblk V c 1 t00) (iblk V c 2 t00) (iblk V c 3 t00) (iblk V c 4 t00) (iblk V c 5 t00) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [Hs]; · iexists _; iexact Hs
    iintro ⟨H0, H1, H2, H3, H4, H5, H6, H7, Hs⟩
    isplitl [Hr Hg Hs]
    · isplitl [Hr]; · iexact Hr
      isplitl [Hg]; · iexact Hg
      iexists _; isplitl [Hs]; · iexact Hs
      ipureintro; intro _; rfl
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · iintro ⟨⟨Hr, Hg, ⟨%f, Hs, %hf⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
    obtain rfl : f = scr V c := hf h0
    iapply (sound_later c Set.univ (grid0.coords t) _ _ _ _ _ _ _ _ _ _ _ _ _ _ _ _ _ _ (fun h => h0 ((hcond0 t).mp h))
      (iblk V c 0 t) (iblk V c 1 t) (iblk V c 2 t) (iblk V c 3 t) (iblk V c 4 t) (iblk V c 5 t) (scr V c) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [Hs]; · iexact Hs
    iintro ⟨H0, H1, H2, H3, H4, H5, H6, H7, Hs⟩
    isplitl [Hr Hg Hs]
    · isplitl [Hr]; · iexact Hr
      isplitl [Hg]; · iexact Hg
      iexists _; isplitl [Hs]; · iexact Hs
      ipureintro; intro _; rfl
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation, at every point. -/
theorem body_obligation (c : Dev nD) : BodyObligation (dat (F := F) V c) (defs₀ (F := F)) Variants.none () Set.univ := fun t => by
  rw [bigSep_W0, bigSep_W0]
  exact sound_body V c t

/-! ## The invariant's two ends -/

/-- The scoped rest split at the region's own scratch. -/
theorem scopedRest0_split (c : Dev nD) :
    (Pipeline.scopedRest (Ix := Unit) (Name := ℕ) (U := UR sig nD τ) (Lvl := ℕ) (Val := Elt F) spec0 c : sProp 𝕄)
      = iprop(iprop((∃ f : Buf (Elt F) ((c : Thread nD τ).loc cc0_scratch0), ((c : Thread nD τ).loc cc0_scratch0) ↦{fullShare} f))
          ∗ Pipeline.scopedRestBut (Ix := Unit) (Name := ℕ) (U := UR sig nD τ) (Lvl := ℕ) (Val := Elt F) spec0 c [cc0_scratch0]) :=
  Pipeline.scopedRest_split_of_list spec0 c [cc0_scratch0] (by decide) (by decide)

/-- What the region is entered with makes the invariant before the first point: the scratch at anything. -/
theorem phi_in (c : Dev nD) : iprop((∃ r, prngReg c r) ∗ Pipeline.scopedRest (Ix := Unit) (Name := ℕ) (U := UR sig nD τ) (Lvl := ℕ) (Val := Elt F) spec0 c) ⊢ ((dat V c).Φ 0 : sProp 𝕄) := by
  rw [Phi_eq, scopedRest0_split]; unfold Phi
  simp only [owns_whole]
  iintro ⟨Hg, ⟨%f, Hs⟩, Hr⟩
  isplitl [Hr]; · iexact Hr
  isplitl [Hg]; · iexact Hg
  iexists f; isplitl [Hs]
  · iexact Hs
  ipureintro; intro h; exact absurd rfl h

/-- After the last point the invariant gives it back: the scratch's named contents are forgotten. -/
theorem phi_out (c : Dev nD) : ((dat V c).Φ (Fin.last cfg0.N) : sProp 𝕄) ⊢ iprop((∃ r, prngReg c r) ∗ Pipeline.scopedRest (Ix := Unit) (Name := ℕ) (U := UR sig nD τ) (Lvl := ℕ) (Val := Elt F) spec0 c) := by
  rw [Phi_eq, scopedRest0_split]; unfold Phi
  simp only [owns_whole]
  iintro ⟨Hr, Hg, ⟨%f, Hs, -⟩⟩
  isplitl [Hg]; · iexact Hg
  isplitl [Hs]
  · iexists f; iexact Hs
  iexact Hr

end Cert.KernelIdeal.Reg0

end
-- ==== Proof.Reg1.lean ====
import proofs.«172434_g28836410425910_retrytranche2_620_32_alg».proof.Proof.Gen.KernelIdeal.Launch
import proofs.«172434_g28836410425910_retrytranche2_620_32_alg».proof.Proof.Gen.KernelIdeal.Skeleton
import proofs.«172434_g28836410425910_retrytranche2_620_32_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
-- the TensorCore's buffer contents when the region is entered: a PARAMETER
variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, for any proof data whose array is
    `V`'s and whose body leaves the block in place. -/
theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's three conditions, in closed form over the grid -/

/-- "This is the first point": the condition of the first `scf.if`. -/
abbrev condA (i : grid1.Coords) : Prop :=
  (Scalar.cmpi .ne (Scalar.extui (Scalar.cmpi .eq (BitVec.ofNat 32 (i 0).val) 0#32)) 0#32) = 1#1
/-- "This is not the first point": the condition of the second. -/
abbrev condB (i : grid1.Coords) : Prop :=
  (Scalar.cmpi .ne (Scalar.extui (Scalar.cmpi .ne (BitVec.ofNat 32 (i 0).val) 0#32)) 0#32) = 1#1
/-- "This is the last point": the condition of the third. -/
abbrev condC (i : grid1.Coords) : Prop := k1_cond3 i = 1#1

theorem hcondA : ∀ t : Fin cfg1.N, condA (grid1.coords t) ↔ t.val = 0 :=
  (by decide +kernel : ∀ t : Fin grid1.N, condA (grid1.coords t) ↔ t.val = 0)
theorem hcondB : ∀ t : Fin cfg1.N, condB (grid1.coords t) ↔ t.val ≠ 0 :=
  (by decide +kernel : ∀ t : Fin grid1.N, condB (grid1.coords t) ↔ t.val ≠ 0)
theorem hcondC : ∀ t : Fin cfg1.N, condC (grid1.coords t) ↔ t.val = 4 :=
  (by decide +kernel : ∀ t : Fin grid1.N, condC (grid1.coords t) ↔ t.val = 4)

/-! ## Where the windows are idle and where the output is written back -/

theorem liveAt0 : ∀ t : Fin cfg1.N, cfg1.idle 0 (grid1.coords t) = false := by decide +kernel
theorem liveAt1 : ∀ t : Fin cfg1.N, cfg1.idle 1 (grid1.coords t) = false := by decide +kernel
theorem idleAt2 : ∀ t : Fin cfg1.N, t.val ≠ 4 → cfg1.idle 2 (grid1.coords t) = true := by decide +kernel
theorem liveAt2 : ∀ t : Fin cfg1.N, t.val = 4 → cfg1.idle 2 (grid1.coords t) = false := by decide +kernel
theorem noFlush2 : ∀ t : Fin cfg1.N, t.val ≠ 4 → (cfg1.win 2).flush t = false := by decide +kernel

/-! ## The body's accesses: every one is of a whole buffer -/

abbrev rA : Rect S400x10000 := Rect.unit (s := S400x10000) ![0, 0] S400x10000.size inb_S400x10000_S400x10000_0_0
abbrev rZ : Rect S400x256 := Rect.unit (s := S400x256) ![0, 0] S400x256.size inb_S400x256_S400x256_0_0
abbrev rS : Rect S10000x256 := Rect.unit (s := S10000x256) ![0, 0] S10000x256.size inb_S10000x256_S10000x256_0_0

theorem zeros2 : (![0, 0] : Fin 2 → ℕ) = fun _ => 0 := by funext a; fin_cases a <;> rfl

/-- A load of the whole shape at zero offsets reads what the view reads. -/
theorem readAt_whole {sp : Space} {S : Shape} {e : EltTy} (v : View sig .tc sp S e) (f : v.ty.Contents (Elt F))
    {off : Fin S.rank → ℕ} (h : off = fun _ => 0) (inb : ∀ a, off a + S.size a ≤ S.size a) :
    v.readAt (Elt F) (Rect.unit off S.size inb).toLoadRect f = v.read (Elt F) f :=
  (View.readAt_eq_ld v f (Rect.unit off S.size inb)).trans (View.ld_unit_zero h inb _)

/-- One store of the whole shape at zero offsets leaves its payload. -/
theorem read_write_whole {sp : Space} {S : Shape} {e : EltTy} (v : View sig .tc sp S e) (f : v.ty.Contents (Elt F))
    {off : Fin S.rank → ℕ} (h : off = fun _ => 0) (inb : ∀ a, off a + S.size a ≤ S.size a) (w : S.Idx → Elt F e) :
    v.read (Elt F) (v.writes (Elt F) f [⟨Rect.unit off S.size inb, w⟩]) = w :=
  (View.read_writes_eq_canon v f _ (fun y => ⟨_, List.mem_singleton_self _, View.mem_set_unit_zero h inb y⟩)).trans
    (View.canon_unit_zero h inb w)

set_option maxHeartbeats 1000000 in
/-- The body at the first point: the accumulator is set to the partial product; the output is not touched. -/
theorem tripleA (c : Dev nD) (E : Set ℕ) (i : grid1.Coords)
    (arg1 : Memref sig .tc .vmem S400x10000 .f32) (harg1 : arg1.IsWhole) (arg2 : Memref sig .tc .vmem S400x256 .f32) (harg2 : arg2.IsWhole)
    (arg3 : Memref sig .tc .vmem S10000x256 .bf16) (harg3 : arg3.IsWhole) (arg4 : Memref sig .tc .vmem S10000x256 .f32) (harg4 : arg4.IsWhole)
    (hA : condA i) (hB : ¬ condB i) (hC : ¬ condC i)
    (x0 : Vec F S400x10000 .f32) (x1 : Vec F S400x256 .f32) (K : PUnit → sProp 𝕄) :
    iprop(owns (c : Thread nD τ) arg1 fullShare x0 ∗ owns (c : Thread nD τ) arg2 fullShare x1 ∗ (∃ s, owns (c : Thread nD τ) arg4 fullShare s)
        ∗ (iprop(owns (c : Thread nD τ) arg1 fullShare x0 ∗ owns (c : Thread nD τ) arg2 fullShare x1
              ∗ owns (c : Thread nD τ) arg4 fullShare (k1_pay2 x0 x1)) -∗ K ⟨⟩))
      ⊢ wp frame (wpE (defs₀ (F := F)) Variants.none c none) E (cc1__hg_body i arg1 harg1 arg2 harg2 arg3 harg3 arg4 harg4) K := by
  simp only [cc1__hg_body_eq_skeleton]; unfold cc1__hg_body_skel
  unfold owns
  iintro ⟨⟨%f0, %hf0, H0⟩, ⟨%f1, %hf1, H1⟩, ⟨%s, %fs, -, HS⟩, Hk⟩
  subst hf0; subst hf1
  sl_exec (disch := first | exact hA | exact hB | exact hC)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [read_write_whole _ _ zeros2, readAt_whole _ _ zeros2, readAt_whole _ _ zeros2]

set_option maxHeartbeats 1000000 in
/-- The body at a middle point: the partial product is added to the accumulator; the output is not touched. -/
theorem tripleB (c : Dev nD) (E : Set ℕ) (i : grid1.Coords)
    (arg1 : Memref sig .tc .vmem S400x10000 .f32) (harg1 : arg1.IsWhole) (arg2 : Memref sig .tc .vmem S400x256 .f32) (harg2 : arg2.IsWhole)
    (arg3 : Memref sig .tc .vmem S10000x256 .bf16) (harg3 : arg3.IsWhole) (arg4 : Memref sig .tc .vmem S10000x256 .f32) (harg4 : arg4.IsWhole)
    (hA : ¬ condA i) (hB : condB i) (hC : ¬ condC i)
    (x0 : Vec F S400x10000 .f32) (x1 : Vec F S400x256 .f32) (s : Vec F S10000x256 .f32) (K : PUnit → sProp 𝕄) :
    iprop(owns (c : Thread nD τ) arg1 fullShare x0 ∗ owns (c : Thread nD τ) arg2 fullShare x1 ∗ owns (c : Thread nD τ) arg4 fullShare s
        ∗ (iprop(owns (c : Thread nD τ) arg1 fullShare x0 ∗ owns (c : Thread nD τ) arg2 fullShare x1
              ∗ owns (c : Thread nD τ) arg4 fullShare (k1_pay3 x0 x1 s)) -∗ K ⟨⟩))
      ⊢ wp frame (wpE (defs₀ (F := F)) Variants.none c none) E (cc1__hg_body i arg1 harg1 arg2 harg2 arg3 harg3 arg4 harg4) K := by
  simp only [cc1__hg_body_eq_skeleton]; unfold cc1__hg_body_skel
  unfold owns
  iintro ⟨⟨%f0, %hf0, H0⟩, ⟨%f1, %hf1, H1⟩, ⟨%fs, %hfs, HS⟩, Hk⟩
  subst hf0; subst hf1; subst hfs
  sl_exec (disch := first | exact hA | exact hB | exact hC)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [read_write_whole _ _ zeros2, readAt_whole _ _ zeros2, readAt_whole _ _ zeros2, readAt_whole _ _ zeros2]

set_option maxHeartbeats 1000000 in
/-- The body at the last point: the partial product is added to the accumulator and the output block is set to the
    rectified, rounded accumulator. -/
theorem tripleC (c : Dev nD) (E : Set ℕ) (i : grid1.Coords)
    (arg1 : Memref sig .tc .vmem S400x10000 .f32) (harg1 : arg1.IsWhole) (arg2 : Memref sig .tc .vmem S400x256 .f32) (harg2 : arg2.IsWhole)
    (arg3 : Memref sig .tc .vmem S10000x256 .bf16) (harg3 : arg3.IsWhole) (arg4 : Memref sig .tc .vmem S10000x256 .f32) (harg4 : arg4.IsWhole)
    (hA : ¬ condA i) (hB : condB i) (hC : condC i)
    (x0 : Vec F S400x10000 .f32) (x1 : Vec F S400x256 .f32) (s : Vec F S10000x256 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare s
        ∗ (iprop(owns (c : Thread nD τ) arg1 fullShare x0 ∗ owns (c : Thread nD τ) arg2 fullShare x1
              ∗ owns (c : Thread nD τ) arg3 fullShare (k1_pay4 (k1_pay3 x0 x1 s))
              ∗ owns (c : Thread nD τ) arg4 fullShare (k1_pay3 x0 x1 s)) -∗ K ⟨⟩))
      ⊢ wp frame (wpE (defs₀ (F := F)) Variants.none c none) E (cc1__hg_body i arg1 harg1 arg2 harg2 arg3 harg3 arg4 harg4) K := by
  simp only [cc1__hg_body_eq_skeleton]; unfold cc1__hg_body_skel
  unfold owns
  iintro ⟨⟨%f0, %hf0, H0⟩, ⟨%f1, %hf1, H1⟩, ⟨%d, %f3, -, H3⟩, ⟨%fs, %hfs, HS⟩, Hk⟩
  subst hf0; subst hf1; subst hfs
  sl_exec (disch := first | exact hA | exact hB | exact hC)
  sl_step
  iapply Hk
  isplitl [H0]
  · iexists f0; isplitr; · ipureintro; rfl
    iexact H0
  isplitl [H1]
  · iexists f1; isplitr; · ipureintro; rfl
    iexact H1
  isplitl [H3]
  · iexists _; isplitr
    swap; · iexact H3
    ipureintro
    sl_unfold_run_names
    rw [read_write_whole _ _ zeros2, View.readCov_unit_zero _ zeros2, readAt_whole _ _ zeros2, readAt_whole _ _ zeros2,
      readAt_whole _ _ zeros2]
  iexists _; isplitr
  swap; · iexact HS
  ipureintro
  sl_unfold_run_names
  rw [read_write_whole _ _ zeros2, readAt_whole _ _ zeros2, readAt_whole _ _ zeros2, readAt_whole _ _ zeros2]

/-! ## The accumulator, point by point -/

theorem N5 : cfg1.N = 5 := N_1

/-- The point numbered `n` modulo five: every natural number names a point. -/
def pt (n : ℕ) : Fin cfg1.N := ⟨n % 5, lt_of_lt_of_eq (Nat.mod_lt n (by decide)) N5.symm⟩

theorem pt_val (t : Fin cfg1.N) : pt t.val = t :=
  Fin.ext (Nat.mod_eq_of_lt (lt_of_lt_of_eq t.isLt N5))

/-- What the accumulator holds after the body at point `n`: the first partial product at the first point, the
    point's partial product added to what the point before left afterwards. -/
def acc (c : Dev nD) : ℕ → Vec F S10000x256 .f32
  | 0 => k1_pay2 (iblk V c 0 (pt 0)) (iblk V c 1 (pt 0))
  | n + 1 => k1_pay3 (iblk V c 0 (pt (n + 1))) (iblk V c 1 (pt (n + 1))) (acc c n)

theorem acc_zero (c : Dev nD) : acc V c 0 = k1_pay2 (iblk V c 0 (pt 0)) (iblk V c 1 (pt 0)) := by rw [acc]
theorem acc_succ (c : Dev nD) (n : ℕ) :
    acc V c (n + 1) = k1_pay3 (iblk V c 0 (pt (n + 1))) (iblk V c 1 (pt (n + 1))) (acc V c n) := by rw [acc]

theorem acc_at_zero (c : Dev nD) (t : Fin cfg1.N) (h : t.val = 0) :
    acc V c t.val = k1_pay2 (iblk V c 0 t) (iblk V c 1 t) := by
  have e := pt_val t
  rw [h] at e ⊢
  rw [acc_zero, e]

theorem acc_at_pos (c : Dev nD) (t : Fin cfg1.N) (h : t.val ≠ 0) :
    acc V c t.val = k1_pay3 (iblk V c 0 t) (iblk V c 1 t) (acc V c (t.val - 1)) := by
  have e := pt_val t
  obtain ⟨n, hn⟩ : ∃ n, t.val = n + 1 := ⟨t.val - 1, by omega⟩
  rw [hn] at e ⊢
  rw [acc_succ, e, Nat.add_sub_cancel]

/-! ## The invariant between points -/

/-- The kernel's accumulator: a whole scoped buffer of its own. -/
abbrev scM : Memref sig .tc .vmem S10000x256 .f32 := Memref.whole cc1_scratch0

/-- Every scoped buffer that is neither a staging buffer of this call nor its accumulator, unopened. -/
abbrev SR (c : Dev nD) : sProp 𝕄 :=
  Pipeline.scopedRestBut (Ix := Unit) (Name := ℕ) (U := UR sig nD τ) (Lvl := ℕ) (Val := Elt F) spec1 c [cc1_scratch0]

/-- Before the first point the accumulator holds anything; before point `n + 1` what point `n` left in it. The other
    scoped buffers and the generator register ride along. -/
def Phi (c : Dev nD) : ℕ → sProp 𝕄
  | 0 => iprop(SR c ∗ (∃ r, prngReg c r) ∗ ∃ s, owns (c : Thread nD τ) scM fullShare s)
  | n + 1 => iprop(SR c ∗ (∃ r, prngReg c r) ∗ owns (c : Thread nD τ) scM fullShare (acc V c n))

theorem Phi_zero (c : Dev nD) (n : ℕ) (h : n = 0) :
    Phi V c n = iprop(SR c ∗ (∃ r, prngReg c r) ∗ ∃ s, owns (c : Thread nD τ) scM fullShare s) := by
  subst h; rfl
theorem Phi_succ (c : Dev nD) (n : ℕ) :
    Phi V c (n + 1) = iprop(SR c ∗ (∃ r, prngReg c r) ∗ owns (c : Thread nD τ) scM fullShare (acc V c n)) := rfl
theorem Phi_pos (c : Dev nD) (n : ℕ) (h : n ≠ 0) :
    Phi V c n = iprop(SR c ∗ (∃ r, prngReg c r) ∗ owns (c : Thread nD τ) scM fullShare (acc V c (n - 1))) := by
  cases n with
  | zero => exact absurd rfl h
  | succ n => rfl

/-! ## The proof data -/

/-- The arrays as the region finds them; after the body each input's buffer at its block and the output's at the
    rectified, rounded accumulator (consulted at the last point only); the invariant `Phi`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => k1_pay4 (acc V c t.val)
  Φ t := Phi V c t.val
  q _ := fullShare
  owed _ := 0

theorem A_eq (c : Dev nD) (w : Fin cfg1.W) : (dat V c).A w = V c (Pipeline.arrRef spec1 w) := by
  dsimp only [dat]
theorem q_eq (c : Dev nD) (w : Fin cfg1.W) : (dat V c).q w = fullShare := by
  dsimp only [dat]
theorem owed_eq (c : Dev nD) (t) : (dat V c).owed t = 0 := by
  dsimp only [dat]

theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = k1_pay4 (acc V c t.val) := by dsimp only [dat]

theorem before0 (c : Dev nD) (t : Fin cfg1.N) (d) : (dat V c).before 0 t d = iblk V c 0 t :=
  before0_of V (dat V c) (A_eq V c 0) (after0 V c) t d
theorem before1 (c : Dev nD) (t : Fin cfg1.N) (d) : (dat V c).before 1 t d = iblk V c 1 t :=
  before1_of V (dat V c) (A_eq V c 1) (after1 V c) t d

theorem Phi_castSucc (c : Dev nD) (t : Fin cfg1.N) : (dat V c).Φ t.castSucc = Phi V c t.val := by
  dsimp only [dat]; simp only [Fin.coe_castSucc]

/-! ## The body obligation -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4000000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1]
  rw [show (dat V c).owesAt () t.succ = (dat V c).owesAt () t.castSucc from rfl]
  rw [show (dat V c).Φ t.succ = Phi V c (t.val + 1) from rfl, Phi_succ, Phi_castSucc]
  rw [show (dat V c).leavesExact 0 t = owns (c : Thread nD τ) (st1_0 t) fullShare ((dat V c).after 0 t) from by
    unfold Dat.leavesExact; rw [liveAt0 t], after0]
  rw [show (dat V c).leavesExact 1 t = owns (c : Thread nD τ) (st1_1 t) fullShare ((dat V c).after 1 t) from by
    unfold Dat.leavesExact; rw [liveAt1 t], after1]
  have hN : t.val < 5 := lt_of_lt_of_eq t.isLt N5
  by_cases h0 : t.val = 0
  · rw [Dat.leavesExact_idle (dat V c) 2 t (idleAt2 t (by omega)) (noFlush2 t (by omega))]
    rw [acc_at_zero V c t h0, Phi_zero V c _ h0]
    iintro ⟨⟨HR, Hg, ⟨%s, HS⟩⟩, Ho, ⟨%d0, H0⟩, ⟨%d1, H1⟩, H2⟩
    iapply (tripleA c Set.univ (grid1.coords t) _ _ _ _ _ _ _ _ ((hcondA t).mpr h0) (fun h => (hcondB t).mp h h0)
      (fun h => by have := (hcondC t).mp h; omega) (iblk V c 0 t) (iblk V c 1 t) _)
    isplitl [H0]; · iexact H0
    isplitl [H1]; · iexact H1
    isplitl [HS]; · iexists _; iexact HS
    iintro ⟨H0, H1, HS⟩
    isplitl [HR Hg HS]
    · isplitl [HR]; · iexact HR
      isplitl [Hg]; · iexact Hg
      iexact HS
    isplitl [Ho]; · iexact Ho
    isplitl [H0]; · iexact H0
    isplitl [H1]; · iexact H1
    iexact H2
  · by_cases h4 : t.val = 4
    · rw [show (dat V c).leavesExact 2 t = owns (c : Thread nD τ) (st1_2 t) fullShare ((dat V c).after 2 t) from by
        unfold Dat.leavesExact; rw [liveAt2 t h4], after2]
      rw [acc_at_pos V c t h0, Phi_pos V c _ h0]
      iintro ⟨⟨HR, Hg, HS⟩, Ho, ⟨%d0, H0⟩, ⟨%d1, H1⟩, ⟨%d2, H2⟩⟩
      iapply (tripleC c Set.univ (grid1.coords t) _ _ _ _ _ _ _ _ (fun h => h0 ((hcondA t).mp h)) ((hcondB t).mpr h0)
        ((hcondC t).mpr h4) (iblk V c 0 t) (iblk V c 1 t) (acc V c (t.val - 1)) _)
      isplitl [H0]; · iexact H0
      isplitl [H1]; · iexact H1
      isplitl [H2]; · iexists _; iexact H2
      isplitl [HS]; · iexact HS
      iintro ⟨H0, H1, H2, HS⟩
      isplitl [HR Hg HS]
      · isplitl [HR]; · iexact HR
        isplitl [Hg]; · iexact Hg
        iexact HS
      isplitl [Ho]; · iexact Ho
      isplitl [H0]; · iexact H0
      isplitl [H1]; · iexact H1
      iexact H2
    · rw [Dat.leavesExact_idle (dat V c) 2 t (idleAt2 t h4) (noFlush2 t h4)]
      rw [acc_at_pos V c t h0, Phi_pos V c _ h0]
      iintro ⟨⟨HR, Hg, HS⟩, Ho, ⟨%d0, H0⟩, ⟨%d1, H1⟩, H2⟩
      iapply (tripleB c Set.univ (grid1.coords t) _ _ _ _ _ _ _ _ (fun h => h0 ((hcondA t).mp h)) ((hcondB t).mpr h0)
        (fun h => h4 ((hcondC t).mp h)) (iblk V c 0 t) (iblk V c 1 t) (acc V c (t.val - 1)) _)
      isplitl [H0]; · iexact H0
      isplitl [H1]; · iexact H1
      isplitl [HS]; · iexact HS
      iintro ⟨H0, H1, HS⟩
      isplitl [HR Hg HS]
      · isplitl [HR]; · iexact HR
        isplitl [Hg]; · iexact Hg
        iexact HS
      isplitl [Ho]; · iexact Ho
      isplitl [H0]; · iexact H0
      isplitl [H1]; · iexact H1
      iexact H2

/-- The library's body obligation, at every point. -/
theorem body_obligation (c : Dev nD) : BodyObligation (dat (F := F) V c) (defs₀ (F := F)) Variants.none () Set.univ := fun t => by
  rw [bigSep_W1, bigSep_W1]
  exact sound_body V c t

/-! ## The invariant's two ends -/

/-- What the launch hands the region — the generator register and every scoped buffer that is no staging buffer of the
    call, at anything — is the invariant before the first point. -/
theorem phi_in (c : Dev nD) :
    iprop((∃ r, prngReg c r) ∗ Pipeline.scopedRest (Ix := Unit) (Name := ℕ) (U := UR sig nD τ) (Lvl := ℕ) (Val := Elt F) spec1 c)
      ⊢ ((dat V c).Φ 0 : sProp 𝕄) := by
  rw [show (dat V c).Φ 0 = Phi V c 0 from rfl, Phi_zero V c 0 rfl, scopedRest1_split]
  simp only [scM, owns_whole]
  iintro ⟨Hg, ⟨%f, HS⟩, HR⟩
  isplitl [HR]; · iexact HR
  isplitl [Hg]; · iexact Hg
  iexists f; iexact HS

/-- After the last point the invariant gives them back: the accumulator's named contents are forgotten. -/
theorem phi_out (c : Dev nD) :
    ((dat V c).Φ (Fin.last cfg1.N) : sProp 𝕄)
      ⊢ iprop((∃ r, prngReg c r) ∗ Pipeline.scopedRest (Ix := Unit) (Name := ℕ) (U := UR sig nD τ) (Lvl := ℕ) (Val := Elt F) spec1 c) := by
  rw [show (dat V c).Φ (Fin.last cfg1.N) = Phi V c (Fin.last cfg1.N).val from rfl,
    Phi_pos V c _ (by rw [Fin.val_last]; have := N5; omega), scopedRest1_split]
  simp only [scM, owns_whole]
  iintro ⟨HR, Hg, HS⟩
  isplitl [Hg]; · iexact Hg
  isplitl [HS]; · iexists _; iexact HS
  iexact HR

end Cert.KernelIdeal.Reg1

end
-- ==== Proof.Reg2.lean ====
import proofs.«172434_g28836410425910_retrytranche2_620_32_alg».proof.Proof.Gen.KernelIdeal.Launch
import proofs.«172434_g28836410425910_retrytranche2_620_32_alg».proof.Proof.Gen.KernelIdeal.Skeleton
import proofs.«172434_g28836410425910_retrytranche2_620_32_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
-- the TensorCore's buffer contents when the region is entered: a PARAMETER
variable (V : (c : Dev nD) → (b : Ref sig .tc) → Buf (Elt F) ((c : Thread nD τ).loc b))

/-! # Region 2: the fused layer, 25 grid points

Per point the body reads two row blocks of the adjacency (two windows on one array), the whole feature matrix, a row
block of the hypergraph features and the weights; at the first point it stores the linear map of the features into the
scratch buffer, which it reads at every point; it writes the two halves of the output's row block. -/

/-! ## The body's one condition: the grid coordinate is zero -/

/-- The condition of the body's `scf.if`, from the grid coordinate. -/
abbrev cond (i : grid2.Coords) : Prop := (Scalar.cmpi .ne (Scalar.extui (Scalar.cmpi .eq (BitVec.ofNat 32 (i 0).val) 0#32)) 0#32) = 1#1

/-- It holds at the first point only: decided over the grid. -/
theorem hcond : ∀ t : Fin cfg2.N, cond (grid2.coords t) ↔ t.val = 0 :=
  (by decide +kernel : ∀ t : Fin grid2.N, cond (grid2.coords t) ↔ t.val = 0)

/-- The first point. -/
def t0 : Fin cfg2.N := ⟨0, by decide⟩

/-! ## The rectangles the body reads and writes -/

abbrev rGG : Rect S200x10000 := Rect.unit (s := S200x10000) ![0, 0] S200x10000.size inb_S200x10000_S200x10000_0_0
abbrev rS : Rect S10000x256 := Rect.unit (s := S10000x256) ![0, 0] S10000x256.size inb_S10000x256_S10000x256_0_0
abbrev rWg : Rect S256x256 := Rect.unit (s := S256x256) ![0, 0] S256x256.size inb_S256x256_S256x256_0_0
abbrev rRow : Rect S1x256 := Rect.unit (s := S1x256) ![0, 0] S1x256.size inb_S1x256_S1x256_0_0
abbrev rW0 : Rect S768x256 := Rect.unit (s := S768x256) ![0, 0] S256x256.size inb_S768x256_S256x256_0_0
abbrev rW1 : Rect S768x256 := Rect.unit (s := S768x256) ![256, 0] S256x256.size inb_S768x256_S256x256_256_0
abbrev rW2 : Rect S768x256 := Rect.unit (s := S768x256) ![512, 0] S256x256.size inb_S768x256_S256x256_512_0
abbrev rA : Rect S400x256 := Rect.unit (s := S400x256) ![0, 0] S200x256.size inb_S400x256_S200x256_0_0
abbrev rB : Rect S400x256 := Rect.unit (s := S400x256) ![200, 0] S200x256.size inb_S400x256_S200x256_200_0
/-- The rows of the feature matrix the first half of the block reads: from row `400 i`. -/
abbrev rX0 (i : grid2.Coords) : Rect S10000x256 := Rect.unit (s := S10000x256) (k2_off1 i 0#32) S200x256.size (k2_off1_inb i 0)
/-- and the second half: from row `400 i + 200`. -/
abbrev rX1 (i : grid2.Coords) : Rect S10000x256 := Rect.unit (s := S10000x256) (k2_off1 i 200#32) S200x256.size (k2_off1_inb i 1)

/-! ## What the body leaves -/

/-- The scratch after the first point's store: the linear map of the features, one whole-buffer piece. -/
def G0 (x2 : Vec F S10000x256 .f32) (x4 : Vec F S256x256 .f32) (x5 : Vec F S1x256 .f32) : Vec F S10000x256 .bf16 :=
  View.canon [⟨rS, k2_pay2 (View.ld x2 rS) (View.ld x4 rWg) (View.ld x5 rRow)⟩]

/-- The output's staging buffer after the body: its two half-block stores as pieces, last first. -/
def out8 (i : grid2.Coords) (x0 x1 : Vec F S200x10000 .f32) (g : Vec F S10000x256 .bf16) (x2 : Vec F S10000x256 .f32)
    (x3 : Vec F S400x256 .bf16) (x6 : Vec F S768x256 .f32) (x7 : Vec F S1x256 .f32) : Vec F S400x256 .f32 :=
  View.canon [⟨rB, k2_pay1 (View.ld x1 rGG) (View.ld g rS) (View.ld x2 (rX1 i)) (View.ld x6 rW0) (View.ld x6 rW1) (View.ld x3 rB) (View.ld x6 rW2) (View.ld x7 rRow)⟩,
    ⟨rA, k2_pay3 (View.ld x0 rGG) (View.ld g rS) (View.ld x2 (rX0 i)) (View.ld x6 rW0) (View.ld x6 rW1) (View.ld x3 rA) (View.ld x6 rW2) (View.ld x7 rRow)⟩]

/-- The scratch's one piece covers it. -/
theorem coverS (p0 : Vec F S10000x256 .bf16) (y : S10000x256.Idx) :
    ∃ pc ∈ ([⟨rS, p0⟩] : List (View.Piece (Elt F) S10000x256 .bf16)), y ∈ pc.1.set :=
  View.cover_of_tiled [⟨rS, p0⟩] S10000x256.size (by rfl) y

/-- The two halves tile the output block. -/
theorem cover8 (p0 p1 : Vec F S200x256 .f32) (y : S400x256.Idx) :
    ∃ pc ∈ ([⟨rB, p0⟩, ⟨rA, p1⟩] : List (View.Piece (Elt F) S400x256 .f32)), y ∈ pc.1.set :=
  View.cover_of_tiled [⟨rB, p0⟩, ⟨rA, p1⟩] S200x256.size (by rfl) y

/-! ## The body's triples, one per case of the condition -/

set_option maxHeartbeats 4000000 in
/-- At the first point: the scratch at anything; it ends at `G0` of the features and the weights, and the output block
    is computed from that. -/
theorem sound_first (c : Dev nD) (E : Set ℕ) (i : grid2.Coords)
    (arg1 : Memref sig .tc .vmem S200x10000 .f32) (harg1 : arg1.IsWhole) (arg2 : Memref sig .tc .vmem S200x10000 .f32) (harg2 : arg2.IsWhole) (arg3 : Memref sig .tc .vmem S10000x256 .f32) (harg3 : arg3.IsWhole) (arg4 : Memref sig .tc .vmem S400x256 .bf16) (harg4 : arg4.IsWhole) (arg5 : Memref sig .tc .vmem S256x256 .f32) (harg5 : arg5.IsWhole) (arg6 : Memref sig .tc .vmem S1x256 .f32) (harg6 : arg6.IsWhole) (arg7 : Memref sig .tc .vmem S768x256 .f32) (harg7 : arg7.IsWhole) (arg8 : Memref sig .tc .vmem S1x256 .f32) (harg8 : arg8.IsWhole) (arg9 : Memref sig .tc .vmem S400x256 .f32) (harg9 : arg9.IsWhole) (arg10 : Memref sig .tc .vmem S10000x256 .bf16) (harg10 : arg10.IsWhole)
    (hc : cond i)
    (x0 : Vec F S200x10000 .f32) (x1 : Vec F S200x10000 .f32) (x2 : Vec F S10000x256 .f32) (x3 : Vec F S400x256 .bf16) (x4 : Vec F S256x256 .f32) (x5 : Vec F S1x256 .f32) (x6 : Vec F S768x256 .f32) (x7 : Vec F S1x256 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out8 i x0 x1 (G0 x2 x4 x5) x2 x3 x6 x7) ∗ owns (c : Thread nD τ) arg10 fullShare (G0 x2 x4 x5)) -∗ K ⟨⟩))
      ⊢ wp frame (wpE (defs₀ (F := F)) Variants.none c none) E (cc2__main_body i arg1 harg1 arg2 harg2 arg3 harg3 arg4 harg4 arg5 harg5 arg6 harg6 arg7 harg7 arg8 harg8 arg9 harg9 arg10 harg10) K := by
  simp only [cc2__main_body_eq_skeleton]; unfold cc2__main_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec (disch := first | exact hc)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]
  · iexists _; isplitr
    swap; · iexact H8
    ipureintro
    sl_unfold_run_names
    rw [View.readCov_eq_canon_ld _ _ rS (coverS _)]
    exact View.read_writes_eq_canon _ _ _ (cover8 _ _)
  iexists _; isplitr
  swap; · iexact H9
  ipureintro
  sl_unfold_run_names
  exact View.read_writes_eq_canon _ _ _ (coverS _)

set_option maxHeartbeats 4000000 in
/-- At a later point: the scratch holds `g`; the body reads it and leaves it. -/
theorem sound_later (c : Dev nD) (E : Set ℕ) (i : grid2.Coords)
    (arg1 : Memref sig .tc .vmem S200x10000 .f32) (harg1 : arg1.IsWhole) (arg2 : Memref sig .tc .vmem S200x10000 .f32) (harg2 : arg2.IsWhole) (arg3 : Memref sig .tc .vmem S10000x256 .f32) (harg3 : arg3.IsWhole) (arg4 : Memref sig .tc .vmem S400x256 .bf16) (harg4 : arg4.IsWhole) (arg5 : Memref sig .tc .vmem S256x256 .f32) (harg5 : arg5.IsWhole) (arg6 : Memref sig .tc .vmem S1x256 .f32) (harg6 : arg6.IsWhole) (arg7 : Memref sig .tc .vmem S768x256 .f32) (harg7 : arg7.IsWhole) (arg8 : Memref sig .tc .vmem S1x256 .f32) (harg8 : arg8.IsWhole) (arg9 : Memref sig .tc .vmem S400x256 .f32) (harg9 : arg9.IsWhole) (arg10 : Memref sig .tc .vmem S10000x256 .bf16) (harg10 : arg10.IsWhole)
    (hc : ¬cond i)
    (x0 : Vec F S200x10000 .f32) (x1 : Vec F S200x10000 .f32) (x2 : Vec F S10000x256 .f32) (x3 : Vec F S400x256 .bf16) (x4 : Vec F S256x256 .f32) (x5 : Vec F S1x256 .f32) (x6 : Vec F S768x256 .f32) (x7 : Vec F S1x256 .f32) (g : Vec F S10000x256 .bf16)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ owns (c : Thread nD τ) arg10 fullShare g
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out8 i x0 x1 g x2 x3 x6 x7) ∗ owns (c : Thread nD τ) arg10 fullShare g) -∗ K ⟨⟩))
      ⊢ wp frame (wpE (defs₀ (F := F)) Variants.none c none) E (cc2__main_body i arg1 harg1 arg2 harg2 arg3 harg3 arg4 harg4 arg5 harg5 arg6 harg6 arg7 harg7 arg8 harg8 arg9 harg9 arg10 harg10) K := by
  simp only [cc2__main_body_eq_skeleton]; unfold cc2__main_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, Hk⟩
  subst hf0 hf1 hf2 hf3 hf4 hf5 hf6 hf7 hf9
  sl_exec (disch := first | exact hc)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]
  · iexists _; isplitr
    swap; · iexact H8
    ipureintro
    exact View.read_writes_eq_canon _ _ _ (cover8 _ _)
  iexists f9; isplitr; · ipureintro; rfl
  iexact H9

/-! ## The windows' blocks -/

/-- Window `w`'s block at point `t`, read off its array as the region finds it (`V`). -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input window's current staging buffer holds its block at every point, fetched there or not, for any proof
    data whose array is `V`'s and whose body leaves the block in place. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg2 c) (hA : dat.A 5 = V c (Pipeline.arrRef spec2 5))
    (hafter : ∀ t, dat.after 5 t = iblk V c 5 t) (t : Fin cfg2.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg2 c) (hA : dat.A 6 = V c (Pipeline.arrRef spec2 6))
    (hafter : ∀ t, dat.after 6 t = iblk V c 6 t) (t : Fin cfg2.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of {c : Dev nD} (dat : Dat τ (Elt F) Unit ℕ (UR sig nD τ) ℕ cfg2 c) (hA : dat.A 7 = V c (Pipeline.arrRef spec2 7))
    (hafter : ∀ t, dat.after 7 t = iblk V c 7 t) (t : Fin cfg2.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The scratch operand: a whole scoped buffer of the kernel's own. -/
abbrev scM : Memref sig .tc .vmem S10000x256 .bf16 := Memref.whole cc2_scratch0

/-- What the scratch holds from the first point on: the linear map of the features as the first point finds them. -/
def G (c : Dev nD) : Vec F S10000x256 .bf16 := G0 (iblk V c 2 t0) (iblk V c 4 t0) (iblk V c 5 t0)

/-- The invariant before position `n`: the scratch at some contents — from position 1 on at `G` —, the other scoped
    buffers unopened, the generator register at some state. -/
def Phi (c : Dev nD) (n : ℕ) : sProp 𝕄 :=
  iprop((∃ g : Vec F S10000x256 .bf16, owns (c : Thread nD τ) scM fullShare g ∗ ⌜n ≠ 0 → g = G V c⌝)
    ∗ Pipeline.scopedRestBut (Ix := Unit) (Name := ℕ) (U := UR sig nD τ) (Lvl := ℕ) (Val := Elt F) spec2 c [cc2_scratch0]
    ∗ (∃ r, prngReg c r))

/-- The proof data of the pipeline on core `c`: the arrays as the region finds them; after the body each input's buffer
    at its block and the output's at `out8` of the blocks and the scratch; the two windows on the adjacency hold it at
    the two halves of the full share. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => out8 (grid2.coords t) (iblk V c 0 t) (iblk V c 1 t) (G V c) (iblk V c 2 t) (iblk V c 3 t) (iblk V c 6 t) (iblk V c 7 t)
  Φ t := Phi V c t.val
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
  owed _ := 0

theorem A_eq (c : Dev nD) (w : Fin cfg2.W) : (dat V c).A w = V c (Pipeline.arrRef spec2 w) := by
  dsimp only [dat]

theorem owed_eq (c : Dev nD) (t) : (dat V c).owed t = 0 := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) : (dat V c).after 5 t = iblk V c 5 t := by dsimp only [dat]
theorem after_6 (c : Dev nD) (t : Fin cfg2.N) : (dat V c).after 6 t = iblk V c 6 t := by dsimp only [dat]
theorem after_7 (c : Dev nD) (t : Fin cfg2.N) : (dat V c).after 7 t = iblk V c 7 t := by dsimp only [dat]
theorem after_8 (c : Dev nD) (t : Fin cfg2.N) : (dat V c).after 8 t = out8 (grid2.coords t) (iblk V c 0 t) (iblk V c 1 t) (G V c) (iblk V c 2 t) (iblk V c 3 t) (iblk V c 6 t) (iblk V c 7 t) := by dsimp only [dat]

theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d
theorem before_3 (c : Dev nD) (t : Fin cfg2.N) (d) : (dat V c).before 3 t d = iblk V c 3 t :=
  before_3_of V (dat V c) (A_eq V c 3) (after_3 V c) t d
theorem before_4 (c : Dev nD) (t : Fin cfg2.N) (d) : (dat V c).before 4 t d = iblk V c 4 t :=
  before_4_of V (dat V c) (A_eq V c 4) (after_4 V c) t d
theorem before_5 (c : Dev nD) (t : Fin cfg2.N) (d) : (dat V c).before 5 t d = iblk V c 5 t :=
  before_5_of V (dat V c) (A_eq V c 5) (after_5 V c) t d
theorem before_6 (c : Dev nD) (t : Fin cfg2.N) (d) : (dat V c).before 6 t d = iblk V c 6 t :=
  before_6_of V (dat V c) (A_eq V c 6) (after_6 V c) t d
theorem before_7 (c : Dev nD) (t : Fin cfg2.N) (d) : (dat V c).before 7 t d = iblk V c 7 t :=
  before_7_of V (dat V c) (A_eq V c 7) (after_7 V c) t d

theorem Phi_castSucc (c : Dev nD) (t : Fin cfg2.N) : (dat V c).Φ t.castSucc = Phi V c t.val := by
  dsimp only [dat]; simp only [Fin.coe_castSucc]

theorem Phi_succ (c : Dev nD) (t : Fin cfg2.N) : (dat V c).Φ t.succ = Phi V c (t.val + 1) := by
  dsimp only [dat]; simp only [Fin.val_succ]

/-! ## The body obligation, at a generic point -/

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d))
    ∗ (∃ d, owns (c : Thread nD τ) (st2_7 t) fullShare ((dat V c).before 7 t d))
    ∗ (∃ d, owns (c : Thread nD τ) (st2_8 t) fullShare ((dat V c).before 8 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t)
    ∗ owns (c : Thread nD τ) (st2_6 t) fullShare ((dat V c).after 6 t)
    ∗ owns (c : Thread nD τ) (st2_7 t) fullShare ((dat V c).after 7 t)
    ∗ owns (c : Thread nD τ) (st2_8 t) fullShare ((dat V c).after 8 t))

set_option maxHeartbeats 4000000 in
/-- The body at any point: the inputs' memrefs hold their blocks; at the first point the scratch is at anything and
    ends at `G`, afterwards it is at `G` and stays; the core owes nothing throughout. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4, before_5, before_6, before_7]
  rw [show (dat V c).owesAt () t.succ = (dat V c).owesAt () t.castSucc from rfl,
    Phi_castSucc, Phi_succ, after_0, after_1, after_2, after_3, after_4, after_5, after_6, after_7, after_8]
  unfold Phi
  by_cases h0 : t.val = 0
  · obtain rfl : t = t0 := Fin.ext h0
    iintro ⟨⟨⟨%g, HS, -⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_first c Set.univ (grid2.coords t0) _ _ _ _ _ _ _ _ _ _ _ _ _ _ _ _ _ _ _ _ ((hcond t0).mpr h0)
      (iblk V c 0 t0) (iblk V c 1 t0) (iblk V c 2 t0) (iblk V c 3 t0) (iblk V c 4 t0) (iblk V c 5 t0) (iblk V c 6 t0) (iblk V c 7 t0) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS]; · iexists _; iexact HS
    iintro ⟨H0, H1, H2, H3, H4, H5, H6, H7, H8, HS⟩
    isplitl [HS Hrest Hg]
    · isplitl [HS]
      · iexists _; isplitl [HS]; · iexact HS
        ipureintro; intro _; rfl
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · iintro ⟨⟨⟨%g, HS, %hg⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    obtain rfl := hg h0
    iapply (sound_later c Set.univ (grid2.coords t) _ _ _ _ _ _ _ _ _ _ _ _ _ _ _ _ _ _ _ _ (fun h => h0 ((hcond t).mp h))
      (iblk V c 0 t) (iblk V c 1 t) (iblk V c 2 t) (iblk V c 3 t) (iblk V c 4 t) (iblk V c 5 t) (iblk V c 6 t) (iblk V c 7 t) (G V c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS]; · iexact HS
    iintro ⟨H0, H1, H2, H3, H4, H5, H6, H7, H8, HS⟩
    isplitl [HS Hrest Hg]
    · isplitl [HS]
      · iexists _; isplitl [HS]; · iexact HS
        ipureintro; intro _; rfl
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The library's body obligation, at every point. -/
theorem body_obligation (c : Dev nD) : BodyObligation (dat (F := F) V c) (defs₀ (F := F)) Variants.none () Set.univ := fun t => by
  rw [bigSep_W2, bigSep_W2]
  exact sound_body V c t

/-! ## The invariant's two ends -/

/-- The scoped rest split at the call's own scratch, whole at some contents; the remainder unopened. -/
theorem scopedRest2_split (c : Dev nD) :
    (Pipeline.scopedRest (Ix := Unit) (Name := ℕ) (U := UR sig nD τ) (Lvl := ℕ) (Val := Elt F) spec2 c : sProp 𝕄)
      = iprop(iprop((∃ f : Buf (Elt F) ((c : Thread nD τ).loc cc2_scratch0), ((c : Thread nD τ).loc cc2_scratch0) ↦{fullShare} f))
          ∗ Pipeline.scopedRestBut (Ix := Unit) (Name := ℕ) (U := UR sig nD τ) (Lvl := ℕ) (Val := Elt F) spec2 c [cc2_scratch0]) :=
  Pipeline.scopedRest_split_of_list spec2 c [cc2_scratch0] (by decide) (by decide)

/-- What the launch hands the region — the scoped rest and the generator register — is the invariant before the first
    point: the scratch split out of the scoped rest at some contents. -/
theorem phi_in (c : Dev nD) : iprop((∃ r, prngReg c r) ∗ Pipeline.scopedRest (Ix := Unit) (Name := ℕ) (U := UR sig nD τ) (Lvl := ℕ) (Val := Elt F) spec2 c) ⊢ ((dat V c).Φ 0 : sProp 𝕄) := by
  rw [show (dat V c).Φ 0 = Phi V c 0 from rfl, scopedRest2_split]
  unfold Phi; simp only [scM, owns_whole]
  iintro ⟨Hp, ⟨%f, Hs⟩, Hrest⟩
  isplitl [Hs]
  · iexists f; isplitl [Hs]; · iexact Hs
    ipureintro; intro h; exact absurd rfl h
  isplitl [Hrest]; · iexact Hrest
  iexact Hp

/-- After the last point the invariant gives them back: the scratch's named contents are forgotten. -/
theorem phi_out (c : Dev nD) : ((dat V c).Φ (Fin.last cfg2.N) : sProp 𝕄) ⊢ iprop((∃ r, prngReg c r) ∗ Pipeline.scopedRest (Ix := Unit) (Name := ℕ) (U := UR sig nD τ) (Lvl := ℕ) (Val := Elt F) spec2 c) := by
  rw [show (dat V c).Φ (Fin.last cfg2.N) = Phi V c (Fin.last cfg2.N).val from rfl, scopedRest2_split]
  unfold Phi; simp only [scM, owns_whole]
  iintro ⟨⟨%g, Hs, -⟩, Hrest, Hp⟩
  isplitl [Hp]; · iexact Hp
  isplitl [Hs]; · iexists g; iexact Hs
  iexact Hrest

/-! ## The arrays at the region's two ends

Two windows read the adjacency: the pipeline holds it once per window, at the two halves of the full share. -/

/-- The share the proof data hold each array at. -/
theorem share_eq (c : Dev nD) (w : Fin cfg2.W) :
    (dat V c).share w = (if w = 0 then fullShare.left else if w = 1 then fullShare.right else fullShare) := by
  fin_cases w <;> rfl

/-- The buffers behind the windows' arrays, listed: eight buffers for nine windows. -/
theorem arr_image : Finset.univ.image (Pipeline.arrRef spec2)
    = [main_arg1, main_arg0, main_v6, main_arg4, main_v0, main_arg10, main_v3, main_v7].toFinset := by decide

/-- Each window's array is a whole buffer: its points-to is the buffer's, at the window's share. -/
theorem arr_term (c : Dev nD) (Fw : (w : Fin cfg2.W) → Buf (Elt F) ((cfg2.win w).arr.view.loc (c : Thread nD τ))) (w : Fin cfg2.W) :
    ((cfg2.win w).arr.view.loc (c : Thread nD τ) ↦[(cfg2.win w).arr.view.set]{(dat V c).share w} Fw w : sProp 𝕄)
      = (((c : Thread nD τ).loc (Pipeline.arrRef spec2 w)) ↦{(dat V c).share w} Fw w : sProp 𝕄) := by
  rw [(arr_whole2 w).set_eq_univ]

/-- The pipeline's arrays, window by window, each a whole buffer at its share. -/
theorem arrays_chain (c : Dev nD) (Fw : (w : Fin cfg2.W) → Buf (Elt F) ((cfg2.win w).arr.view.loc (c : Thread nD τ))) :
    ((dat V c).arrays Fw : sProp 𝕄) = iprop(
      ((((c : Thread nD τ).loc main_arg1) ↦{fullShare.left} Fw 0))
      ∗ ((((c : Thread nD τ).loc main_arg1) ↦{fullShare.right} Fw 1))
      ∗ ((((c : Thread nD τ).loc main_arg0) ↦{fullShare} Fw 2))
      ∗ ((((c : Thread nD τ).loc main_v6) ↦{fullShare} Fw 3))
      ∗ ((((c : Thread nD τ).loc main_arg4) ↦{fullShare} Fw 4))
      ∗ ((((c : Thread nD τ).loc main_v0) ↦{fullShare} Fw 5))
      ∗ ((((c : Thread nD τ).loc main_arg10) ↦{fullShare} Fw 6))
      ∗ ((((c : Thread nD τ).loc main_v3) ↦{fullShare} Fw 7))
      ∗ ((((c : Thread nD τ).loc main_v7) ↦{fullShare} Fw 8))) := by
  unfold Dat.arrays
  rw [BI.bigSep_congr (fun w _ => arr_term V c Fw w), bigSep_W2]
  rfl

/-- The distinct buffers behind the arrays, one by one. -/
theorem arrBufs_chain (c : Dev nD) (W : (b : Ref sig .tc) → Buf (Elt F) ((c : Thread nD τ).loc b)) :
    (Pipeline.arrBufs (Ix := Unit) (Name := ℕ) (U := UR sig nD τ) (Lvl := ℕ) spec2 c W : sProp 𝕄) = iprop(
      ((((c : Thread nD τ).loc main_arg1) ↦{fullShare} W main_arg1))
      ∗ ((((c : Thread nD τ).loc main_arg0) ↦{fullShare} W main_arg0))
      ∗ ((((c : Thread nD τ).loc main_v6) ↦{fullShare} W main_v6))
      ∗ ((((c : Thread nD τ).loc main_arg4) ↦{fullShare} W main_arg4))
      ∗ ((((c : Thread nD τ).loc main_v0) ↦{fullShare} W main_v0))
      ∗ ((((c : Thread nD τ).loc main_arg10) ↦{fullShare} W main_arg10))
      ∗ ((((c : Thread nD τ).loc main_v3) ↦{fullShare} W main_v3))
      ∗ ((((c : Thread nD τ).loc main_v7) ↦{fullShare} W main_v7))) := by
  unfold Pipeline.arrBufs
  rw [BI.bigSep_eq_bigSepL_of_eq _ arr_image (by decide)]
  rfl

/-- At the region's entry: the buffers behind the arrays, each whole at the full share, are the pipeline's arrays —
    the adjacency's buffer split into its two halves, one per window. -/
theorem arrays_in (c : Dev nD) (W : (b : Ref sig .tc) → Buf (Elt F) ((c : Thread nD τ).loc b))
    (Fw : (w : Fin cfg2.W) → Buf (Elt F) ((cfg2.win w).arr.view.loc (c : Thread nD τ)))
    (hF : ∀ w, Fw w = W (Pipeline.arrRef spec2 w)) :
    (Pipeline.arrBufs (Ix := Unit) (Name := ℕ) (U := UR sig nD τ) (Lvl := ℕ) spec2 c W : sProp 𝕄) ⊢ (dat V c).arrays Fw := by
  rw [arrays_chain, arrBufs_chain, hF 0, hF 1, hF 2, hF 3, hF 4, hF 5, hF 6, hF 7, hF 8]
  iintro ⟨H1, H0, H6, H4, Hv0, H10, Hv3, Hv7⟩
  ihave H1' := (pointsTo_share (PosShare.mem_left_op_right fullShare)).1 $$ H1
  icases H1' with ⟨H1l, H1r⟩
  isplitl [H1l]; · iexact H1l
  isplitl [H1r]; · iexact H1r
  isplitl [H0]; · iexact H0
  isplitl [H6]; · iexact H6
  isplitl [H4]; · iexact H4
  isplitl [Hv0]; · iexact Hv0
  isplitl [H10]; · iexact H10
  isplitl [Hv3]; · iexact Hv3
  iexact Hv7

/-- At its exit the two halves join again. -/
theorem arrays_out (c : Dev nD) (W : (b : Ref sig .tc) → Buf (Elt F) ((c : Thread nD τ).loc b))
    (Fw : (w : Fin cfg2.W) → Buf (Elt F) ((cfg2.win w).arr.view.loc (c : Thread nD τ)))
    (hF : ∀ w, Fw w = W (Pipeline.arrRef spec2 w)) :
    ((dat V c).arrays Fw : sProp 𝕄) ⊢ Pipeline.arrBufs (Ix := Unit) (Name := ℕ) (U := UR sig nD τ) (Lvl := ℕ) spec2 c W := by
  rw [arrays_chain, arrBufs_chain, hF 0, hF 1, hF 2, hF 3, hF 4, hF 5, hF 6, hF 7, hF 8]
  iintro ⟨H1l, H1r, H0, H6, H4, Hv0, H10, Hv3, Hv7⟩
  isplitl [H1l H1r]
  · iapply (pointsTo_share (PosShare.mem_left_op_right fullShare)).2
    isplitl [H1l]; · iexact H1l
    iexact H1r
  isplitl [H0]; · iexact H0
  isplitl [H6]; · iexact H6
  isplitl [H4]; · iexact H4
  isplitl [Hv0]; · iexact Hv0
  isplitl [H10]; · iexact H10
  isplitl [Hv3]; · iexact Hv3
  iexact Hv7

end Cert.KernelIdeal.Reg2

end
-- ==== Proof.Asm.lean ====
/-
  The run of the whole program: five host operations and three kernel regions, composed. Each region is entered
  with every unscoped buffer of the core at known contents and left with its arrays at what its write-backs
  leave; the regions' bodies and what they leave are the three region modules'. From the run: every argument
  array ends as launched, and the two results end at named contents.
-/
import proofs.«172434_g28836410425910_retrytranche2_620_32_alg».proof.Proof.Reg0
import proofs.«172434_g28836410425910_retrytranche2_620_32_alg».proof.Proof.Reg1
import proofs.«172434_g28836410425910_retrytranche2_620_32_alg».proof.Proof.Reg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Asm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items of the program

The program is five host operations (four reshapes of the biases into rows, one transpose), then the three kernel
regions. Between two items every unscoped buffer of a core holds a known value: the launch contents, then the
host operations' results, then after each region that region's arrays at what its write-backs leave. -/

/-- At launch. -/
abbrev W0 : Dev nD → Valuation τ sig (Elt F) := fun c b => (s₀ m ρ).mem ((c : Dev nD), b)
/-- After the host operations: the first region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first region: its arrays at what the pipeline leaves. -/
def W2 (c : Dev nD) : Valuation τ sig (Elt F) :=
  Pipeline.withArrays spec0 c (W1 m ρ c) fun w => (Reg0.dat (V1 m ρ) c).arrAt w cfg0.N
theorem W2_arr (c : Dev nD) (w : Fin cfg0.W) :
    W2 m ρ c (Proc.devRef .tc (Pipeline.arrRef spec0 w)) = (Reg0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Reg0.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second region. -/
def W3 (c : Dev nD) : Valuation τ sig (Elt F) :=
  Pipeline.withArrays spec1 c (W2 m ρ c) fun w => (Reg1.dat (V2 m ρ) c).arrAt w cfg1.N
theorem W3_arr (c : Dev nD) (w : Fin cfg1.W) :
    W3 m ρ c (Proc.devRef .tc (Pipeline.arrRef spec1 w)) = (Reg1.dat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (Reg1.dat (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the third region: only its one output array changes (two of its input windows read the same array, so
    the arrays are not pairwise distinct and the exit contents are stated as an update at the output). -/
def W4 (c : Dev nD) : Valuation τ sig (Elt F) :=
  Function.update (W3 m ρ c) (Proc.devRef .tc main_v7) ((Reg2.dat (V3 m ρ) c).arrAt 8 cfg2.N)
abbrev V4 : (c : Dev nD) → (b : Ref sig .tc) → Buf (Elt F) ((c : Thread nD τ).loc b) := fun c b => W4 m ρ c b
theorem W4_out (c : Dev nD) : W4 m ρ c (Proc.devRef .tc main_v7) = (Reg2.dat (V3 m ρ) c).arrAt 8 cfg2.N := by
  unfold W4; exact Function.update_self ..
theorem W4_of_ne (c : Dev nD) (b : Ref sig .tc) (hb : b ≠ main_v7) :
    W4 m ρ c (Proc.devRef .tc b) = W3 m ρ c (Proc.devRef .tc b) := by
  unfold W4; exact Function.update_of_ne (StableHlo.devRef_ne_of_ne hb) ..

/-! ## The proof data of the three pipelines and what rides beside the buffers -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => Reg0.dat (V1 m ρ) c
  | ⟨1, _⟩ => fun c => Reg1.dat (V2 m ρ) c
  | ⟨2, _⟩ => fun c => Reg2.dat (V3 m ρ) c
abbrev 𝒱₀ : Variants := Variants.none
abbrev L : GSem nD τ sig → Finset Unit := fun _ => ∅
abbrev lv : GSem nD τ sig → Unit → ℕ := fun _ _ => 0
/-- Beside the buffers: the core's generator register at some state, and that it owes nothing. -/
abbrev R (c : Dev nD) : sProp 𝕄 := iprop((∃ r, prngReg c r) ∗ ∃ W, owes (c : Thread nD τ) (0 : CellTallies nD τ sig Unit) W)
theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments of the program -/

set_option backward.isDefEq.respectTransparency.types false in
/-- The first region: entered with every unscoped buffer at `W1`, left with them at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation (V1 m ρ) c).loose
  hwaits := Pipeline.hwaits_of_owed_zero _ _ _ _ L lv 0 fun c t => Reg0.owed_eq (V1 m ρ) c t
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun w => Reg0.q_eq (V1 m ρ) c w) (V1 m ρ c) fun w => Reg0.A_eq (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 0 c).owed 0 = 0 from Reg0.owed_eq (V1 m ρ) c 0]
      icases HO with ⟨%W, HO⟩; iexists W; isplitr; · ipureintro; exact fun _ _ => Or.inl trivial
      iexact HO
    isplitl [Hp]; · iexact Hp
    iexact Hrest
  hin c := by
    rw [show (pdats m ρ 0 c).Φ 0 = (Reg0.dat (V1 m ρ) c).Φ 0 from rfl]
    iintro ⟨Hp, -, Hr⟩
    iapply (Reg0.phi_in (V1 m ρ) c)
    isplitl [Hp]; · iexact Hp
    iexact Hr
  hout c := by
    rw [Pipeline.ownSems0_none, show (pdats m ρ 0 c).Φ (Fin.last _) = (Reg0.dat (V1 m ρ) c).Φ (Fin.last cfg0.N) from rfl]
    iintro H
    ihave H' := (Reg0.phi_out (V1 m ρ) c) $$ H
    icases H' with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun w => Reg0.q_eq (V1 m ρ) c w)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 0 c).owed (Fin.last _) = 0 from Reg0.owed_eq (V1 m ρ) c _]
    icases HO with ⟨%W, -, HO⟩; iexists W; iexact HO
set_option backward.isDefEq.respectTransparency.types false in
/-- The first region: entered with every unscoped buffer at `W1`, left with them at `W2`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation (V2 m ρ) c).loose
  hwaits := Pipeline.hwaits_of_owed_zero _ _ _ _ L lv 1 fun c t => Reg1.owed_eq (V2 m ρ) c t
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun w => Reg1.q_eq (V2 m ρ) c w) (V2 m ρ c) fun w => Reg1.A_eq (V2 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 1 c).owed 0 = 0 from Reg1.owed_eq (V2 m ρ) c 0]
      icases HO with ⟨%W, HO⟩; iexists W; isplitr; · ipureintro; exact fun _ _ => Or.inl trivial
      iexact HO
    isplitl [Hp]; · iexact Hp
    iexact Hrest
  hin c := by
    rw [show (pdats m ρ 1 c).Φ 0 = (Reg1.dat (V2 m ρ) c).Φ 0 from rfl]
    iintro ⟨Hp, -, Hr⟩
    iapply (Reg1.phi_in (V2 m ρ) c)
    isplitl [Hp]; · iexact Hp
    iexact Hr
  hout c := by
    rw [Pipeline.ownSems0_none, show (pdats m ρ 1 c).Φ (Fin.last _) = (Reg1.dat (V2 m ρ) c).Φ (Fin.last cfg1.N) from rfl]
    iintro H
    ihave H' := (Reg1.phi_out (V2 m ρ) c) $$ H
    icases H' with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun w => Reg1.q_eq (V2 m ρ) c w)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 1 c).owed (Fin.last _) = 0 from Reg1.owed_eq (V2 m ρ) c _]
    icases HO with ⟨%W, -, HO⟩; iexists W; iexact HO

theorem hF2 (c : Dev nD) (w : Fin cfg2.W) : (Reg2.dat (V3 m ρ) c).arrAt w cfg2.N = V4 m ρ c (Pipeline.arrRef spec2 w) := by
  match w with
  | ⟨8, _⟩ => exact (W4_out m ρ c).symm
  | ⟨0, _⟩ => exact ((Reg2.dat (V3 m ρ) c).arrAt_in 0 rfl _).trans ((Reg2.A_eq (V3 m ρ) c 0).trans (W4_of_ne m ρ c _ (by decide)).symm)
  | ⟨1, _⟩ => exact ((Reg2.dat (V3 m ρ) c).arrAt_in 1 rfl _).trans ((Reg2.A_eq (V3 m ρ) c 1).trans (W4_of_ne m ρ c _ (by decide)).symm)
  | ⟨2, _⟩ => exact ((Reg2.dat (V3 m ρ) c).arrAt_in 2 rfl _).trans ((Reg2.A_eq (V3 m ρ) c 2).trans (W4_of_ne m ρ c _ (by decide)).symm)
  | ⟨3, _⟩ => exact ((Reg2.dat (V3 m ρ) c).arrAt_in 3 rfl _).trans ((Reg2.A_eq (V3 m ρ) c 3).trans (W4_of_ne m ρ c _ (by decide)).symm)
  | ⟨4, _⟩ => exact ((Reg2.dat (V3 m ρ) c).arrAt_in 4 rfl _).trans ((Reg2.A_eq (V3 m ρ) c 4).trans (W4_of_ne m ρ c _ (by decide)).symm)
  | ⟨5, _⟩ => exact ((Reg2.dat (V3 m ρ) c).arrAt_in 5 rfl _).trans ((Reg2.A_eq (V3 m ρ) c 5).trans (W4_of_ne m ρ c _ (by decide)).symm)
  | ⟨6, _⟩ => exact ((Reg2.dat (V3 m ρ) c).arrAt_in 6 rfl _).trans ((Reg2.A_eq (V3 m ρ) c 6).trans (W4_of_ne m ρ c _ (by decide)).symm)
  | ⟨7, _⟩ => exact ((Reg2.dat (V3 m ρ) c).arrAt_in 7 rfl _).trans ((Reg2.A_eq (V3 m ρ) c 7).trans (W4_of_ne m ρ c _ (by decide)).symm)
theorem hrest2 (c : Dev nD) : ∀ b, b ∉ Finset.univ.image (Pipeline.arrRef spec2) → V4 m ρ c b = V3 m ρ c b :=
  fun b hb => W4_of_ne m ρ c b fun e => hb (Finset.mem_image.mpr ⟨8, Finset.mem_univ _, e.symm⟩)

set_option backward.isDefEq.respectTransparency.types false in
/-- The third region: entered with every unscoped buffer at `W3`, left with them at `W4`. Two of its input windows
    read one array, each holding half of that buffer's share inside the region. -/
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (Reg2.body_obligation (V3 m ρ) c).loose
  hwaits := Pipeline.hwaits_of_owed_zero _ _ _ _ L lv 2 fun c t => Reg2.owed_eq (V3 m ρ) c t
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.unscopedBufs_split₀ (Ix := Unit) (Name := ℕ) (U := UR sig nD τ) (Lvl := ℕ) (Pipeline.pin (pcfgs (F := F)) adm) 2 winFacts₀2.arr_unscoped c (V3 m ρ c)
    rw [Pipeline.unscopedBufs_held] at hsplit
    rw [hsplit]
    iintro ⟨⟨⟨Hab, Hrest⟩, Hp, HO⟩, -, -⟩
    ihave Ha := (Reg2.arrays_in (V3 m ρ) c (V3 m ρ c) (fun w => (Reg2.dat (V3 m ρ) c).arrAt w 0) (fun w => Reg2.A_eq (V3 m ρ) c w)) $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 2 c).owed 0 = 0 from Reg2.owed_eq (V3 m ρ) c 0]
      icases HO with ⟨%W, HO⟩; iexists W; isplitr; · ipureintro; exact fun _ _ => Or.inl trivial
      iexact HO
    isplitl [Hp]; · iexact Hp
    iexact Hrest
  hin c := by
    rw [show (pdats m ρ 2 c).Φ 0 = (Reg2.dat (V3 m ρ) c).Φ 0 from rfl]
    iintro ⟨Hp, -, Hr⟩
    iapply (Reg2.phi_in (V3 m ρ) c)
    isplitl [Hp]; · iexact Hp
    iexact Hr
  hout c := by
    rw [Pipeline.ownSems0_none, show (pdats m ρ 2 c).Φ (Fin.last _) = (Reg2.dat (V3 m ρ) c).Φ (Fin.last cfg2.N) from rfl]
    iintro H
    ihave H' := (Reg2.phi_out (V3 m ρ) c) $$ H
    icases H' with ⟨Hp, Hr⟩
    isplitl [Hp]; · iexact Hp
    isplitr; · iempintro
    iexact Hr
  hexit c := by
    have hsplit := Pipeline.unscopedBufs_split₀ (Ix := Unit) (Name := ℕ) (U := UR sig nD τ) (Lvl := ℕ) (Pipeline.pin (pcfgs (F := F)) adm) 2 winFacts₀2.arr_unscoped c (V4 m ρ c)
    rw [Pipeline.unscopedBufs_held] at hsplit
    have hZ : (Pipeline.unscopedRest (Ix := Unit) (Name := ℕ) (U := UR sig nD τ) (Lvl := ℕ) spec2 c (V3 m ρ c) : sProp 𝕄)
        = Pipeline.unscopedRest spec2 c (V4 m ρ c) := by
      unfold Pipeline.unscopedRest
      exact bigSep_congr fun b hb => by rw [hrest2 m ρ c b (Finset.mem_sdiff.mp hb).2]
    have hgive : ((pdats m ρ 2 c).arrays fun w => (pdats m ρ 2 c).arrAt w (Pipeline.pin (pcfgs (F := F)) adm 2).N)
        ⊢ (Pipeline.arrBufs (Ix := Unit) (Name := ℕ) (U := UR sig nD τ) (Lvl := ℕ) spec2 c (V4 m ρ c) : sProp 𝕄) :=
      Reg2.arrays_out (V3 m ρ) c (V4 m ρ c) (fun w => (Reg2.dat (V3 m ρ) c).arrAt w cfg2.N) (hF2 m ρ c)
    have hback : iprop(Pipeline.arrBufs (Ix := Unit) (Name := ℕ) (U := UR sig nD τ) (Lvl := ℕ) spec2 c (V4 m ρ c)
          ∗ Pipeline.unscopedRest (Ix := Unit) (Name := ℕ) (U := UR sig nD τ) (Lvl := ℕ) spec2 c (V3 m ρ c))
        ⊢ (StableHlo.held (c : Thread nD τ) (Pipeline.ucRefs τ sig) (W4 m ρ c) : sProp 𝕄) := by
      rw [hsplit, hZ]; exact .rfl
    iintro ⟨Ha, HO, HY, Hrest⟩
    ihave Hab := hgive $$ Ha
    imodintro
    isplitl [Hab Hrest HY]
    · isplitl [Hab Hrest]
      · iapply hback; isplitl [Hab] <;> iassumption
      iexact HY
    unfold Pipeline.Dat.owesAt Pipeline.owesWithin
    rw [show (pdats m ρ 2 c).owed (Fin.last _) = 0 from Reg2.owed_eq (V3 m ρ) c _]
    icases HO with ⟨%W, -, HO⟩; iexists W; iexact HO

/-! ## The program as its segments, and the run -/

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ) ]
theorem main_run (c : Dev nD) : main (F := F) c = Pipeline.Seg.run (segs m ρ) := (main_chain c).trans (by chain_rfl)

set_option backward.isDefEq.respectTransparency.types false in
/-- THE RUN: from any memory with zero counters every weakly fair execution of the program on the TensorCores
    terminates, nothing faulting, and every final memory holds each unscoped buffer at `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-! ## The arguments end as launched, and where the two results are -/

theorem W1_of (c : Dev nD) (b : Ref sig .tc) (h : b ∉ ([main_v0, main_v1, main_v2, main_v3, main_v4] : List (Ref sig .tc))) :
    W1 m ρ c (Proc.devRef .tc b) = m ((c : Thread nD τ).loc b) :=
  StableHlo.after_of_forall_not_mem (b := Proc.devRef .tc b) _ _ (List.forall_iff_forall_mem.mp (by
    simp only [hostOps0, List.Forall, StableHlo.unary_writes, StableHlo.reshape_writes, Finset.mem_singleton]
    simp only [List.mem_cons, List.not_mem_nil, or_false, not_or] at h
    exact ⟨StableHlo.devRef_ne_of_ne h.1, StableHlo.devRef_ne_of_ne h.2.1, StableHlo.devRef_ne_of_ne h.2.2.1,
      StableHlo.devRef_ne_of_ne h.2.2.2.1, StableHlo.devRef_ne_of_ne h.2.2.2.2⟩))

/-- A buffer that is an INPUT window's array of the first region, or none of its arrays, is after it what it was. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((Reg0.dat (V1 m ρ) c).arrAt_in w hw _).trans (Reg0.A_eq (V1 m ρ) c w))
theorem W3_in (c : Dev nD) (w : Fin cfg1.W) (hw : (cfg1.win w).isOut = false) :
    W3 m ρ c (Proc.devRef .tc (Pipeline.arrRef spec1 w)) = W2 m ρ c (Proc.devRef .tc (Pipeline.arrRef spec1 w)) :=
  (W3_arr m ρ c w).trans (((Reg1.dat (V2 m ρ) c).arrAt_in w hw _).trans (Reg1.A_eq (V2 m ρ) c w))

theorem W4_main_arg0 (c : Dev nD) : W4 m ρ c (Proc.devRef .tc main_arg0) = m ((c : Thread nD τ).loc main_arg0) :=
  (W4_of_ne m ρ c main_arg0 (by decide)).trans <| (W3_of_ne m ρ c main_arg0 (by decide)).trans <| (W2_in m ρ c 1 rfl).trans (W1_of m ρ c main_arg0 (by decide))
theorem W4_main_arg1 (c : Dev nD) : W4 m ρ c (Proc.devRef .tc main_arg1) = m ((c : Thread nD τ).loc main_arg1) :=
  (W4_of_ne m ρ c main_arg1 (by decide)).trans <| (W3_of_ne m ρ c main_arg1 (by decide)).trans <| (W2_of_ne m ρ c main_arg1 (by decide)).trans (W1_of m ρ c main_arg1 (by decide))
theorem W4_main_arg2 (c : Dev nD) : W4 m ρ c (Proc.devRef .tc main_arg2) = m ((c : Thread nD τ).loc main_arg2) :=
  (W4_of_ne m ρ c main_arg2 (by decide)).trans <| (W3_of_ne m ρ c main_arg2 (by decide)).trans <| (W2_in m ρ c 0 rfl).trans (W1_of m ρ c main_arg2 (by decide))
theorem W4_main_arg3 (c : Dev nD) : W4 m ρ c (Proc.devRef .tc main_arg3) = m ((c : Thread nD τ).loc main_arg3) :=
  (W4_of_ne m ρ c main_arg3 (by decide)).trans <| (W3_of_ne m ρ c main_arg3 (by decide)).trans <| (W2_of_ne m ρ c main_arg3 (by decide)).trans (W1_of m ρ c main_arg3 (by decide))
theorem W4_main_arg4 (c : Dev nD) : W4 m ρ c (Proc.devRef .tc main_arg4) = m ((c : Thread nD τ).loc main_arg4) :=
  (W4_of_ne m ρ c main_arg4 (by decide)).trans <| (W3_of_ne m ρ c main_arg4 (by decide)).trans <| (W2_of_ne m ρ c main_arg4 (by decide)).trans (W1_of m ρ c main_arg4 (by decide))
theorem W4_main_arg5 (c : Dev nD) : W4 m ρ c (Proc.devRef .tc main_arg5) = m ((c : Thread nD τ).loc main_arg5) :=
  (W4_of_ne m ρ c main_arg5 (by decide)).trans <| (W3_of_ne m ρ c main_arg5 (by decide)).trans <| (W2_of_ne m ρ c main_arg5 (by decide)).trans (W1_of m ρ c main_arg5 (by decide))
theorem W4_main_arg6 (c : Dev nD) : W4 m ρ c (Proc.devRef .tc main_arg6) = m ((c : Thread nD τ).loc main_arg6) :=
  (W4_of_ne m ρ c main_arg6 (by decide)).trans <| (W3_of_ne m ρ c main_arg6 (by decide)).trans <| (W2_in m ρ c 2 rfl).trans (W1_of m ρ c main_arg6 (by decide))
theorem W4_main_arg7 (c : Dev nD) : W4 m ρ c (Proc.devRef .tc main_arg7) = m ((c : Thread nD τ).loc main_arg7) :=
  (W4_of_ne m ρ c main_arg7 (by decide)).trans <| (W3_of_ne m ρ c main_arg7 (by decide)).trans <| (W2_of_ne m ρ c main_arg7 (by decide)).trans (W1_of m ρ c main_arg7 (by decide))
theorem W4_main_arg8 (c : Dev nD) : W4 m ρ c (Proc.devRef .tc main_arg8) = m ((c : Thread nD τ).loc main_arg8) :=
  (W4_of_ne m ρ c main_arg8 (by decide)).trans <| (W3_of_ne m ρ c main_arg8 (by decide)).trans <| (W2_in m ρ c 4 rfl).trans (W1_of m ρ c main_arg8 (by decide))
theorem W4_main_arg9 (c : Dev nD) : W4 m ρ c (Proc.devRef .tc main_arg9) = m ((c : Thread nD τ).loc main_arg9) :=
  (W4_of_ne m ρ c main_arg9 (by decide)).trans <| (W3_of_ne m ρ c main_arg9 (by decide)).trans <| (W2_of_ne m ρ c main_arg9 (by decide)).trans (W1_of m ρ c main_arg9 (by decide))
theorem W4_main_arg10 (c : Dev nD) : W4 m ρ c (Proc.devRef .tc main_arg10) = m ((c : Thread nD τ).loc main_arg10) :=
  (W4_of_ne m ρ c main_arg10 (by decide)).trans <| (W3_of_ne m ρ c main_arg10 (by decide)).trans <| (W2_of_ne m ρ c main_arg10 (by decide)).trans (W1_of m ρ c main_arg10 (by decide))
theorem W4_main_arg11 (c : Dev nD) : W4 m ρ c (Proc.devRef .tc main_arg11) = m ((c : Thread nD τ).loc main_arg11) :=
  (W4_of_ne m ρ c main_arg11 (by decide)).trans <| (W3_of_ne m ρ c main_arg11 (by decide)).trans <| (W2_of_ne m ρ c main_arg11 (by decide)).trans (W1_of m ρ c main_arg11 (by decide))

/-- The second result of the program is the first region's first output array as that region leaves it. -/
theorem W4_main_v5_0 (c : Dev nD) : W4 m ρ c (Proc.devRef .tc main_v5_0) = (Reg0.dat (V1 m ρ) c).arrAt 6 cfg0.N :=
  (W4_of_ne m ρ c main_v5_0 (by decide)).trans <| (W3_of_ne m ρ c main_v5_0 (by decide)).trans (W2_arr m ρ c 6)

/-- THE FRAME, and with it both results: every weakly fair execution terminates without a fault; each argument
    array ends as launched; the results end at the contents `W4` names. -/
theorem run_results : θ_run defs (onTc (τ := τ) (main (F := F))) ⟨m, fun _ => 0, ρ⟩ (fun r => ∀ c : Dev nD,
      r.2.mem ((c.tc : Thread nD τ).loc main_v7) = W4 m ρ c (Proc.devRef .tc main_v7)
      ∧ r.2.mem ((c.tc : Thread nD τ).loc main_v5_0) = W4 m ρ c (Proc.devRef .tc main_v5_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨h c _ (mem_uc main_v7 (by decide)), h c _ (mem_uc main_v5_0 (by decide)),
    (h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c),
    (h c _ (mem_uc main_arg10 (by decide))).trans (W4_main_arg10 m ρ c),
    (h c _ (mem_uc main_arg11 (by decide))).trans (W4_main_arg11 m ρ c)⟩) (run_all m ρ)

/-- The frame alone. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => (h c).2.2) (run_results m ρ)

end Cert.KernelIdeal.Asm

end
-- ==== Proof.Spec.lean ====
/-
  The mathematics of the road layer, over the extended reals, with every array written as a function of its
  coordinates. A dense layer is `lin x W b = x·W + b` (the bias added to every row), a product is `mm`, the
  rectifier is the maximum with zero. The layer computes

    he    = relu (HH · (x·W1 + b1))                       -- 2000 × 256
    z     = he·W2 + b2                                     -- 2000 × 256
    hgn   = relu (HG · z)                                  -- 10000 × 256
    gnn   = relu (GG · (x·Wg + bg))                        -- 10000 × 256
    fused = [x | gnn | hgn] · Wm + bm                      -- 10000 × 256

  and the product with the concatenation is the sum of three products with the three row bands of Wm.
  The product HG · z over 2000 terms is also the sum of five partial products over 400 terms each, added
  from the left: sums over the extended reals may be regrouped freely (addition there is commutative and
  associative), so none of this needs the entries to be finite.
-/
import Idealize.ShloMosaic.PureOps.Ideal
import Idealize.ShloMosaic.Lib.ValueIdx

noncomputable section

namespace Cert.Spec

open Idealize.ShloMosaic

variable {N K D : ℕ}

/-- A rank-2 array as a function of its two coordinates. -/
def rd2 {a b : ℕ} (f : (⟨2, ![a, b]⟩ : Shape).Idx → EReal) : Fin a → Fin b → EReal := fun n d => f (ValueIdx.ix2 n d)

/-- A one-row array `[1, b]` as a function of the column. -/
def rdRow {b : ℕ} (f : (⟨2, ![1, b]⟩ : Shape).Idx → EReal) : Fin b → EReal := fun d => f (ValueIdx.ix2 0 d)

/-- A rank-1 array as a function of its coordinate. -/
def rd1 {a : ℕ} (f : (⟨1, ![a]⟩ : Shape).Idx → EReal) : Fin a → EReal := fun d => f (ValueIdx.ix1 d)

/-- The product of two matrices. -/
def mm (a : Fin N → Fin K → EReal) (b : Fin K → Fin D → EReal) : Fin N → Fin D → EReal :=
  fun n d => ∑ k : Fin K, a n k * b k d

/-- A dense layer: the product plus the bias on every row. -/
def lin (x : Fin N → Fin K → EReal) (W : Fin K → Fin D → EReal) (b : Fin D → EReal) : Fin N → Fin D → EReal :=
  fun n d => mm x W n d + b d

/-- The rectifier, entry by entry. -/
def relu (a : Fin N → Fin D → EReal) : Fin N → Fin D → EReal := fun n d => max (a n d) 0

/-- Row `400·k + r` of a 2000-row array. -/
def row5 (k : Fin 5) (r : Fin 400) : Fin 2000 := ⟨400 * k.val + r.val, by have := k.isLt; have := r.isLt; omega⟩

/-- The `k`-th partial product of `HGᵀ` (given transposed, 2000 × 10000) with `z`: rows `400k … 400k+399`. -/
def part (hgt : Fin 2000 → Fin 10000 → EReal) (z : Fin 2000 → Fin 256 → EReal) (k : Fin 5) : Fin 10000 → Fin 256 → EReal :=
  fun n d => ∑ r : Fin 400, hgt (row5 k r) n * z (row5 k r) d

/-- The five partial products added from the left. -/
def acc5 (hgt : Fin 2000 → Fin 10000 → EReal) (z : Fin 2000 → Fin 256 → EReal) : Fin 10000 → Fin 256 → EReal :=
  fun n d => part hgt z 0 n d + part hgt z 1 n d + part hgt z 2 n d + part hgt z 3 n d + part hgt z 4 n d

/-- Row `o + k` of the 768-row matrix `Wm`, for `o = 0, 256, 512`. -/
def band (Wm : Fin 768 → Fin 256 → EReal) (o : ℕ) (ho : o + 256 ≤ 768) : Fin 256 → Fin 256 → EReal :=
  fun k d => Wm ⟨o + k.val, by have := k.isLt; omega⟩ d

/-- The fused output written as three products with the three bands of `Wm`, plus the bias. -/
def fused3 (x gnn hgn : Fin 10000 → Fin 256 → EReal) (Wm : Fin 768 → Fin 256 → EReal) (bm : Fin 256 → EReal) :
    Fin 10000 → Fin 256 → EReal :=
  fun n d => mm x (band Wm 0 (by omega)) n d + mm gnn (band Wm 256 (by omega)) n d + mm hgn (band Wm 512 (by omega)) n d + bm d

end Cert.Spec

end
-- ==== Proof.Reg0Pay.lean ====
import proofs.«172434_g28836410425910_retrytranche2_620_32_alg».proof.Proof.Gen.KernelIdeal.Skeleton
import proofs.«172434_g28836410425910_retrytranche2_620_32_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

/-!
  The arithmetic of the first kernel's three stored values over the extended reals, index by index: the projection
  x·W1 + b1, the rectified product of a block of rows with it, and the second dense layer of that.
-/

noncomputable section

namespace Cert.KernelIdeal.Reg0

open Cert.KernelIdeal Cert.KernelIdeal.Gen
open Idealize.ShloMosaic Idealize.ShloMosaic.ValueIdx
open scoped BigOperators

theorem mmA_l0 (i : S10000x256.Idx) (q : dot_S10000x256_S256x256_S10000x256_1_0_0_1_n_n.contr.Idx) : (dot_S10000x256_S256x256_S10000x256_1_0_0_1_n_n.lhsIdx i q 0).val = (i 0).val := by
  unfold DotDims.lhsIdx
  rw [dif_neg (show ¬(0 : Fin S10000x256.rank) ∈ dot_S10000x256_S256x256_S10000x256_1_0_0_1_n_n.lhsBatch by decide), dif_pos (show (0 : Fin S10000x256.rank) ∈ dot_S10000x256_S256x256_S10000x256_1_0_0_1_n_n.lhsNonContracting by decide)]
  rfl
theorem mmA_l1 (i : S10000x256.Idx) (q : dot_S10000x256_S256x256_S10000x256_1_0_0_1_n_n.contr.Idx) : (dot_S10000x256_S256x256_S10000x256_1_0_0_1_n_n.lhsIdx i q 1).val = (q ⟨0, by decide⟩).val :=
  dot_S10000x256_S256x256_S10000x256_1_0_0_1_n_n.lhsIdx_val_of_single rfl i q
theorem mmA_r0 (i : S10000x256.Idx) (q : dot_S10000x256_S256x256_S10000x256_1_0_0_1_n_n.contr.Idx) : (dot_S10000x256_S256x256_S10000x256_1_0_0_1_n_n.rhsIdx i q 0).val = (q ⟨0, by decide⟩).val :=
  dot_S10000x256_S256x256_S10000x256_1_0_0_1_n_n.rhsIdx_val_of_single rfl i q
theorem mmA_r1 (i : S10000x256.Idx) (q : dot_S10000x256_S256x256_S10000x256_1_0_0_1_n_n.contr.Idx) : (dot_S10000x256_S256x256_S10000x256_1_0_0_1_n_n.rhsIdx i q 1).val = (i 1).val := by
  unfold DotDims.rhsIdx
  rw [dif_neg (show ¬(1 : Fin S256x256.rank) ∈ dot_S10000x256_S256x256_S10000x256_1_0_0_1_n_n.rhsBatch by decide), dif_pos (show (1 : Fin S256x256.rank) ∈ dot_S10000x256_S256x256_S10000x256_1_0_0_1_n_n.rhsNonContracting by decide)]
  rfl
/-- The product into the zero accumulator, read at (n, d): the sum over the contracted axis. -/
theorem mmA_apply (lhs : FVec Ideal S10000x256 .f32) (rhs : FVec Ideal S256x256 .f32) (n : Fin 10000) (d : Fin 256) :
    FloatOps.matmul dot_S10000x256_S256x256_S10000x256_1_0_0_1_n_n none lhs rhs (constant S10000x256 .f32 0x00000000#32) (ix2 n d)
      = ∑ k : Fin 256, lhs (ix2 n k) * rhs (ix2 k d) := by
  rw [Ideal.matmul_constant_zero_apply, ← Equiv.sum_comp (ValueIdx.contrEquiv1 dot_S10000x256_S256x256_S10000x256_1_0_0_1_n_n 256 rfl rfl).symm]
  refine Finset.sum_congr rfl fun k _ => ?_
  have hk := ValueIdx.contrEquiv1_symm_val dot_S10000x256_S256x256_S10000x256_1_0_0_1_n_n 256 rfl rfl k
  have el : dot_S10000x256_S256x256_S10000x256_1_0_0_1_n_n.lhsIdx (ix2 n d) ((ValueIdx.contrEquiv1 dot_S10000x256_S256x256_S10000x256_1_0_0_1_n_n 256 rfl rfl).symm k) = ix2 n k := funext fun a => Fin.ext (by
    match a with
    | ⟨0, _⟩ => exact mmA_l0 _ _
    | ⟨1, _⟩ => exact (mmA_l1 _ _).trans hk)
  have er : dot_S10000x256_S256x256_S10000x256_1_0_0_1_n_n.rhsIdx (ix2 n d) ((ValueIdx.contrEquiv1 dot_S10000x256_S256x256_S10000x256_1_0_0_1_n_n 256 rfl rfl).symm k) = ix2 k d := funext fun a => Fin.ext (by
    match a with
    | ⟨0, _⟩ => exact (mmA_r0 _ _).trans hk
    | ⟨1, _⟩ => exact mmA_r1 _ _)
  rw [el, er]

theorem mmB_l0 (i : S400x256.Idx) (q : dot_S400x10000_S10000x256_S400x256_1_0_0_1_n_n.contr.Idx) : (dot_S400x10000_S10000x256_S400x256_1_0_0_1_n_n.lhsIdx i q 0).val = (i 0).val := by
  unfold DotDims.lhsIdx
  rw [dif_neg (show ¬(0 : Fin S400x10000.rank) ∈ dot_S400x10000_S10000x256_S400x256_1_0_0_1_n_n.lhsBatch by decide), dif_pos (show (0 : Fin S400x10000.rank) ∈ dot_S400x10000_S10000x256_S400x256_1_0_0_1_n_n.lhsNonContracting by decide)]
  rfl
theorem mmB_l1 (i : S400x256.Idx) (q : dot_S400x10000_S10000x256_S400x256_1_0_0_1_n_n.contr.Idx) : (dot_S400x10000_S10000x256_S400x256_1_0_0_1_n_n.lhsIdx i q 1).val = (q ⟨0, by decide⟩).val :=
  dot_S400x10000_S10000x256_S400x256_1_0_0_1_n_n.lhsIdx_val_of_single rfl i q
theorem mmB_r0 (i : S400x256.Idx) (q : dot_S400x10000_S10000x256_S400x256_1_0_0_1_n_n.contr.Idx) : (dot_S400x10000_S10000x256_S400x256_1_0_0_1_n_n.rhsIdx i q 0).val = (q ⟨0, by decide⟩).val :=
  dot_S400x10000_S10000x256_S400x256_1_0_0_1_n_n.rhsIdx_val_of_single rfl i q
theorem mmB_r1 (i : S400x256.Idx) (q : dot_S400x10000_S10000x256_S400x256_1_0_0_1_n_n.contr.Idx) : (dot_S400x10000_S10000x256_S400x256_1_0_0_1_n_n.rhsIdx i q 1).val = (i 1).val := by
  unfold DotDims.rhsIdx
  rw [dif_neg (show ¬(1 : Fin S10000x256.rank) ∈ dot_S400x10000_S10000x256_S400x256_1_0_0_1_n_n.rhsBatch by decide), dif_pos (show (1 : Fin S10000x256.rank) ∈ dot_S400x10000_S10000x256_S400x256_1_0_0_1_n_n.rhsNonContracting by decide)]
  rfl
/-- The product into the zero accumulator, read at (n, d): the sum over the contracted axis. -/
theorem mmB_apply (lhs : FVec Ideal S400x10000 .bf16) (rhs : FVec Ideal S10000x256 .bf16) (n : Fin 400) (d : Fin 256) :
    FloatOps.matmul dot_S400x10000_S10000x256_S400x256_1_0_0_1_n_n none lhs rhs (constant S400x256 .f32 0x00000000#32) (ix2 n d)
      = ∑ k : Fin 10000, lhs (ix2 n k) * rhs (ix2 k d) := by
  rw [Ideal.matmul_constant_zero_apply, ← Equiv.sum_comp (ValueIdx.contrEquiv1 dot_S400x10000_S10000x256_S400x256_1_0_0_1_n_n 10000 rfl rfl).symm]
  refine Finset.sum_congr rfl fun k _ => ?_
  have hk := ValueIdx.contrEquiv1_symm_val dot_S400x10000_S10000x256_S400x256_1_0_0_1_n_n 10000 rfl rfl k
  have el : dot_S400x10000_S10000x256_S400x256_1_0_0_1_n_n.lhsIdx (ix2 n d) ((ValueIdx.contrEquiv1 dot_S400x10000_S10000x256_S400x256_1_0_0_1_n_n 10000 rfl rfl).symm k) = ix2 n k := funext fun a => Fin.ext (by
    match a with
    | ⟨0, _⟩ => exact mmB_l0 _ _
    | ⟨1, _⟩ => exact (mmB_l1 _ _).trans hk)
  have er : dot_S400x10000_S10000x256_S400x256_1_0_0_1_n_n.rhsIdx (ix2 n d) ((ValueIdx.contrEquiv1 dot_S400x10000_S10000x256_S400x256_1_0_0_1_n_n 10000 rfl rfl).symm k) = ix2 k d := funext fun a => Fin.ext (by
    match a with
    | ⟨0, _⟩ => exact (mmB_r0 _ _).trans hk
    | ⟨1, _⟩ => exact mmB_r1 _ _)
  rw [el, er]

theorem mmC_l0 (i : S400x256.Idx) (q : dot_S400x256_S256x256_S400x256_1_0_0_1_n_n.contr.Idx) : (dot_S400x256_S256x256_S400x256_1_0_0_1_n_n.lhsIdx i q 0).val = (i 0).val := by
  unfold DotDims.lhsIdx
  rw [dif_neg (show ¬(0 : Fin S400x256.rank) ∈ dot_S400x256_S256x256_S400x256_1_0_0_1_n_n.lhsBatch by decide), dif_pos (show (0 : Fin S400x256.rank) ∈ dot_S400x256_S256x256_S400x256_1_0_0_1_n_n.lhsNonContracting by decide)]
  rfl
theorem mmC_l1 (i : S400x256.Idx) (q : dot_S400x256_S256x256_S400x256_1_0_0_1_n_n.contr.Idx) : (dot_S400x256_S256x256_S400x256_1_0_0_1_n_n.lhsIdx i q 1).val = (q ⟨0, by decide⟩).val :=
  dot_S400x256_S256x256_S400x256_1_0_0_1_n_n.lhsIdx_val_of_single rfl i q
theorem mmC_r0 (i : S400x256.Idx) (q : dot_S400x256_S256x256_S400x256_1_0_0_1_n_n.contr.Idx) : (dot_S400x256_S256x256_S400x256_1_0_0_1_n_n.rhsIdx i q 0).val = (q ⟨0, by decide⟩).val :=
  dot_S400x256_S256x256_S400x256_1_0_0_1_n_n.rhsIdx_val_of_single rfl i q
theorem mmC_r1 (i : S400x256.Idx) (q : dot_S400x256_S256x256_S400x256_1_0_0_1_n_n.contr.Idx) : (dot_S400x256_S256x256_S400x256_1_0_0_1_n_n.rhsIdx i q 1).val = (i 1).val := by
  unfold DotDims.rhsIdx
  rw [dif_neg (show ¬(1 : Fin S256x256.rank) ∈ dot_S400x256_S256x256_S400x256_1_0_0_1_n_n.rhsBatch by decide), dif_pos (show (1 : Fin S256x256.rank) ∈ dot_S400x256_S256x256_S400x256_1_0_0_1_n_n.rhsNonContracting by decide)]
  rfl
/-- The product into the zero accumulator, read at (n, d): the sum over the contracted axis. -/
theorem mmC_apply (lhs : FVec Ideal S400x256 .f32) (rhs : FVec Ideal S256x256 .f32) (n : Fin 400) (d : Fin 256) :
    FloatOps.matmul dot_S400x256_S256x256_S400x256_1_0_0_1_n_n none lhs rhs (constant S400x256 .f32 0x00000000#32) (ix2 n d)
      = ∑ k : Fin 256, lhs (ix2 n k) * rhs (ix2 k d) := by
  rw [Ideal.matmul_constant_zero_apply, ← Equiv.sum_comp (ValueIdx.contrEquiv1 dot_S400x256_S256x256_S400x256_1_0_0_1_n_n 256 rfl rfl).symm]
  refine Finset.sum_congr rfl fun k _ => ?_
  have hk := ValueIdx.contrEquiv1_symm_val dot_S400x256_S256x256_S400x256_1_0_0_1_n_n 256 rfl rfl k
  have el : dot_S400x256_S256x256_S400x256_1_0_0_1_n_n.lhsIdx (ix2 n d) ((ValueIdx.contrEquiv1 dot_S400x256_S256x256_S400x256_1_0_0_1_n_n 256 rfl rfl).symm k) = ix2 n k := funext fun a => Fin.ext (by
    match a with
    | ⟨0, _⟩ => exact mmC_l0 _ _
    | ⟨1, _⟩ => exact (mmC_l1 _ _).trans hk)
  have er : dot_S400x256_S256x256_S400x256_1_0_0_1_n_n.rhsIdx (ix2 n d) ((ValueIdx.contrEquiv1 dot_S400x256_S256x256_S400x256_1_0_0_1_n_n 256 rfl rfl).symm k) = ix2 k d := funext fun a => Fin.ext (by
    match a with
    | ⟨0, _⟩ => exact (mmC_r0 _ _).trans hk
    | ⟨1, _⟩ => exact mmC_r1 _ _)
  rw [el, er]

/-- The projection at (n, d): the row of x times the column of W1, plus the bias. -/
theorem pay1_apply (x : Vec Ideal S10000x256 .f32) (W : Vec Ideal S256x256 .f32) (b : Vec Ideal S1x256 .f32) (n : Fin 10000) (d : Fin 256) :
    k0_pay1 (F := Ideal) x W b (ix2 n d) = (∑ k : Fin 256, x (ix2 n k) * W (ix2 k d)) + b (ix2 (0 : Fin 1) d) := by
  unfold k0_pay1
  simp only [shapeCast_self]
  exact congrArg₂ (· + ·) (mmA_apply x W n d) (broadcastTo_1b_ab_apply b broadcasts_S1x256_S10000x256 n d)

/-- The rectified product at (r, d): a row of the block times a column of the projection, and the maximum with zero. -/
theorem pay2_apply (x : Vec Ideal S400x10000 .f32) (S : Vec Ideal S10000x256 .bf16) (r : Fin 400) (d : Fin 256) :
    k0_pay2 (F := Ideal) x S (ix2 r d) = max (∑ k : Fin 10000, x (ix2 r k) * S (ix2 k d)) 0 := by
  unfold k0_pay2
  refine (congrArg₂ max (mmB_apply (truncf .bf16 x bitsLt_bf16_f32) S r d) Ideal.ofBits_zero_f32).trans ?_
  rfl

/-- The second dense layer at (r, d): a row of the rectified block times a column of W2, plus the bias. -/
theorem pay3_apply (x : Vec Ideal S400x10000 .f32) (S : Vec Ideal S10000x256 .bf16) (W : Vec Ideal S256x256 .f32) (b : Vec Ideal S1x256 .f32) (r : Fin 400) (d : Fin 256) :
    k0_pay3 (F := Ideal) x S W b (ix2 r d) = (∑ k : Fin 256, k0_pay2 (F := Ideal) x S (ix2 r k) * W (ix2 k d)) + b (ix2 (0 : Fin 1) d) := by
  unfold k0_pay3
  simp only [shapeCast_self]
  exact congrArg₂ (· + ·) (mmC_apply (k0_pay2 x S) W r d) (broadcastTo_1b_ab_apply b broadcasts_S1x256_S400x256 r d)

end Cert.KernelIdeal.Reg0

end
-- ==== Proof.Reg0Val.lean ====
import proofs.«172434_g28836410425910_retrytranche2_620_32_alg».proof.Proof.Reg0
import proofs.«172434_g28836410425910_retrytranche2_620_32_alg».proof.Proof.Reg0Pay
import proofs.«172434_g28836410425910_retrytranche2_620_32_alg».proof.Proof.Spec
import Idealize.ShloMosaic.Lib.Pipeline.Value

set_option maxRecDepth 16384

/-!
  What the first kernel's two output arrays hold when its region ends, over the extended reals: the rectified product
  of the incidence rows with the projection x·W1 + b1, and the second dense layer of it. Each write-back is a block of
  400 rows of one function of the argument arrays; the five blocks cover the 2000 rows.
-/

noncomputable section

namespace Cert.KernelIdeal.Reg0

open Cert.KernelIdeal Cert.KernelIdeal.Gen
open Idealize.ShloMosaic Idealize.ShloMosaic.TcCoe Idealize.SL.Sem
open Idealize.ShloMosaic.Pipeline (Dat)
open Idealize.ShloMosaic.ValueIdx
open Cert.Spec
open scoped BigOperators

variable (V : (c : Dev nD) → (b : Ref sig .tc) → Buf (Elt Ideal) ((c : Thread nD τ).loc b))

/-- The printed index maps, decided over the grid: the row-blocked windows move with the point, the whole ones stay. -/
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)

/-- A point of the grid as a number below five. -/
def t5 (t : Fin cfg0.N) : Fin 5 := ⟨t.val, lt_of_lt_of_eq t.isLt (show cfg0.N = 5 from N_0)⟩

/-! ## The windows' blocks as parts of the arrays -/

/-- Window 0's block at point `t` is rows `400 t … 400 t + 399` of the incidence array. -/
theorem iblk0_apply (c : Dev nD) (t : Fin cfg0.N) (r : Fin 400) (k : Fin 10000) :
    (iblk V c 0 t : Vec Ideal S400x10000 .f32) (ix2 r k) = (V c main_arg2 : S2000x10000.Idx → EReal) (ix2 (row5 (t5 t) r) k) := by
  obtain ⟨e0, e1⟩ := idx0 t
  unfold iblk
  rw [View.read_apply]
  show V c main_arg2 _ = V c main_arg2 _
  refine congrArg (V c main_arg2 : S2000x10000.Idx → EReal) ?_
  funext a
  apply Fin.ext
  match a with
  | ⟨0, _⟩ => show win0_0.index t (0 : Fin 2) * 400 + 1 * r.val = 400 * t.val + r.val; rw [e0]; omega
  | ⟨1, _⟩ => show win0_0.index t (1 : Fin 2) * 10000 + 1 * k.val = k.val; rw [e1]; omega

/-- Window 1's block is its whole array, at every point. -/
theorem iblk1_apply (c : Dev nD) (t : Fin cfg0.N) (n : Fin 10000) (k : Fin 256) :
    (iblk V c 1 t : Vec Ideal S10000x256 .f32) (ix2 n k) = (V c main_arg0 : S10000x256.Idx → EReal) (ix2 n k) := by
  obtain ⟨e0, e1⟩ := idx1 t
  unfold iblk
  rw [View.read_apply]
  show V c main_arg0 _ = V c main_arg0 _
  refine congrArg (V c main_arg0 : S10000x256.Idx → EReal) ?_
  funext a
  apply Fin.ext
  match a with
  | ⟨0, _⟩ => show win0_1.index t (0 : Fin 2) * 10000 + 1 * n.val = n.val; rw [e0]; omega
  | ⟨1, _⟩ => show win0_1.index t (1 : Fin 2) * 256 + 1 * k.val = k.val; rw [e1]; omega

/-- Window 2's block is its whole array, at every point. -/
theorem iblk2_apply (c : Dev nD) (t : Fin cfg0.N) (n : Fin 256) (k : Fin 256) :
    (iblk V c 2 t : Vec Ideal S256x256 .f32) (ix2 n k) = (V c main_arg6 : S256x256.Idx → EReal) (ix2 n k) := by
  obtain ⟨e0, e1⟩ := idx2 t
  unfold iblk
  rw [View.read_apply]
  show V c main_arg6 _ = V c main_arg6 _
  refine congrArg (V c main_arg6 : S256x256.Idx → EReal) ?_
  funext a
  apply Fin.ext
  match a with
  | ⟨0, _⟩ => show win0_2.index t (0 : Fin 2) * 256 + 1 * n.val = n.val; rw [e0]; omega
  | ⟨1, _⟩ => show win0_2.index t (1 : Fin 2) * 256 + 1 * k.val = k.val; rw [e1]; omega

/-- Window 3's block is its whole array, at every point. -/
theorem iblk3_apply (c : Dev nD) (t : Fin cfg0.N) (n : Fin 1) (k : Fin 256) :
    (iblk V c 3 t : Vec Ideal S1x256 .f32) (ix2 n k) = (V c main_v1 : S1x256.Idx → EReal) (ix2 n k) := by
  obtain ⟨e0, e1⟩ := idx3 t
  unfold iblk
  rw [View.read_apply]
  show V c main_v1 _ = V c main_v1 _
  refine congrArg (V c main_v1 : S1x256.Idx → EReal) ?_
  funext a
  apply Fin.ext
  match a with
  | ⟨0, _⟩ => show win0_3.index t (0 : Fin 2) * 1 + 1 * n.val = n.val; rw [e0]; omega
  | ⟨1, _⟩ => show win0_3.index t (1 : Fin 2) * 256 + 1 * k.val = k.val; rw [e1]; omega

/-- Window 4's block is its whole array, at every point. -/
theorem iblk4_apply (c : Dev nD) (t : Fin cfg0.N) (n : Fin 256) (k : Fin 256) :
    (iblk V c 4 t : Vec Ideal S256x256 .f32) (ix2 n k) = (V c main_arg8 : S256x256.Idx → EReal) (ix2 n k) := by
  obtain ⟨e0, e1⟩ := idx4 t
  unfold iblk
  rw [View.read_apply]
  show V c main_arg8 _ = V c main_arg8 _
  refine congrArg (V c main_arg8 : S256x256.Idx → EReal) ?_
  funext a
  apply Fin.ext
  match a with
  | ⟨0, _⟩ => show win0_4.index t (0 : Fin 2) * 256 + 1 * n.val = n.val; rw [e0]; omega
  | ⟨1, _⟩ => show win0_4.index t (1 : Fin 2) * 256 + 1 * k.val = k.val; rw [e1]; omega

/-- Window 5's block is its whole array, at every point. -/
theorem iblk5_apply (c : Dev nD) (t : Fin cfg0.N) (n : Fin 1) (k : Fin 256) :
    (iblk V c 5 t : Vec Ideal S1x256 .f32) (ix2 n k) = (V c main_v2 : S1x256.Idx → EReal) (ix2 n k) := by
  obtain ⟨e0, e1⟩ := idx5 t
  unfold iblk
  rw [View.read_apply]
  show V c main_v2 _ = V c main_v2 _
  refine congrArg (V c main_v2 : S1x256.Idx → EReal) ?_
  funext a
  apply Fin.ext
  match a with
  | ⟨0, _⟩ => show win0_5.index t (0 : Fin 2) * 1 + 1 * n.val = n.val; rw [e0]; omega
  | ⟨1, _⟩ => show win0_5.index t (1 : Fin 2) * 256 + 1 * k.val = k.val; rw [e1]; omega

/-! ## The stored values at a point, index by index -/

/-- The first output's specification: the rectified product of the incidence rows with the projection. -/
abbrev heSpec (c : Dev nD) : Fin 2000 → Fin 256 → EReal :=
  Cert.Spec.relu (Cert.Spec.mm (Cert.Spec.rd2 (V c main_arg2)) (Cert.Spec.lin (Cert.Spec.rd2 (V c main_arg0)) (Cert.Spec.rd2 (V c main_arg6)) (Cert.Spec.rdRow (V c main_v1))))

/-- The scratch holds the projection x·W1 + b1. -/
theorem scr_apply (c : Dev nD) (k : Fin 10000) (d : Fin 256) :
    (scr V c : Vec Ideal S10000x256 .bf16) (ix2 k d)
      = lin (rd2 (V c main_arg0)) (rd2 (V c main_arg6)) (rdRow (V c main_v1)) k d := by
  unfold scr
  refine (pay1_apply (iblk V c 1 t00) (iblk V c 2 t00) (iblk V c 3 t00) k d).trans ?_
  exact congrArg₂ (· + ·)
    (Finset.sum_congr rfl fun k' _ => congrArg₂ (· * ·) (iblk1_apply V c t00 k k') (iblk2_apply V c t00 k' d))
    (iblk3_apply V c t00 0 d)

/-- What point `t` leaves in the first output's buffer, at (r, d): the specification at row `400 t + r`. -/
theorem he_point (c : Dev nD) (t : Fin cfg0.N) (r : Fin 400) (d : Fin 256) :
    k0_pay2 (F := Ideal) (iblk V c 0 t) (scr V c) (ix2 r d) = heSpec V c (row5 (t5 t) r) d := by
  refine (pay2_apply (iblk V c 0 t) (scr V c) r d).trans ?_
  exact congrArg (max · 0)
    (Finset.sum_congr rfl fun k _ => congrArg₂ (· * ·) (iblk0_apply V c t r k) (scr_apply V c k d))

/-- What point `t` leaves in the second output's buffer, at (r, d): the second dense layer of the specification. -/
theorem z_point (c : Dev nD) (t : Fin cfg0.N) (r : Fin 400) (d : Fin 256) :
    k0_pay3 (F := Ideal) (iblk V c 0 t) (scr V c) (iblk V c 4 t) (iblk V c 5 t) (ix2 r d)
      = lin (heSpec V c) (rd2 (V c main_arg8)) (rdRow (V c main_v2)) (row5 (t5 t) r) d := by
  refine (pay3_apply (iblk V c 0 t) (scr V c) (iblk V c 4 t) (iblk V c 5 t) r d).trans ?_
  exact congrArg₂ (· + ·)
    (Finset.sum_congr rfl fun k _ => congrArg₂ (· * ·) (he_point V c t r k) (iblk4_apply V c t k d))
    (iblk5_apply V c t 0 d)

/-! ## From blocks to the arrays -/

/-- The first output array as one function of its index. -/
def G6 (c : Dev nD) : S2000x256.Idx → EReal :=
  fun i => heSpec V c ⟨(i 0).val, idx2_lt0 i⟩ ⟨(i 1).val, idx2_lt1 i⟩
/-- The second output array as one function of its index. -/
def G7 (c : Dev nD) : S2000x256.Idx → EReal :=
  fun i => lin (heSpec V c) (rd2 (V c main_arg8)) (rdRow (V c main_v2)) ⟨(i 0).val, idx2_lt0 i⟩ ⟨(i 1).val, idx2_lt1 i⟩

/-- Element (r, d) of output block `t` sits at row `400 t + r`, column `d` of the array. -/
theorem emb6 (t : Fin cfg0.N) (r : Fin 400) (d : Fin 256) :
    (((cfg0.win 6).blk t).view.emb (ix2 r d) : S2000x256.Idx) = ix2 (row5 (t5 t) r) d := by
  obtain ⟨e0, e1⟩ := idx6 t
  funext a
  apply Fin.ext
  match a with
  | ⟨0, _⟩ => show win0_6.index t (0 : Fin 2) * 400 + 1 * r.val = 400 * t.val + r.val; rw [e0]; omega
  | ⟨1, _⟩ => show win0_6.index t (1 : Fin 2) * 256 + 1 * d.val = d.val; rw [e1]; omega
theorem emb7 (t : Fin cfg0.N) (r : Fin 400) (d : Fin 256) :
    (((cfg0.win 7).blk t).view.emb (ix2 r d) : S2000x256.Idx) = ix2 (row5 (t5 t) r) d := by
  obtain ⟨e0, e1⟩ := idx7 t
  funext a
  apply Fin.ext
  match a with
  | ⟨0, _⟩ => show win0_7.index t (0 : Fin 2) * 400 + 1 * r.val = 400 * t.val + r.val; rw [e0]; omega
  | ⟨1, _⟩ => show win0_7.index t (1 : Fin 2) * 256 + 1 * d.val = d.val; rw [e1]; omega

/-- What point `t` writes back to the first output is block `t` of `G6`. -/
theorem flushed6_eq (c : Dev nD) (t : Fin cfg0.N) :
    (dat V c).flushed 6 t = ((cfg0.win 6).blk t).view.read (Elt Ideal) (G6 V c) := by
  show (cfg0.win 6).cut (grid0.coords t) ((dat V c).after 6 t) = _
  rw [after6]
  funext j
  obtain ⟨r, d, rfl⟩ : ∃ (r : Fin 400) (d : Fin 256), j = ix2 r d := ⟨j 0, j 1, eq_ix2 j⟩
  show k0_pay2 (F := Ideal) (iblk V c 0 t) (scr V c) (ix2 r d) = G6 V c (((cfg0.win 6).blk t).view.emb (ix2 r d))
  rw [emb6 t r d]
  exact he_point V c t r d

/-- What point `t` writes back to the second output is block `t` of `G7`. -/
theorem flushed7_eq (c : Dev nD) (t : Fin cfg0.N) :
    (dat V c).flushed 7 t = ((cfg0.win 7).blk t).view.read (Elt Ideal) (G7 V c) := by
  show (cfg0.win 7).cut (grid0.coords t) ((dat V c).after 7 t) = _
  rw [after7]
  funext j
  obtain ⟨r, d, rfl⟩ : ∃ (r : Fin 400) (d : Fin 256), j = ix2 r d := ⟨j 0, j 1, eq_ix2 j⟩
  show k0_pay3 (F := Ideal) (iblk V c 0 t) (scr V c) (iblk V c 4 t) (iblk V c 5 t) (ix2 r d) = G7 V c (((cfg0.win 7).blk t).view.emb (ix2 r d))
  rw [emb7 t r d]
  exact z_point V c t r d

/-- An index of the array is in point `t`'s block iff each coordinate is in the block's range on its axis. -/
theorem mem_blk6 (t : Fin cfg0.N) (i : S2000x256.Idx) :
    i ∈ ((cfg0.win 6).blk t).view.set ↔ ∀ a : Fin 2, win0_6.index t a * S400x256.size a ≤ (i a).val ∧ (i a).val < win0_6.index t a * S400x256.size a + S400x256.size a := by
  show i ∈ ((View.whole main_v5_0).slice (win0_6.rect t)).set ↔ _
  rw [View.set_slice_whole, Rect.mem_set_unit]
  exact Iff.rfl
theorem mem_blk7 (t : Fin cfg0.N) (i : S2000x256.Idx) :
    i ∈ ((cfg0.win 7).blk t).view.set ↔ ∀ a : Fin 2, win0_7.index t a * S400x256.size a ≤ (i a).val ∧ (i a).val < win0_7.index t a * S400x256.size a + S400x256.size a := by
  show i ∈ ((View.whole main_v5_1).slice (win0_7.rect t)).set ↔ _
  rw [View.set_slice_whole, Rect.mem_set_unit]
  exact Iff.rfl

/-- Row `h` lies in the block of point `h / 400`: the five blocks cover the array. -/
theorem cover6 (i : S2000x256.Idx) : ∃ t : Fin cfg0.N, (cfg0.win 6).flush t = true ∧ i ∈ ((cfg0.win 6).blk t).view.set := by
  have hi0 : (i 0).val < 2000 := idx2_lt0 i
  have hi1 : (i 1).val < 256 := idx2_lt1 i
  have hN : cfg0.N = 5 := N_0
  obtain ⟨t, ht⟩ : ∃ t : Fin cfg0.N, t.val = (i 0).val / 400 := ⟨⟨(i 0).val / 400, by rw [hN]; omega⟩, rfl⟩
  obtain ⟨e0, e1⟩ := idx6 t
  refine ⟨t, flush0_6 t, ?_⟩
  rw [mem_blk6]
  intro a
  match a with
  | ⟨0, _⟩ => show win0_6.index t (0 : Fin 2) * 400 ≤ (i 0).val ∧ (i 0).val < win0_6.index t (0 : Fin 2) * 400 + 400; rw [e0, ht]; omega
  | ⟨1, _⟩ => show win0_6.index t (1 : Fin 2) * 256 ≤ (i 1).val ∧ (i 1).val < win0_6.index t (1 : Fin 2) * 256 + 256; rw [e1]; omega
theorem cover7 (i : S2000x256.Idx) : ∃ t : Fin cfg0.N, (cfg0.win 7).flush t = true ∧ i ∈ ((cfg0.win 7).blk t).view.set := by
  have hi0 : (i 0).val < 2000 := idx2_lt0 i
  have hi1 : (i 1).val < 256 := idx2_lt1 i
  have hN : cfg0.N = 5 := N_0
  obtain ⟨t, ht⟩ : ∃ t : Fin cfg0.N, t.val = (i 0).val / 400 := ⟨⟨(i 0).val / 400, by rw [hN]; omega⟩, rfl⟩
  obtain ⟨e0, e1⟩ := idx7 t
  refine ⟨t, flush0_7 t, ?_⟩
  rw [mem_blk7]
  intro a
  match a with
  | ⟨0, _⟩ => show win0_7.index t (0 : Fin 2) * 400 ≤ (i 0).val ∧ (i 0).val < win0_7.index t (0 : Fin 2) * 400 + 400; rw [e0, ht]; omega
  | ⟨1, _⟩ => show win0_7.index t (1 : Fin 2) * 256 ≤ (i 1).val ∧ (i 1).val < win0_7.index t (1 : Fin 2) * 256 + 256; rw [e1]; omega

/-- The first output array when the region ends. -/
theorem final6 (c : Dev nD) : (dat (F := Ideal) V c).arrAt 6 cfg0.N = G6 V c :=
  (dat V c).arrAt_eq_of_cover 6 (G6 V c) (fun t _ => flushed6_eq V c t) cover6
/-- The second output array when the region ends. -/
theorem final7 (c : Dev nD) : (dat (F := Ideal) V c).arrAt 7 cfg0.N = G7 V c :=
  (dat V c).arrAt_eq_of_cover 7 (G7 V c) (fun t _ => flushed7_eq V c t) cover7

/-- The first output at (h, d): the rectified product of incidence row `h` with column `d` of the projection. -/
theorem he_final (c : Dev nD) (h : Fin 2000) (d : Fin 256) :
    ((dat (F := Ideal) V c).arrAt 6 cfg0.N : S2000x256.Idx → EReal) (ix2 h d) = heSpec V c h d :=
  congrFun (final6 V c) (ix2 h d)

/-- The second output at (h, d): the second dense layer of the first. -/
theorem z_final (c : Dev nD) (h : Fin 2000) (d : Fin 256) :
    ((dat (F := Ideal) V c).arrAt 7 cfg0.N : S2000x256.Idx → EReal) (ix2 h d)
      = Cert.Spec.lin (heSpec V c) (Cert.Spec.rd2 (V c main_arg8)) (Cert.Spec.rdRow (V c main_v2)) h d :=
  congrFun (final7 V c) (ix2 h d)

end Cert.KernelIdeal.Reg0

end
-- ==== Proof.Reg1Val.lean ====
import proofs.«172434_g28836410425910_retrytranche2_620_32_alg».proof.Proof.Reg1
import proofs.«172434_g28836410425910_retrytranche2_620_32_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Reg1

open Cert.KernelIdeal Cert.KernelIdeal.Gen
open Idealize.ShloMosaic Idealize.ShloMosaic.TcCoe Idealize.SL.Sem
open Idealize.ShloMosaic.Pipeline (Dat)
open Idealize.ShloMosaic.ValueIdx

/-! ## The accumulation's product: it contracts the ROW axis of both operands -/

/-- The product's dimension numbers: axis 0 of the left operand against axis 0 of the right one. -/
abbrev dotT := dot_S400x10000_S400x256_S10000x256_0_0_1_1_n_n

theorem dotT_lhs0 (i : S10000x256.Idx) (q : dotT.contr.Idx) : (dotT.lhsIdx i q 0).val = (q ⟨0, by decide⟩).val :=
  dotT.lhsIdx_val_of_single rfl i q
theorem dotT_lhs1 (i : S10000x256.Idx) (q : dotT.contr.Idx) : (dotT.lhsIdx i q 1).val = (i 0).val := by
  unfold DotDims.lhsIdx
  rw [dif_neg (show ¬(1 : Fin S400x10000.rank) ∈ dotT.lhsBatch by decide), dif_pos (show (1 : Fin S400x10000.rank) ∈ dotT.lhsNonContracting by decide)]
  rfl
theorem dotT_rhs0 (i : S10000x256.Idx) (q : dotT.contr.Idx) : (dotT.rhsIdx i q 0).val = (q ⟨0, by decide⟩).val :=
  dotT.rhsIdx_val_of_single rfl i q
theorem dotT_rhs1 (i : S10000x256.Idx) (q : dotT.contr.Idx) : (dotT.rhsIdx i q 1).val = (i 1).val := by
  unfold DotDims.rhsIdx
  rw [dif_neg (show ¬(1 : Fin S400x256.rank) ∈ dotT.rhsBatch by decide), dif_pos (show (1 : Fin S400x256.rank) ∈ dotT.rhsNonContracting by decide)]
  rfl

/-- The partial product at an entry: the sum over the block's 400 rows. -/
theorem pay1_apply (v0 : Vec Ideal S400x10000 .f32) (v3 : Vec Ideal S400x256 .f32) (n : Fin 10000) (d : Fin 256) :
    (k1_pay1 v0 v3 : S10000x256.Idx → EReal) (ix2 n d) = ∑ r : Fin 400, v0 (ix2 r n) * v3 (ix2 r d) := by
  unfold k1_pay1
  simp only [matmul]
  rw [Ideal.matmul_constant_zero_apply, ← Equiv.sum_comp (contrEquiv1 dotT 400 rfl rfl).symm]
  refine Finset.sum_congr rfl fun k _ => ?_
  have hk := contrEquiv1_symm_val dotT 400 rfl rfl k
  have el : dotT.lhsIdx (ix2 n d) ((contrEquiv1 dotT 400 rfl rfl).symm k) = ix2 k n := funext fun a => Fin.ext (by
    match a with
    | ⟨0, _⟩ => exact (dotT_lhs0 _ _).trans hk
    | ⟨1, _⟩ => exact dotT_lhs1 _ _)
  have er : dotT.rhsIdx (ix2 n d) ((contrEquiv1 dotT 400 rfl rfl).symm k) = ix2 k d := funext fun a => Fin.ext (by
    match a with
    | ⟨0, _⟩ => exact (dotT_rhs0 _ _).trans hk
    | ⟨1, _⟩ => exact dotT_rhs1 _ _)
  rw [el, er]
  simp only [truncf_apply, shapeCast_self]

theorem pay2_apply (v0 : Vec Ideal S400x10000 .f32) (v3 : Vec Ideal S400x256 .f32) (n : Fin 10000) (d : Fin 256) :
    (k1_pay2 v0 v3 : S10000x256.Idx → EReal) (ix2 n d) = ∑ r : Fin 400, v0 (ix2 r n) * v3 (ix2 r d) := by
  unfold k1_pay2
  simp only [shapeCast_self]
  exact pay1_apply v0 v3 n d

theorem pay3_apply (v0 : Vec Ideal S400x10000 .f32) (v3 : Vec Ideal S400x256 .f32) (v16 : Vec Ideal S10000x256 .f32)
    (n : Fin 10000) (d : Fin 256) :
    (k1_pay3 v0 v3 v16 : S10000x256.Idx → EReal) (ix2 n d) = v16 (ix2 n d) + ∑ r : Fin 400, v0 (ix2 r n) * v3 (ix2 r d) := by
  unfold k1_pay3
  simp only [shapeCast_self, addf_apply]
  rw [pay1_apply]

theorem pay4_apply (v16 : Vec Ideal S10000x256 .f32) (j : S10000x256.Idx) :
    (k1_pay4 v16 : S10000x256.Idx → EReal) j = max (v16 j) 0 := by
  unfold k1_pay4
  simp only [truncf_apply, maximumf_apply, broadcast_apply]
  show max (v16 j) (Ideal.ofBits .f32 0x00000000#32) = _
  rw [Ideal.ofBits_zero_f32]

/-! ## The windows' blocks: block `k` of the two inputs holds rows `400·k …` of the arrays -/

variable (V : (c : Dev nD) → (b : Ref sig .tc) → Buf (Elt Ideal) ((c : Thread nD τ).loc b))

theorem idx0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)
theorem idx1 : ∀ t : Fin cfg1.N, win1_1.index t (0 : Fin 2) = t.val ∧ win1_1.index t (1 : Fin 2) = 0 :=
  (by decide +kernel : ∀ t : Fin grid1.N, win1_1.index t (0 : Fin 2) = t.val ∧ win1_1.index t (1 : Fin 2) = 0)

theorem iblk0_apply (c : Dev nD) (k : Fin 5) (t : Fin cfg1.N) (ht : t.val = k.val) (r : Fin 400) (n : Fin 10000) :
    (iblk V c 0 t : Vec Ideal S400x10000 .f32) (ix2 r n) = Cert.Spec.rd2 (V c main_v4) (Cert.Spec.row5 k r) n := by
  have hi := idx0 t
  unfold iblk Cert.Spec.rd2 Cert.Spec.row5
  rw [View.read_apply]
  show V c main_v4 _ = V c main_v4 _
  refine congrArg _ (funext fun a => Fin.ext ?_)
  match a with
  | ⟨0, _⟩ => show win1_0.index t 0 * 400 + 1 * r.val = 400 * k.val + r.val; rw [hi.1, ht]; omega
  | ⟨1, _⟩ => show win1_0.index t 1 * 10000 + 1 * n.val = n.val; rw [hi.2]; omega

theorem iblk1_apply (c : Dev nD) (k : Fin 5) (t : Fin cfg1.N) (ht : t.val = k.val) (r : Fin 400) (d : Fin 256) :
    (iblk V c 1 t : Vec Ideal S400x256 .f32) (ix2 r d) = Cert.Spec.rd2 (V c main_v5_1) (Cert.Spec.row5 k r) d := by
  have hi := idx1 t
  unfold iblk Cert.Spec.rd2 Cert.Spec.row5
  rw [View.read_apply]
  show V c main_v5_1 _ = V c main_v5_1 _
  refine congrArg _ (funext fun a => Fin.ext ?_)
  match a with
  | ⟨0, _⟩ => show win1_1.index t 0 * 400 + 1 * r.val = 400 * k.val + r.val; rw [hi.1, ht]; omega
  | ⟨1, _⟩ => show win1_1.index t 1 * 256 + 1 * d.val = d.val; rw [hi.2]; omega

/-! ## The accumulator after each point: the partial products added from the left -/

theorem pt_of_lt (k : Fin 5) : (pt k.val).val = k.val := Nat.mod_eq_of_lt k.isLt

theorem acc0_apply (c : Dev nD) (n : Fin 10000) (d : Fin 256) :
    (acc V c 0 : S10000x256.Idx → EReal) (ix2 n d)
      = Cert.Spec.part (Cert.Spec.rd2 (V c main_v4)) (Cert.Spec.rd2 (V c main_v5_1)) 0 n d := by
  rw [acc_zero, pay2_apply]
  unfold Cert.Spec.part
  refine Finset.sum_congr rfl fun r _ => ?_
  rw [iblk0_apply V c 0 (pt 0) (pt_of_lt 0), iblk1_apply V c 0 (pt 0) (pt_of_lt 0)]

theorem accS_apply (c : Dev nD) (k : ℕ) (hk : k + 1 < 5) (n : Fin 10000) (d : Fin 256) :
    (acc V c (k + 1) : S10000x256.Idx → EReal) (ix2 n d)
      = (acc V c k : S10000x256.Idx → EReal) (ix2 n d)
        + Cert.Spec.part (Cert.Spec.rd2 (V c main_v4)) (Cert.Spec.rd2 (V c main_v5_1)) ⟨k + 1, hk⟩ n d := by
  rw [acc_succ, pay3_apply]
  unfold Cert.Spec.part
  refine congrArg _ (Finset.sum_congr rfl fun r _ => ?_)
  rw [iblk0_apply V c ⟨k + 1, hk⟩ (pt (k + 1)) (pt_of_lt ⟨k + 1, hk⟩), iblk1_apply V c ⟨k + 1, hk⟩ (pt (k + 1)) (pt_of_lt ⟨k + 1, hk⟩)]

theorem acc4_apply (c : Dev nD) (n : Fin 10000) (d : Fin 256) :
    (acc V c 4 : S10000x256.Idx → EReal) (ix2 n d)
      = Cert.Spec.acc5 (Cert.Spec.rd2 (V c main_v4)) (Cert.Spec.rd2 (V c main_v5_1)) n d := by
  rw [accS_apply V c 3 (by decide), accS_apply V c 2 (by decide), accS_apply V c 1 (by decide), accS_apply V c 0 (by decide),
    acc0_apply]
  rfl

/-! ## From the one block to the array: the last point writes the whole output back -/

/-- What the output array ends holding: the rectified, rounded accumulator of the last point. -/
abbrev result (c : Dev nD) : Buf (Elt Ideal) ((c : Thread nD τ).loc main_v6) := k1_pay4 (acc V c 4)

/-- The one write-back, at the last point, writes it: the block at index (0, 0) of the array, of the array's own
    sizes, read through zero offsets is the array. -/
theorem flushed2_eq (c : Dev nD) (t : Fin cfg1.N) (hf : (cfg1.win 2).flush t = true) :
    (dat V c).flushed 2 t = ((cfg1.win 2).blk t).view.read (Elt Ideal) (result V c) := by
  have hN : cfg1.N = 5 := N5
  have h4 : t.val = 4 := by have := (flush1_2 t).mp hf; have := t.isLt; omega
  obtain rfl : t = t1_4 := Fin.ext h4
  show (cfg1.win 2).cut (grid1.coords t1_4) ((dat V c).after 2 t1_4) = _
  rw [after2]
  have hz' : (fun a => win1_2.index t1_4 a * main_v6.ty.shape.size a) = fun _ => 0 := funext fun a => by fin_cases a <;> decide
  exact (Memref.read_access_unit_zero (Elt Ideal) main_v6 hz' (fun a => by rw [congrFun hz' a]; simp) (result V c)).symm

/-- So the output array ends holding it: the last point's block covers the array. -/
theorem final2 (c : Dev nD) : (dat V c).arrAt 2 cfg1.N = result V c :=
  (dat V c).arrAt_eq_of_cover 2 (result V c) (flushed2_eq V c) fun i =>
    ⟨t1_4, (flush1_2 t1_4).mpr rfl, by
      show i ∈ ((View.whole main_v6).slice (win1_2.rect t1_4)).set
      rw [View.set_slice_whole, Rect.mem_set_unit]
      intro a
      have h0 : (i 0 : Nat) < 10000 := (i 0).isLt
      have h1 : (i 1 : Nat) < 256 := (i 1).isLt
      match a with
      | ⟨0, _⟩ => show win1_2.index t1_4 0 * win1_2.size 0 ≤ (i 0 : Nat) ∧ (i 0 : Nat) < win1_2.index t1_4 0 * win1_2.size 0 + win1_2.xsize (grid1.coords t1_4) 0
                  rw [show win1_2.index t1_4 0 * win1_2.size 0 = 0 from by decide +kernel, show win1_2.xsize (grid1.coords t1_4) 0 = 10000 from by decide +kernel]; omega
      | ⟨1, _⟩ => show win1_2.index t1_4 1 * win1_2.size 1 ≤ (i 1 : Nat) ∧ (i 1 : Nat) < win1_2.index t1_4 1 * win1_2.size 1 + win1_2.xsize (grid1.coords t1_4) 1
                  rw [show win1_2.index t1_4 1 * win1_2.size 1 = 0 from by decide +kernel, show win1_2.xsize (grid1.coords t1_4) 1 = 256 from by decide +kernel]; omega⟩

/-- The region's output at an entry: the rectifier of the five partial products of `HGᵀ` with `z`, added from the left. -/
theorem hgn_final (c : Dev nD) (n : Fin 10000) (d : Fin 256) :
    ((dat (F := Ideal) V c).arrAt 2 cfg1.N : S10000x256.Idx → EReal) (ValueIdx.ix2 n d)
      = max (Cert.Spec.acc5 (Cert.Spec.rd2 (V c main_v4)) (Cert.Spec.rd2 (V c main_v5_1)) n d) 0 := by
  rw [final2]
  unfold result
  rw [pay4_apply, acc4_apply]

end Cert.KernelIdeal.Reg1

end
-- ==== Proof.Reg2Pay.lean ====
import proofs.«172434_g28836410425910_retrytranche2_620_32_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

namespace Cert.KernelIdeal.Reg2

open Cert.KernelIdeal Cert.KernelIdeal.Gen
open Idealize.ShloMosaic Idealize.ShloMosaic.ValueIdx
open scoped BigOperators

/-! # The body's arithmetic over the extended reals, entry by entry

Each matrix product into a zero accumulator is the plain sum over the contracted coordinate; the changes of format
are the identity; the bias row is added to every row. -/

/-! ## The three products' index maps -/

theorem dGG_l0 (i : S200x256.Idx) (q : dot_S200x10000_S10000x256_S200x256_1_0_0_1_n_n.contr.Idx) : (dot_S200x10000_S10000x256_S200x256_1_0_0_1_n_n.lhsIdx i q 0).val = (i 0).val := by
  unfold DotDims.lhsIdx
  rw [dif_neg (show ¬(0 : Fin S200x10000.rank) ∈ dot_S200x10000_S10000x256_S200x256_1_0_0_1_n_n.lhsBatch by decide), dif_pos (show (0 : Fin S200x10000.rank) ∈ dot_S200x10000_S10000x256_S200x256_1_0_0_1_n_n.lhsNonContracting by decide)]
  rfl
theorem dGG_l1 (i : S200x256.Idx) (q : dot_S200x10000_S10000x256_S200x256_1_0_0_1_n_n.contr.Idx) : (dot_S200x10000_S10000x256_S200x256_1_0_0_1_n_n.lhsIdx i q 1).val = (q ⟨0, by decide⟩).val :=
  dot_S200x10000_S10000x256_S200x256_1_0_0_1_n_n.lhsIdx_val_of_single rfl i q
theorem dGG_r0 (i : S200x256.Idx) (q : dot_S200x10000_S10000x256_S200x256_1_0_0_1_n_n.contr.Idx) : (dot_S200x10000_S10000x256_S200x256_1_0_0_1_n_n.rhsIdx i q 0).val = (q ⟨0, by decide⟩).val :=
  dot_S200x10000_S10000x256_S200x256_1_0_0_1_n_n.rhsIdx_val_of_single rfl i q
theorem dGG_r1 (i : S200x256.Idx) (q : dot_S200x10000_S10000x256_S200x256_1_0_0_1_n_n.contr.Idx) : (dot_S200x10000_S10000x256_S200x256_1_0_0_1_n_n.rhsIdx i q 1).val = (i 1).val := by
  unfold DotDims.rhsIdx
  rw [dif_neg (show ¬(1 : Fin S10000x256.rank) ∈ dot_S200x10000_S10000x256_S200x256_1_0_0_1_n_n.rhsBatch by decide), dif_pos (show (1 : Fin S10000x256.rank) ∈ dot_S200x10000_S10000x256_S200x256_1_0_0_1_n_n.rhsNonContracting by decide)]
  rfl
/-- The product into the zero accumulator, read at an entry: the sum over the contracted coordinate. -/
theorem dGG_apply {φ₁ φ₂ : FTy} (lhs : FVec Ideal S200x10000 φ₁) (rhs : FVec Ideal S10000x256 φ₂) (r : Fin 200) (d : Fin 256) :
    matmul dot_S200x10000_S10000x256_S200x256_1_0_0_1_n_n none lhs rhs (constant S200x256 .f32 0x00000000#32) (ix2 r d) = ∑ k : Fin 10000, lhs (ix2 r k) * rhs (ix2 k d) := by
  show FloatOps.matmul dot_S200x10000_S10000x256_S200x256_1_0_0_1_n_n none lhs rhs (constant S200x256 .f32 0x00000000#32) (ix2 r d) = _
  rw [Ideal.matmul_constant_zero_apply, ← Equiv.sum_comp (ValueIdx.contrEquiv1 dot_S200x10000_S10000x256_S200x256_1_0_0_1_n_n 10000 rfl rfl).symm]
  refine Finset.sum_congr rfl fun k _ => ?_
  have hk := ValueIdx.contrEquiv1_symm_val dot_S200x10000_S10000x256_S200x256_1_0_0_1_n_n 10000 rfl rfl k
  have el : dot_S200x10000_S10000x256_S200x256_1_0_0_1_n_n.lhsIdx (ix2 r d) ((ValueIdx.contrEquiv1 dot_S200x10000_S10000x256_S200x256_1_0_0_1_n_n 10000 rfl rfl).symm k) = ix2 r k := funext fun a => Fin.ext (by
    match a with
    | ⟨0, _⟩ => exact dGG_l0 _ _
    | ⟨1, _⟩ => exact (dGG_l1 _ _).trans hk)
  have er : dot_S200x10000_S10000x256_S200x256_1_0_0_1_n_n.rhsIdx (ix2 r d) ((ValueIdx.contrEquiv1 dot_S200x10000_S10000x256_S200x256_1_0_0_1_n_n 10000 rfl rfl).symm k) = ix2 k d := funext fun a => Fin.ext (by
    match a with
    | ⟨0, _⟩ => exact (dGG_r0 _ _).trans hk
    | ⟨1, _⟩ => exact dGG_r1 _ _)
  rw [el, er]

theorem dW_l0 (i : S200x256.Idx) (q : dot_S200x256_S256x256_S200x256_1_0_0_1_n_n.contr.Idx) : (dot_S200x256_S256x256_S200x256_1_0_0_1_n_n.lhsIdx i q 0).val = (i 0).val := by
  unfold DotDims.lhsIdx
  rw [dif_neg (show ¬(0 : Fin S200x256.rank) ∈ dot_S200x256_S256x256_S200x256_1_0_0_1_n_n.lhsBatch by decide), dif_pos (show (0 : Fin S200x256.rank) ∈ dot_S200x256_S256x256_S200x256_1_0_0_1_n_n.lhsNonContracting by decide)]
  rfl
theorem dW_l1 (i : S200x256.Idx) (q : dot_S200x256_S256x256_S200x256_1_0_0_1_n_n.contr.Idx) : (dot_S200x256_S256x256_S200x256_1_0_0_1_n_n.lhsIdx i q 1).val = (q ⟨0, by decide⟩).val :=
  dot_S200x256_S256x256_S200x256_1_0_0_1_n_n.lhsIdx_val_of_single rfl i q
theorem dW_r0 (i : S200x256.Idx) (q : dot_S200x256_S256x256_S200x256_1_0_0_1_n_n.contr.Idx) : (dot_S200x256_S256x256_S200x256_1_0_0_1_n_n.rhsIdx i q 0).val = (q ⟨0, by decide⟩).val :=
  dot_S200x256_S256x256_S200x256_1_0_0_1_n_n.rhsIdx_val_of_single rfl i q
theorem dW_r1 (i : S200x256.Idx) (q : dot_S200x256_S256x256_S200x256_1_0_0_1_n_n.contr.Idx) : (dot_S200x256_S256x256_S200x256_1_0_0_1_n_n.rhsIdx i q 1).val = (i 1).val := by
  unfold DotDims.rhsIdx
  rw [dif_neg (show ¬(1 : Fin S256x256.rank) ∈ dot_S200x256_S256x256_S200x256_1_0_0_1_n_n.rhsBatch by decide), dif_pos (show (1 : Fin S256x256.rank) ∈ dot_S200x256_S256x256_S200x256_1_0_0_1_n_n.rhsNonContracting by decide)]
  rfl
/-- The product into the zero accumulator, read at an entry: the sum over the contracted coordinate. -/
theorem dW_apply {φ₁ φ₂ : FTy} (lhs : FVec Ideal S200x256 φ₁) (rhs : FVec Ideal S256x256 φ₂) (r : Fin 200) (d : Fin 256) :
    matmul dot_S200x256_S256x256_S200x256_1_0_0_1_n_n none lhs rhs (constant S200x256 .f32 0x00000000#32) (ix2 r d) = ∑ k : Fin 256, lhs (ix2 r k) * rhs (ix2 k d) := by
  show FloatOps.matmul dot_S200x256_S256x256_S200x256_1_0_0_1_n_n none lhs rhs (constant S200x256 .f32 0x00000000#32) (ix2 r d) = _
  rw [Ideal.matmul_constant_zero_apply, ← Equiv.sum_comp (ValueIdx.contrEquiv1 dot_S200x256_S256x256_S200x256_1_0_0_1_n_n 256 rfl rfl).symm]
  refine Finset.sum_congr rfl fun k _ => ?_
  have hk := ValueIdx.contrEquiv1_symm_val dot_S200x256_S256x256_S200x256_1_0_0_1_n_n 256 rfl rfl k
  have el : dot_S200x256_S256x256_S200x256_1_0_0_1_n_n.lhsIdx (ix2 r d) ((ValueIdx.contrEquiv1 dot_S200x256_S256x256_S200x256_1_0_0_1_n_n 256 rfl rfl).symm k) = ix2 r k := funext fun a => Fin.ext (by
    match a with
    | ⟨0, _⟩ => exact dW_l0 _ _
    | ⟨1, _⟩ => exact (dW_l1 _ _).trans hk)
  have er : dot_S200x256_S256x256_S200x256_1_0_0_1_n_n.rhsIdx (ix2 r d) ((ValueIdx.contrEquiv1 dot_S200x256_S256x256_S200x256_1_0_0_1_n_n 256 rfl rfl).symm k) = ix2 k d := funext fun a => Fin.ext (by
    match a with
    | ⟨0, _⟩ => exact (dW_r0 _ _).trans hk
    | ⟨1, _⟩ => exact dW_r1 _ _)
  rw [el, er]

theorem dLin_l0 (i : S10000x256.Idx) (q : dot_S10000x256_S256x256_S10000x256_1_0_0_1_n_n.contr.Idx) : (dot_S10000x256_S256x256_S10000x256_1_0_0_1_n_n.lhsIdx i q 0).val = (i 0).val := by
  unfold DotDims.lhsIdx
  rw [dif_neg (show ¬(0 : Fin S10000x256.rank) ∈ dot_S10000x256_S256x256_S10000x256_1_0_0_1_n_n.lhsBatch by decide), dif_pos (show (0 : Fin S10000x256.rank) ∈ dot_S10000x256_S256x256_S10000x256_1_0_0_1_n_n.lhsNonContracting by decide)]
  rfl
theorem dLin_l1 (i : S10000x256.Idx) (q : dot_S10000x256_S256x256_S10000x256_1_0_0_1_n_n.contr.Idx) : (dot_S10000x256_S256x256_S10000x256_1_0_0_1_n_n.lhsIdx i q 1).val = (q ⟨0, by decide⟩).val :=
  dot_S10000x256_S256x256_S10000x256_1_0_0_1_n_n.lhsIdx_val_of_single rfl i q
theorem dLin_r0 (i : S10000x256.Idx) (q : dot_S10000x256_S256x256_S10000x256_1_0_0_1_n_n.contr.Idx) : (dot_S10000x256_S256x256_S10000x256_1_0_0_1_n_n.rhsIdx i q 0).val = (q ⟨0, by decide⟩).val :=
  dot_S10000x256_S256x256_S10000x256_1_0_0_1_n_n.rhsIdx_val_of_single rfl i q
theorem dLin_r1 (i : S10000x256.Idx) (q : dot_S10000x256_S256x256_S10000x256_1_0_0_1_n_n.contr.Idx) : (dot_S10000x256_S256x256_S10000x256_1_0_0_1_n_n.rhsIdx i q 1).val = (i 1).val := by
  unfold DotDims.rhsIdx
  rw [dif_neg (show ¬(1 : Fin S256x256.rank) ∈ dot_S10000x256_S256x256_S10000x256_1_0_0_1_n_n.rhsBatch by decide), dif_pos (show (1 : Fin S256x256.rank) ∈ dot_S10000x256_S256x256_S10000x256_1_0_0_1_n_n.rhsNonContracting by decide)]
  rfl
/-- The product into the zero accumulator, read at an entry: the sum over the contracted coordinate. -/
theorem dLin_apply {φ₁ φ₂ : FTy} (lhs : FVec Ideal S10000x256 φ₁) (rhs : FVec Ideal S256x256 φ₂) (r : Fin 10000) (d : Fin 256) :
    matmul dot_S10000x256_S256x256_S10000x256_1_0_0_1_n_n none lhs rhs (constant S10000x256 .f32 0x00000000#32) (ix2 r d) = ∑ k : Fin 256, lhs (ix2 r k) * rhs (ix2 k d) := by
  show FloatOps.matmul dot_S10000x256_S256x256_S10000x256_1_0_0_1_n_n none lhs rhs (constant S10000x256 .f32 0x00000000#32) (ix2 r d) = _
  rw [Ideal.matmul_constant_zero_apply, ← Equiv.sum_comp (ValueIdx.contrEquiv1 dot_S10000x256_S256x256_S10000x256_1_0_0_1_n_n 256 rfl rfl).symm]
  refine Finset.sum_congr rfl fun k _ => ?_
  have hk := ValueIdx.contrEquiv1_symm_val dot_S10000x256_S256x256_S10000x256_1_0_0_1_n_n 256 rfl rfl k
  have el : dot_S10000x256_S256x256_S10000x256_1_0_0_1_n_n.lhsIdx (ix2 r d) ((ValueIdx.contrEquiv1 dot_S10000x256_S256x256_S10000x256_1_0_0_1_n_n 256 rfl rfl).symm k) = ix2 r k := funext fun a => Fin.ext (by
    match a with
    | ⟨0, _⟩ => exact dLin_l0 _ _
    | ⟨1, _⟩ => exact (dLin_l1 _ _).trans hk)
  have er : dot_S10000x256_S256x256_S10000x256_1_0_0_1_n_n.rhsIdx (ix2 r d) ((ValueIdx.contrEquiv1 dot_S10000x256_S256x256_S10000x256_1_0_0_1_n_n 256 rfl rfl).symm k) = ix2 k d := funext fun a => Fin.ext (by
    match a with
    | ⟨0, _⟩ => exact (dLin_r0 _ _).trans hk
    | ⟨1, _⟩ => exact dLin_r1 _ _)
  rw [el, er]

/-! ## The bias row on every row -/

theorem biasRow_apply {M : ℕ} (b : (⟨2, ![1, 256]⟩ : Shape).Idx → EReal) (h : (⟨2, ![1, 256]⟩ : Shape).Broadcasts ⟨2, ![M, 256]⟩)
    (r : Fin M) (d : Fin 256) : broadcastTo (⟨2, ![M, 256]⟩ : Shape) b h (ix2 r d) = b (ix2 0 d) :=
  broadcastTo_apply b h (ix2 r d) (ix2 0 d) (fun a => match a with
    | ⟨0, _⟩ => by show (0 : ℕ) = if (1 : ℕ) = 1 then 0 else _; rw [if_pos rfl]
    | ⟨1, _⟩ => by show d.val = if (256 : ℕ) = 1 then 0 else d.val; rw [if_neg (by decide)])

/-! ## The payloads -/

/-- The scratch's payload: the dense map of the features. -/
theorem pay2_apply (x : Vec Ideal S10000x256 .f32) (W : Vec Ideal S256x256 .f32) (b : Vec Ideal S1x256 .f32) (n : Fin 10000) (d : Fin 256) :
    k2_pay2 x W b (ix2 n d) = (∑ k : Fin 256, x (ix2 n k) * W (ix2 k d)) + b (ix2 0 d) := by
  unfold k2_pay2
  simp only [shapeCast_self, ValueIdx.truncf_apply, ValueIdx.addf_apply, dLin_apply, biasRow_apply]

/-- A half block's payload: the features' rows through the first band, the rectified adjacency product through the
    second, the hypergraph features' rows through the third, plus the bias. -/
theorem pay1_apply (a : Vec Ideal S200x10000 .f32) (g : Vec Ideal S10000x256 .bf16) (xs : Vec Ideal S200x256 .f32)
    (w0 w1 : Vec Ideal S256x256 .f32) (h : Vec Ideal S200x256 .bf16) (w2 : Vec Ideal S256x256 .f32) (b : Vec Ideal S1x256 .f32)
    (r : Fin 200) (d : Fin 256) :
    k2_pay1 a g xs w0 w1 h w2 b (ix2 r d) = (∑ k : Fin 256, xs (ix2 r k) * w0 (ix2 k d)) + (∑ k : Fin 256, max (∑ j : Fin 10000, a (ix2 r j) * g (ix2 j k)) 0 * w1 (ix2 k d))
      + (∑ k : Fin 256, h (ix2 r k) * w2 (ix2 k d)) + b (ix2 0 d) := by
  unfold k2_pay1
  simp only [shapeCast_self, ValueIdx.truncf_apply, ValueIdx.addf_apply, ValueIdx.maximumf_apply, ValueIdx.broadcast_apply,
    dGG_apply, dW_apply, biasRow_apply]
  rw [show (FloatOps.ofBits FTy.f32 0x00000000#32 : Ideal .f32) = 0 from Ideal.ofBits_zero_f32]

theorem pay3_apply (a : Vec Ideal S200x10000 .f32) (g : Vec Ideal S10000x256 .bf16) (xs : Vec Ideal S200x256 .f32)
    (w0 w1 : Vec Ideal S256x256 .f32) (h : Vec Ideal S200x256 .bf16) (w2 : Vec Ideal S256x256 .f32) (b : Vec Ideal S1x256 .f32)
    (r : Fin 200) (d : Fin 256) :
    k2_pay3 a g xs w0 w1 h w2 b (ix2 r d) = (∑ k : Fin 256, xs (ix2 r k) * w0 (ix2 k d)) + (∑ k : Fin 256, max (∑ j : Fin 10000, a (ix2 r j) * g (ix2 j k)) 0 * w1 (ix2 k d))
      + (∑ k : Fin 256, h (ix2 r k) * w2 (ix2 k d)) + b (ix2 0 d) := by
  unfold k2_pay3
  simp only [shapeCast_self, ValueIdx.truncf_apply, ValueIdx.addf_apply, ValueIdx.maximumf_apply, ValueIdx.broadcast_apply,
    dGG_apply, dW_apply, biasRow_apply]
  rw [show (FloatOps.ofBits FTy.f32 0x00000000#32 : Ideal .f32) = 0 from Ideal.ofBits_zero_f32]

/-! ## The payloads over named entries

The same, with each operand's entries named by whatever the caller knows them to be. -/

theorem pay2_of (x : Vec Ideal S10000x256 .f32) (W : Vec Ideal S256x256 .f32) (b : Vec Ideal S1x256 .f32) (n : Fin 10000) (d : Fin 256)
    (X Wc : Fin 256 → EReal) (B : EReal) (hx : ∀ k, x (ix2 n k) = X k) (hW : ∀ k, W (ix2 k d) = Wc k) (hb : b (ix2 0 d) = B) :
    k2_pay2 x W b (ix2 n d) = (∑ k : Fin 256, X k * Wc k) + B := by
  rw [pay2_apply]; simp only [hx, hW, hb]

theorem pay1_of (a : Vec Ideal S200x10000 .f32) (g : Vec Ideal S10000x256 .bf16) (xs : Vec Ideal S200x256 .f32)
    (w0 w1 : Vec Ideal S256x256 .f32) (h : Vec Ideal S200x256 .bf16) (w2 : Vec Ideal S256x256 .f32) (b : Vec Ideal S1x256 .f32)
    (r : Fin 200) (d : Fin 256)
    (A : Fin 10000 → EReal) (Gk : Fin 10000 → Fin 256 → EReal) (XS H W0 W1 W2 : Fin 256 → EReal) (B : EReal)
    (ha : ∀ j, a (ix2 r j) = A j) (hg : ∀ j k, g (ix2 j k) = Gk j k) (hxs : ∀ k, xs (ix2 r k) = XS k)
    (hw0 : ∀ k, w0 (ix2 k d) = W0 k) (hw1 : ∀ k, w1 (ix2 k d) = W1 k) (hh : ∀ k, h (ix2 r k) = H k)
    (hw2 : ∀ k, w2 (ix2 k d) = W2 k) (hb : b (ix2 0 d) = B) :
    k2_pay1 a g xs w0 w1 h w2 b (ix2 r d) = (∑ k : Fin 256, XS k * W0 k) + (∑ k : Fin 256, max (∑ j : Fin 10000, A j * Gk j k) 0 * W1 k) + (∑ k : Fin 256, H k * W2 k) + B := by
  rw [pay1_apply]; simp only [ha, hg, hxs, hw0, hw1, hh, hw2, hb]

theorem pay3_of (a : Vec Ideal S200x10000 .f32) (g : Vec Ideal S10000x256 .bf16) (xs : Vec Ideal S200x256 .f32)
    (w0 w1 : Vec Ideal S256x256 .f32) (h : Vec Ideal S200x256 .bf16) (w2 : Vec Ideal S256x256 .f32) (b : Vec Ideal S1x256 .f32)
    (r : Fin 200) (d : Fin 256)
    (A : Fin 10000 → EReal) (Gk : Fin 10000 → Fin 256 → EReal) (XS H W0 W1 W2 : Fin 256 → EReal) (B : EReal)
    (ha : ∀ j, a (ix2 r j) = A j) (hg : ∀ j k, g (ix2 j k) = Gk j k) (hxs : ∀ k, xs (ix2 r k) = XS k)
    (hw0 : ∀ k, w0 (ix2 k d) = W0 k) (hw1 : ∀ k, w1 (ix2 k d) = W1 k) (hh : ∀ k, h (ix2 r k) = H k)
    (hw2 : ∀ k, w2 (ix2 k d) = W2 k) (hb : b (ix2 0 d) = B) :
    k2_pay3 a g xs w0 w1 h w2 b (ix2 r d) = (∑ k : Fin 256, XS k * W0 k) + (∑ k : Fin 256, max (∑ j : Fin 10000, A j * Gk j k) 0 * W1 k) + (∑ k : Fin 256, H k * W2 k) + B := by
  rw [pay3_apply]; simp only [ha, hg, hxs, hw0, hw1, hh, hw2, hb]

end Cert.KernelIdeal.Reg2

end
-- ==== Proof.Reg2Val.lean ====
import proofs.«172434_g28836410425910_retrytranche2_620_32_alg».proof.Proof.Reg2
import proofs.«172434_g28836410425910_retrytranche2_620_32_alg».proof.Proof.Reg2Pay
import proofs.«172434_g28836410425910_retrytranche2_620_32_alg».proof.Proof.Spec
import Idealize.ShloMosaic.Lib.Pipeline.Value
import Idealize.ShloMosaic.Lib.ValueIdx

set_option maxRecDepth 16384

noncomputable section

namespace Cert.KernelIdeal.Reg2

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

/-! # Region 2's output array, entry by entry

Row `n` of the output lies in block `t = n / 400`, in its first half (the adjacency's rows `400 t … 400 t + 199`, the
first window's block) or its second (rows `400 t + 200 …`, the second window's); each half is the three band products
of the row plus the bias, the middle one through the rectified adjacency product with the scratch, which holds the
dense map of the features from the first point on. -/

-- the TensorCore's buffer contents when the region is entered
variable (V : (c : Dev nD) → (b : Ref sig .tc) → Buf (Elt Ideal) ((c : Thread nD τ).loc b))

/-! ## The index maps, decided over the grid -/

theorem idx_facts : ∀ t : Fin cfg2.N,
    win2_0.index t (0 : Fin 2) = 2 * t.val ∧ win2_0.index t (1 : Fin 2) = 0
    ∧ win2_1.index t (0 : Fin 2) = 2 * t.val + 1 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0 :=
  (by decide +kernel : ∀ t : Fin grid2.N, _)

/-- The rows of the features a half block reads start at `400 t` and `400 t + 200`. -/
theorem off_facts : ∀ t : Fin cfg2.N,
    k2_off1 (grid2.coords t) 0#32 (0 : Fin 2) = 400 * t.val ∧ k2_off1 (grid2.coords t) 0#32 (1 : Fin 2) = 0
    ∧ k2_off1 (grid2.coords t) 200#32 (0 : Fin 2) = 400 * t.val + 200 ∧ k2_off1 (grid2.coords t) 200#32 (1 : Fin 2) = 0 :=
  (by decide +kernel : ∀ t : Fin grid2.N, _)

theorem lt25 (t : Fin cfg2.N) : t.val < 25 := lt_of_lt_of_eq t.isLt N_2

/-- Row `400 t + o + r` of a 10000-row array (`o = 0` or `200`: the half). -/
def row (t : Fin cfg2.N) (o : ℕ) (ho : o ≤ 200) (r : Fin 200) : Fin 10000 :=
  ⟨400 * t.val + o + r.val, by have := lt25 t; have := r.isLt; omega⟩

/-! ## The blocks and the body's loads, read at an entry -/
theorem ld_gg0 (c : Dev nD) (t : Fin cfg2.N) (r : Fin 200) (j : Fin 10000) :
    View.ld (iblk V c 0 t : Vec Ideal S200x10000 .f32) rGG (ix2 r j) = Spec.rd2 (V c main_arg1) (row t 0 (by omega) r) j := by
  obtain ⟨e00, e01, e10, e11, e20, e21, e30, e31, e40, e41, e50, e51, e60, e61, e70, e71, e80, e81⟩ := idx_facts t
  obtain ⟨o00, o01, o10, o11⟩ := off_facts t
  have ht := lt25 t
  unfold iblk View.ld Spec.rd2 row
  rw [View.read_apply]
  show V c main_arg1 _ = V c main_arg1 _
  congr 1
  funext a; apply Fin.ext
  match a with
  | ⟨0, _⟩ =>
    show win2_0.index t (0 : Fin 2) * 200 + 1 * (0 + 1 * r.val) = 400 * t.val + 0 + r.val
    omega
  | ⟨1, _⟩ =>
    show win2_0.index t (1 : Fin 2) * 10000 + 1 * (0 + 1 * j.val) = j.val
    omega

theorem ld_gg1 (c : Dev nD) (t : Fin cfg2.N) (r : Fin 200) (j : Fin 10000) :
    View.ld (iblk V c 1 t : Vec Ideal S200x10000 .f32) rGG (ix2 r j) = Spec.rd2 (V c main_arg1) (row t 200 (by omega) r) j := by
  obtain ⟨e00, e01, e10, e11, e20, e21, e30, e31, e40, e41, e50, e51, e60, e61, e70, e71, e80, e81⟩ := idx_facts t
  obtain ⟨o00, o01, o10, o11⟩ := off_facts t
  have ht := lt25 t
  unfold iblk View.ld Spec.rd2 row
  rw [View.read_apply]
  show V c main_arg1 _ = V c main_arg1 _
  congr 1
  funext a; apply Fin.ext
  match a with
  | ⟨0, _⟩ =>
    show win2_1.index t (0 : Fin 2) * 200 + 1 * (0 + 1 * r.val) = 400 * t.val + 200 + r.val
    omega
  | ⟨1, _⟩ =>
    show win2_1.index t (1 : Fin 2) * 10000 + 1 * (0 + 1 * j.val) = j.val
    omega

theorem ld_x0 (c : Dev nD) (t : Fin cfg2.N) (r : Fin 200) (k : Fin 256) :
    View.ld (iblk V c 2 t : Vec Ideal S10000x256 .f32) (rX0 (grid2.coords t)) (ix2 r k) = Spec.rd2 (V c main_arg0) (row t 0 (by omega) r) k := by
  obtain ⟨e00, e01, e10, e11, e20, e21, e30, e31, e40, e41, e50, e51, e60, e61, e70, e71, e80, e81⟩ := idx_facts t
  obtain ⟨o00, o01, o10, o11⟩ := off_facts t
  have ht := lt25 t
  unfold iblk View.ld Spec.rd2 row
  rw [View.read_apply]
  show V c main_arg0 _ = V c main_arg0 _
  congr 1
  funext a; apply Fin.ext
  match a with
  | ⟨0, _⟩ =>
    show win2_2.index t (0 : Fin 2) * 10000 + 1 * (k2_off1 (grid2.coords t) 0#32 (0 : Fin 2) + 1 * r.val) = 400 * t.val + 0 + r.val
    omega
  | ⟨1, _⟩ =>
    show win2_2.index t (1 : Fin 2) * 256 + 1 * (k2_off1 (grid2.coords t) 0#32 (1 : Fin 2) + 1 * k.val) = k.val
    omega

theorem ld_x1 (c : Dev nD) (t : Fin cfg2.N) (r : Fin 200) (k : Fin 256) :
    View.ld (iblk V c 2 t : Vec Ideal S10000x256 .f32) (rX1 (grid2.coords t)) (ix2 r k) = Spec.rd2 (V c main_arg0) (row t 200 (by omega) r) k := by
  obtain ⟨e00, e01, e10, e11, e20, e21, e30, e31, e40, e41, e50, e51, e60, e61, e70, e71, e80, e81⟩ := idx_facts t
  obtain ⟨o00, o01, o10, o11⟩ := off_facts t
  have ht := lt25 t
  unfold iblk View.ld Spec.rd2 row
  rw [View.read_apply]
  show V c main_arg0 _ = V c main_arg0 _
  congr 1
  funext a; apply Fin.ext
  match a with
  | ⟨0, _⟩ =>
    show win2_2.index t (0 : Fin 2) * 10000 + 1 * (k2_off1 (grid2.coords t) 200#32 (0 : Fin 2) + 1 * r.val) = 400 * t.val + 200 + r.val
    omega
  | ⟨1, _⟩ =>
    show win2_2.index t (1 : Fin 2) * 256 + 1 * (k2_off1 (grid2.coords t) 200#32 (1 : Fin 2) + 1 * k.val) = k.val
    omega

theorem ld_xS (c : Dev nD) (t : Fin cfg2.N) (n : Fin 10000) (k : Fin 256) :
    View.ld (iblk V c 2 t : Vec Ideal S10000x256 .f32) rS (ix2 n k) = Spec.rd2 (V c main_arg0) n k := by
  obtain ⟨e00, e01, e10, e11, e20, e21, e30, e31, e40, e41, e50, e51, e60, e61, e70, e71, e80, e81⟩ := idx_facts t
  obtain ⟨o00, o01, o10, o11⟩ := off_facts t
  have ht := lt25 t
  unfold iblk View.ld Spec.rd2
  rw [View.read_apply]
  show V c main_arg0 _ = V c main_arg0 _
  congr 1
  funext a; apply Fin.ext
  match a with
  | ⟨0, _⟩ =>
    show win2_2.index t (0 : Fin 2) * 10000 + 1 * (0 + 1 * n.val) = n.val
    omega
  | ⟨1, _⟩ =>
    show win2_2.index t (1 : Fin 2) * 256 + 1 * (0 + 1 * k.val) = k.val
    omega

theorem ld_wg (c : Dev nD) (t : Fin cfg2.N) (k : Fin 256) (d : Fin 256) :
    View.ld (iblk V c 4 t : Vec Ideal S256x256 .f32) rWg (ix2 k d) = Spec.rd2 (V c main_arg4) k d := by
  obtain ⟨e00, e01, e10, e11, e20, e21, e30, e31, e40, e41, e50, e51, e60, e61, e70, e71, e80, e81⟩ := idx_facts t
  obtain ⟨o00, o01, o10, o11⟩ := off_facts t
  have ht := lt25 t
  unfold iblk View.ld Spec.rd2
  rw [View.read_apply]
  show V c main_arg4 _ = V c main_arg4 _
  congr 1
  funext a; apply Fin.ext
  match a with
  | ⟨0, _⟩ =>
    show win2_4.index t (0 : Fin 2) * 256 + 1 * (0 + 1 * k.val) = k.val
    omega
  | ⟨1, _⟩ =>
    show win2_4.index t (1 : Fin 2) * 256 + 1 * (0 + 1 * d.val) = d.val
    omega

theorem ld_bg (c : Dev nD) (t : Fin cfg2.N) (d : Fin 256) :
    View.ld (iblk V c 5 t : Vec Ideal S1x256 .f32) rRow (ix2 0 d) = Spec.rdRow (V c main_v0) d := by
  obtain ⟨e00, e01, e10, e11, e20, e21, e30, e31, e40, e41, e50, e51, e60, e61, e70, e71, e80, e81⟩ := idx_facts t
  obtain ⟨o00, o01, o10, o11⟩ := off_facts t
  have ht := lt25 t
  unfold iblk View.ld Spec.rdRow
  rw [View.read_apply]
  show V c main_v0 _ = V c main_v0 _
  congr 1
  funext a; apply Fin.ext
  match a with
  | ⟨0, _⟩ =>
    show win2_5.index t (0 : Fin 2) * 1 + 1 * (0 + 1 * 0) = 0
    omega
  | ⟨1, _⟩ =>
    show win2_5.index t (1 : Fin 2) * 256 + 1 * (0 + 1 * d.val) = d.val
    omega

theorem ld_h0 (c : Dev nD) (t : Fin cfg2.N) (r : Fin 200) (k : Fin 256) :
    View.ld (iblk V c 3 t : Vec Ideal S400x256 .bf16) rA (ix2 r k) = Spec.rd2 (V c main_v6) (row t 0 (by omega) r) k := by
  obtain ⟨e00, e01, e10, e11, e20, e21, e30, e31, e40, e41, e50, e51, e60, e61, e70, e71, e80, e81⟩ := idx_facts t
  obtain ⟨o00, o01, o10, o11⟩ := off_facts t
  have ht := lt25 t
  unfold iblk View.ld Spec.rd2 row
  rw [View.read_apply]
  show V c main_v6 _ = V c main_v6 _
  congr 1
  funext a; apply Fin.ext
  match a with
  | ⟨0, _⟩ =>
    show win2_3.index t (0 : Fin 2) * 400 + 1 * (0 + 1 * r.val) = 400 * t.val + 0 + r.val
    omega
  | ⟨1, _⟩ =>
    show win2_3.index t (1 : Fin 2) * 256 + 1 * (0 + 1 * k.val) = k.val
    omega

theorem ld_h1 (c : Dev nD) (t : Fin cfg2.N) (r : Fin 200) (k : Fin 256) :
    View.ld (iblk V c 3 t : Vec Ideal S400x256 .bf16) rB (ix2 r k) = Spec.rd2 (V c main_v6) (row t 200 (by omega) r) k := by
  obtain ⟨e00, e01, e10, e11, e20, e21, e30, e31, e40, e41, e50, e51, e60, e61, e70, e71, e80, e81⟩ := idx_facts t
  obtain ⟨o00, o01, o10, o11⟩ := off_facts t
  have ht := lt25 t
  unfold iblk View.ld Spec.rd2 row
  rw [View.read_apply]
  show V c main_v6 _ = V c main_v6 _
  congr 1
  funext a; apply Fin.ext
  match a with
  | ⟨0, _⟩ =>
    show win2_3.index t (0 : Fin 2) * 400 + 1 * (200 + 1 * r.val) = 400 * t.val + 200 + r.val
    omega
  | ⟨1, _⟩ =>
    show win2_3.index t (1 : Fin 2) * 256 + 1 * (0 + 1 * k.val) = k.val
    omega

theorem ld_wm0 (c : Dev nD) (t : Fin cfg2.N) (k : Fin 256) (d : Fin 256) :
    View.ld (iblk V c 6 t : Vec Ideal S768x256 .f32) rW0 (ix2 k d) = Spec.rd2 (V c main_arg10) (⟨0 + k.val, by have := k.isLt; omega⟩ : Fin 768) d := by
  obtain ⟨e00, e01, e10, e11, e20, e21, e30, e31, e40, e41, e50, e51, e60, e61, e70, e71, e80, e81⟩ := idx_facts t
  obtain ⟨o00, o01, o10, o11⟩ := off_facts t
  have ht := lt25 t
  unfold iblk View.ld Spec.rd2
  rw [View.read_apply]
  show V c main_arg10 _ = V c main_arg10 _
  congr 1
  funext a; apply Fin.ext
  match a with
  | ⟨0, _⟩ =>
    show win2_6.index t (0 : Fin 2) * 768 + 1 * (0 + 1 * k.val) = 0 + k.val
    omega
  | ⟨1, _⟩ =>
    show win2_6.index t (1 : Fin 2) * 256 + 1 * (0 + 1 * d.val) = d.val
    omega

theorem ld_wm1 (c : Dev nD) (t : Fin cfg2.N) (k : Fin 256) (d : Fin 256) :
    View.ld (iblk V c 6 t : Vec Ideal S768x256 .f32) rW1 (ix2 k d) = Spec.rd2 (V c main_arg10) (⟨256 + k.val, by have := k.isLt; omega⟩ : Fin 768) d := by
  obtain ⟨e00, e01, e10, e11, e20, e21, e30, e31, e40, e41, e50, e51, e60, e61, e70, e71, e80, e81⟩ := idx_facts t
  obtain ⟨o00, o01, o10, o11⟩ := off_facts t
  have ht := lt25 t
  unfold iblk View.ld Spec.rd2
  rw [View.read_apply]
  show V c main_arg10 _ = V c main_arg10 _
  congr 1
  funext a; apply Fin.ext
  match a with
  | ⟨0, _⟩ =>
    show win2_6.index t (0 : Fin 2) * 768 + 1 * (256 + 1 * k.val) = 256 + k.val
    omega
  | ⟨1, _⟩ =>
    show win2_6.index t (1 : Fin 2) * 256 + 1 * (0 + 1 * d.val) = d.val
    omega

theorem ld_wm2 (c : Dev nD) (t : Fin cfg2.N) (k : Fin 256) (d : Fin 256) :
    View.ld (iblk V c 6 t : Vec Ideal S768x256 .f32) rW2 (ix2 k d) = Spec.rd2 (V c main_arg10) (⟨512 + k.val, by have := k.isLt; omega⟩ : Fin 768) d := by
  obtain ⟨e00, e01, e10, e11, e20, e21, e30, e31, e40, e41, e50, e51, e60, e61, e70, e71, e80, e81⟩ := idx_facts t
  obtain ⟨o00, o01, o10, o11⟩ := off_facts t
  have ht := lt25 t
  unfold iblk View.ld Spec.rd2
  rw [View.read_apply]
  show V c main_arg10 _ = V c main_arg10 _
  congr 1
  funext a; apply Fin.ext
  match a with
  | ⟨0, _⟩ =>
    show win2_6.index t (0 : Fin 2) * 768 + 1 * (512 + 1 * k.val) = 512 + k.val
    omega
  | ⟨1, _⟩ =>
    show win2_6.index t (1 : Fin 2) * 256 + 1 * (0 + 1 * d.val) = d.val
    omega

theorem ld_bm (c : Dev nD) (t : Fin cfg2.N) (d : Fin 256) :
    View.ld (iblk V c 7 t : Vec Ideal S1x256 .f32) rRow (ix2 0 d) = Spec.rdRow (V c main_v3) d := by
  obtain ⟨e00, e01, e10, e11, e20, e21, e30, e31, e40, e41, e50, e51, e60, e61, e70, e71, e80, e81⟩ := idx_facts t
  obtain ⟨o00, o01, o10, o11⟩ := off_facts t
  have ht := lt25 t
  unfold iblk View.ld Spec.rdRow
  rw [View.read_apply]
  show V c main_v3 _ = V c main_v3 _
  congr 1
  funext a; apply Fin.ext
  match a with
  | ⟨0, _⟩ =>
    show win2_7.index t (0 : Fin 2) * 1 + 1 * (0 + 1 * 0) = 0
    omega
  | ⟨1, _⟩ =>
    show win2_7.index t (1 : Fin 2) * 256 + 1 * (0 + 1 * d.val) = d.val
    omega

/-! ## The arrays as functions of their coordinates, and the layer's value -/

abbrev X (c : Dev nD) : Fin 10000 → Fin 256 → EReal := Spec.rd2 (V c main_arg0)
abbrev GGm (c : Dev nD) : Fin 10000 → Fin 10000 → EReal := Spec.rd2 (V c main_arg1)
abbrev Wg (c : Dev nD) : Fin 256 → Fin 256 → EReal := Spec.rd2 (V c main_arg4)
abbrev bg (c : Dev nD) : Fin 256 → EReal := Spec.rdRow (V c main_v0)
abbrev Hgn (c : Dev nD) : Fin 10000 → Fin 256 → EReal := Spec.rd2 (V c main_v6)
abbrev Wm (c : Dev nD) : Fin 768 → Fin 256 → EReal := Spec.rd2 (V c main_arg10)
abbrev bm (c : Dev nD) : Fin 256 → EReal := Spec.rdRow (V c main_v3)
/-- The dense map of the features. -/
abbrev Lin (c : Dev nD) : Fin 10000 → Fin 256 → EReal := Spec.lin (X V c) (Wg V c) (bg V c)
/-- The rectified adjacency product. -/
abbrev Gnn (c : Dev nD) : Fin 10000 → Fin 256 → EReal := Spec.relu (Spec.mm (GGm V c) (Lin V c))
/-- The fused output. -/
abbrev Fused (c : Dev nD) : Fin 10000 → Fin 256 → EReal := Spec.fused3 (X V c) (Gnn V c) (Hgn V c) (Wm V c) (bm V c)

theorem hz : (![0, 0] : Fin 2 → ℕ) = fun _ => 0 := funext fun a => by fin_cases a <;> rfl

/-! ## The scratch holds the dense map of the features -/

theorem scratch_apply (c : Dev nD) (j : Fin 10000) (k : Fin 256) : View.ld (G V c) rS (ix2 j k) = Lin V c j k := by
  rw [View.ld_unit_zero hz]
  unfold G G0
  rw [View.canon_unit_zero hz]
  exact pay2_of _ _ _ j k (fun k' => X V c j k') (fun k' => Wg V c k' k) (bg V c k)
    (fun k' => ld_xS V c t0 j k') (fun k' => ld_wg V c t0 k' k) (ld_bg V c t0 k)

/-! ## A block of the output -/

theorem blk_row_lt (t : Fin cfg2.N) (y : S400x256.Idx) : 400 * t.val + (y 0).val < 10000 := by
  have := lt25 t; have : (y 0).val < 400 := (y 0).isLt; omega

/-- Block `t` of the fused output, as a function of the block's own coordinates. -/
def blkFun (c : Dev nD) (t : Fin cfg2.N) : S400x256.Idx → EReal :=
  fun y => Fused V c ⟨400 * t.val + (y 0).val, blk_row_lt t y⟩ (y 1)

theorem blkFun_eq (c : Dev nD) (t : Fin cfg2.N) (y : S400x256.Idx) (n : Fin 10000) (d : Fin 256)
    (h0 : n.val = 400 * t.val + (y 0).val) (h1 : d.val = (y 1).val) : blkFun V c t y = Fused V c n d := by
  unfold blkFun
  have hn : (⟨400 * t.val + (y 0).val, blk_row_lt t y⟩ : Fin 10000) = n := Fin.ext h0.symm
  have hd : (y 1 : Fin 256) = d := Fin.ext h1.symm
  rw [hn, hd]

/-- What the body leaves in the output's staging buffer at point `t` is block `t` of the fused output. -/
theorem block_apply (c : Dev nD) (t : Fin cfg2.N) (y : S400x256.Idx) :
    out8 (grid2.coords t) (iblk V c 0 t) (iblk V c 1 t) (G V c) (iblk V c 2 t) (iblk V c 3 t) (iblk V c 6 t) (iblk V c 7 t) y
      = blkFun V c t y := by
  unfold out8
  refine View.canon_apply_of_pieces (Val := Elt Ideal) (S := S400x256) (e := .f32) (blkFun V c t) _ (List.forall_mem_cons.mpr ⟨?_, List.forall_mem_cons.mpr ⟨?_, fun _ h => absurd h List.not_mem_nil⟩⟩) y (cover8 _ _ y)
  · intro x
    obtain ⟨r, d, rfl⟩ : ∃ (r : Fin 200) (d : Fin 256), x = ix2 r d := ⟨x 0, x 1, eq_ix2 x⟩
    rw [blkFun_eq V c t _ (row t 200 (by omega) r) d (by show 400 * t.val + 200 + r.val = 400 * t.val + (200 + 1 * r.val); omega)
      (by show d.val = 0 + 1 * d.val; omega)]
    exact pay1_of _ _ _ _ _ _ _ _ r d (fun j => GGm V c (row t 200 (by omega) r) j) (fun j k => Lin V c j k)
      (fun k => X V c (row t 200 (by omega) r) k) (fun k => Hgn V c (row t 200 (by omega) r) k)
      (fun k => Spec.band (Wm V c) 0 (by omega) k d) (fun k => Spec.band (Wm V c) 256 (by omega) k d)
      (fun k => Spec.band (Wm V c) 512 (by omega) k d) (bm V c d)
      (ld_gg1 V c t r) (scratch_apply V c) (ld_x1 V c t r) (fun k => ld_wm0 V c t k d) (fun k => ld_wm1 V c t k d)
      (ld_h1 V c t r) (fun k => ld_wm2 V c t k d) (ld_bm V c t d)
  · intro x
    obtain ⟨r, d, rfl⟩ : ∃ (r : Fin 200) (d : Fin 256), x = ix2 r d := ⟨x 0, x 1, eq_ix2 x⟩
    rw [blkFun_eq V c t _ (row t 0 (by omega) r) d (by show 400 * t.val + 0 + r.val = 400 * t.val + (0 + 1 * r.val); omega)
      (by show d.val = 0 + 1 * d.val; omega)]
    exact pay3_of _ _ _ _ _ _ _ _ r d (fun j => GGm V c (row t 0 (by omega) r) j) (fun j k => Lin V c j k)
      (fun k => X V c (row t 0 (by omega) r) k) (fun k => Hgn V c (row t 0 (by omega) r) k)
      (fun k => Spec.band (Wm V c) 0 (by omega) k d) (fun k => Spec.band (Wm V c) 256 (by omega) k d)
      (fun k => Spec.band (Wm V c) 512 (by omega) k d) (bm V c d)
      (ld_gg0 V c t r) (scratch_apply V c) (ld_x0 V c t r) (fun k => ld_wm0 V c t k d) (fun k => ld_wm1 V c t k d)
      (ld_h0 V c t r) (fun k => ld_wm2 V c t k d) (ld_bm V c t d)

/-! ## From the blocks to the array -/

/-- The fused output as one function of the array's index. -/
abbrev Gfin (c : Dev nD) : S10000x256.Idx → EReal := fun i => Fused V c (i 0) (i 1)

/-- What point `t` writes back is block `t` of the fused output. -/
theorem flushed_eq (c : Dev nD) (t : Fin cfg2.N) :
    (dat (F := Ideal) V c).flushed 8 t = ((cfg2.win 8).blk t).view.read (Elt Ideal) (Gfin V c) := by
  show (cfg2.win 8).cut (grid2.coords t) ((dat (F := Ideal) V c).after 8 t) = _
  rw [after_8]
  funext y
  rw [View.read_apply]
  obtain ⟨e00, e01, e10, e11, e20, e21, e30, e31, e40, e41, e50, e51, e60, e61, e70, e71, e80, e81⟩ := idx_facts t
  have hy0 : (y 0).val < 400 := (y 0).isLt
  refine (block_apply V c t y).trans ?_
  exact blkFun_eq V c t y _ _
    (by show win2_8.index t (0 : Fin 2) * 400 + 1 * (y 0).val = 400 * t.val + (y 0).val; rw [e80]; omega)
    (by show win2_8.index t (1 : Fin 2) * 256 + 1 * (y 1).val = (y 1).val; rw [e81]; omega)

/-- An index of the array is in point `t`'s block iff each coordinate is in the block's range on its axis. -/
theorem mem_blk (t : Fin cfg2.N) (i : S10000x256.Idx) :
    i ∈ ((cfg2.win 8).blk t).view.set ↔ ∀ a : Fin 2, win2_8.index t a * S400x256.size a ≤ (i a).val ∧ (i a).val < win2_8.index t a * S400x256.size a + S400x256.size a := by
  show i ∈ ((View.whole main_v7).slice (win2_8.rect t)).set ↔ _
  rw [View.set_slice_whole, Rect.mem_set_unit]
  exact Iff.rfl

/-- THE OUTPUT ARRAY after the region: the fused layer of the arrays as the region finds them, entry by entry. -/
theorem fused_final (c : Dev nD) (n : Fin 10000) (d : Fin 256) :
    ((dat (F := Ideal) V c).arrAt 8 cfg2.N : S10000x256.Idx → EReal) (ValueIdx.ix2 n d)
      = Cert.Spec.fused3 (Cert.Spec.rd2 (V c main_arg0)) (Cert.Spec.relu (Cert.Spec.mm (Cert.Spec.rd2 (V c main_arg1)) (Cert.Spec.lin (Cert.Spec.rd2 (V c main_arg0)) (Cert.Spec.rd2 (V c main_arg4)) (Cert.Spec.rdRow (V c main_v0))))) (Cert.Spec.rd2 (V c main_v6)) (Cert.Spec.rd2 (V c main_arg10)) (Cert.Spec.rdRow (V c main_v3)) n d := by
  have hn : n.val < 10000 := n.isLt
  let t : Fin cfg2.N := ⟨n.val / 400, by rw [show cfg2.N = 25 from N_2]; omega⟩
  obtain ⟨e00, e01, e10, e11, e20, e21, e30, e31, e40, e41, e50, e51, e60, e61, e70, e71, e80, e81⟩ := idx_facts t
  have ht : t.val = n.val / 400 := rfl
  exact (dat (F := Ideal) V c).arrAt_apply_of_mem 8 (Gfin V c) (fun t _ => flushed_eq V c t) cfg2.N t (ix2 n d) t.isLt (flush2_8 t)
    (by
      rw [mem_blk]
      intro a
      match a with
      | ⟨0, _⟩ => show win2_8.index t (0 : Fin 2) * 400 ≤ n.val ∧ n.val < win2_8.index t (0 : Fin 2) * 400 + 400; rw [e80, ht]; omega
      | ⟨1, _⟩ => show win2_8.index t (1 : Fin 2) * 256 ≤ d.val ∧ d.val < win2_8.index t (1 : Fin 2) * 256 + 256; rw [e81]; have := d.isLt; omega)

end Cert.KernelIdeal.Reg2

end
-- ==== Proof.Regroup.lean ====
/-
  Regrouping a sum over 2000 terms as five sums over 400 terms each. Addition on the extended reals is
  commutative and associative, so the sum over `Fin 2000` may be reindexed through the bijection
  `(k, r) ↦ 400·k + r` from `Fin 5 × Fin 400` and then split by the first coordinate; no finiteness
  of the entries is needed.
-/
import proofs.«172434_g28836410425910_retrytranche2_620_32_alg».proof.Proof.Spec

noncomputable section

namespace Cert.Spec

/-- A sum over `Fin 2000` is the sum over the pairs `(k, r)` of the term at row `400·k + r`. -/
theorem sum_2000_eq_sum_prod (f : Fin 2000 → EReal) :
    ∑ j : Fin 2000, f j = ∑ p : Fin 5 × Fin 400, f (row5 p.1 p.2) := by
  refine (Fintype.sum_equiv (finProdFinEquiv (m := 5) (n := 400)) _ _ ?_).symm
  intro p
  congr 1
  apply Fin.ext
  simp only [row5, finProdFinEquiv, Equiv.coe_fn_mk]
  omega

/-- A sum over `Fin 2000` is the sum of its five blocks of 400 terms, added from the left. -/
theorem sum_2000_eq_five (f : Fin 2000 → EReal) :
    ∑ j : Fin 2000, f j =
      ∑ r : Fin 400, f (row5 0 r) + ∑ r : Fin 400, f (row5 1 r) + ∑ r : Fin 400, f (row5 2 r)
        + ∑ r : Fin 400, f (row5 3 r) + ∑ r : Fin 400, f (row5 4 r) := by
  rw [sum_2000_eq_sum_prod, Fintype.sum_prod_type, Fin.sum_univ_five]

/-- The five partial products over 400 terms, added from the left, are the whole product over 2000 terms. -/
theorem acc5_eq_mm (HG : Fin 10000 → Fin 2000 → EReal) (z : Fin 2000 → Fin 256 → EReal) :
    acc5 (fun h n => HG n h) z = mm HG z := by
  funext n d
  simp only [acc5, part, mm]
  exact (sum_2000_eq_five (fun j => HG n j * z j d)).symm

end Cert.Spec

end
-- ==== Proof.Values.lean ====
/-
  What the program's two results hold, as functions of the launch arrays, at the ideal instance: following the
  buffers through the host operations (the bias vectors as rows, the incidence matrix transposed) and the three
  regions gives hyper_emb = relu (HH · (x·W1 + b1)) and fused = [x | gnn | hgn] · Wm + bm with
  gnn = relu (GG · (x·Wg + bg)), hgn = relu (HG · (hyper_emb·W2 + b2)); the five partial products the second
  region adds up are the one product with HG.
-/
import proofs.«172434_g28836410425910_retrytranche2_620_32_alg».proof.Proof.Asm
import proofs.«172434_g28836410425910_retrytranche2_620_32_alg».proof.Proof.Reg0Val
import proofs.«172434_g28836410425910_retrytranche2_620_32_alg».proof.Proof.Reg1Val
import proofs.«172434_g28836410425910_retrytranche2_620_32_alg».proof.Proof.Reg2Val
import proofs.«172434_g28836410425910_retrytranche2_620_32_alg».proof.Proof.Regroup
import Idealize.ShloMosaic.Lib.ValueLayout
import Idealize.ShloMosaic.Lib.Pipeline.Value
import Idealize.ShloMosaic.Lib.StableHlo.Run

noncomputable section

namespace Cert.KernelIdeal.Values

open Cert.KernelIdeal Cert.KernelIdeal.Gen Cert.KernelIdeal.Asm Cert.Spec
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## The launch arrays as functions of their coordinates -/

abbrev X : Fin 10000 → Fin 256 → EReal := rd2 (m ((c : Thread nD τ).loc main_arg0) : S10000x256.Idx → EReal)
abbrev GG : Fin 10000 → Fin 10000 → EReal := rd2 (m ((c : Thread nD τ).loc main_arg1) : S10000x10000.Idx → EReal)
abbrev HH : Fin 2000 → Fin 10000 → EReal := rd2 (m ((c : Thread nD τ).loc main_arg2) : S2000x10000.Idx → EReal)
abbrev HG : Fin 10000 → Fin 2000 → EReal := rd2 (m ((c : Thread nD τ).loc main_arg3) : S10000x2000.Idx → EReal)
abbrev Wg : Fin 256 → Fin 256 → EReal := rd2 (m ((c : Thread nD τ).loc main_arg4) : S256x256.Idx → EReal)
abbrev bg : Fin 256 → EReal := rd1 (m ((c : Thread nD τ).loc main_arg5) : S256.Idx → EReal)
abbrev W1m : Fin 256 → Fin 256 → EReal := rd2 (m ((c : Thread nD τ).loc main_arg6) : S256x256.Idx → EReal)
abbrev b1 : Fin 256 → EReal := rd1 (m ((c : Thread nD τ).loc main_arg7) : S256.Idx → EReal)
abbrev W2m : Fin 256 → Fin 256 → EReal := rd2 (m ((c : Thread nD τ).loc main_arg8) : S256x256.Idx → EReal)
abbrev b2 : Fin 256 → EReal := rd1 (m ((c : Thread nD τ).loc main_arg9) : S256.Idx → EReal)
abbrev Wm : Fin 768 → Fin 256 → EReal := rd2 (m ((c : Thread nD τ).loc main_arg10) : S768x256.Idx → EReal)
abbrev bm : Fin 256 → EReal := rd1 (m ((c : Thread nD τ).loc main_arg11) : S256.Idx → EReal)

/-- hyper_emb. -/
def heK : Fin 2000 → Fin 256 → EReal := relu (mm (HH m c) (lin (X m c) (W1m m c) (b1 m c)))
/-- z = hyper_emb · W2 + b2. -/
def zK : Fin 2000 → Fin 256 → EReal := lin (heK m c) (W2m m c) (b2 m c)
/-- hgnn_emb. -/
def hgnK : Fin 10000 → Fin 256 → EReal := relu (mm (HG m c) (zK m c))
/-- gnn_emb. -/
def gnnK : Fin 10000 → Fin 256 → EReal := relu (mm (GG m c) (lin (X m c) (Wg m c) (bg m c)))
/-- fused_emb. -/
def fusedK : Fin 10000 → Fin 256 → EReal := fused3 (X m c) (gnnK m c) (hgnK m c) (Wm m c) (bm m c)

/-! ## The host operations' results -/

theorem row_of_vec (x : S256.Idx → EReal) : rdRow (shapeCast S1x256 x shapeCasts_S256_S1x256 : S1x256.Idx → EReal) = rd1 x := by
  funext d
  exact shapeCast_a_1a_apply x shapeCasts_S256_S1x256 0 d

theorem V1_v0 : (W1 m ρ c (Proc.devRef .tc main_v0) : S1x256.Idx → EReal) = shapeCast S1x256 (m ((c : Thread nD τ).loc main_arg5)) shapeCasts_S256_S1x256 := by
  show StableHlo.after hostOps0 (fun b => m (c, b)) (Proc.devRef .tc main_v0) = _
  after_results <;> rfl
theorem V1_v1 : (W1 m ρ c (Proc.devRef .tc main_v1) : S1x256.Idx → EReal) = shapeCast S1x256 (m ((c : Thread nD τ).loc main_arg7)) shapeCasts_S256_S1x256 := by
  show StableHlo.after hostOps0 (fun b => m (c, b)) (Proc.devRef .tc main_v1) = _
  after_results <;> rfl
theorem V1_v2 : (W1 m ρ c (Proc.devRef .tc main_v2) : S1x256.Idx → EReal) = shapeCast S1x256 (m ((c : Thread nD τ).loc main_arg9)) shapeCasts_S256_S1x256 := by
  show StableHlo.after hostOps0 (fun b => m (c, b)) (Proc.devRef .tc main_v2) = _
  after_results <;> rfl
theorem V1_v3 : (W1 m ρ c (Proc.devRef .tc main_v3) : S1x256.Idx → EReal) = shapeCast S1x256 (m ((c : Thread nD τ).loc main_arg11)) shapeCasts_S256_S1x256 := by
  show StableHlo.after hostOps0 (fun b => m (c, b)) (Proc.devRef .tc main_v3) = _
  after_results <;> rfl
theorem V1_v4 : (W1 m ρ c (Proc.devRef .tc main_v4) : S2000x10000.Idx → EReal) = transpose S2000x10000 [1, 0] (m ((c : Thread nD τ).loc main_arg3)) transposes_S10000x2000_S2000x10000_1_0 := by
  show StableHlo.after hostOps0 (fun b => m (c, b)) (Proc.devRef .tc main_v4) = _
  after_results <;> rfl
theorem V1_v4_rd : rd2 (W1 m ρ c (Proc.devRef .tc main_v4) : S2000x10000.Idx → EReal) = fun h n => HG m c n h := by
  funext h n
  unfold rd2
  rw [V1_v4]
  exact transpose_ix2_apply _ _ h n

/-! ## The first region's results: hyper_emb and z -/

theorem he_at (h : Fin 2000) (d : Fin 256) :
    (W4 m ρ c (Proc.devRef .tc main_v5_0) : S2000x256.Idx → EReal) (ix2 h d) = heK m c h d := by
  rw [W4_main_v5_0 m ρ c]
  refine (Reg0.he_final (V1 m ρ) c h d).trans ?_
  unfold Reg0.heSpec heK
  show relu (mm (rd2 (W1 m ρ c (Proc.devRef .tc main_arg2))) (lin (rd2 (W1 m ρ c (Proc.devRef .tc main_arg0))) (rd2 (W1 m ρ c (Proc.devRef .tc main_arg6))) (rdRow (W1 m ρ c (Proc.devRef .tc main_v1))))) h d = _
  rw [W1_of m ρ c main_arg2 (by decide), W1_of m ρ c main_arg0 (by decide), W1_of m ρ c main_arg6 (by decide), V1_v1 m ρ c, row_of_vec]

theorem z_at : rd2 (W2 m ρ c (Proc.devRef .tc main_v5_1) : S2000x256.Idx → EReal) = zK m c := by
  funext h d
  unfold rd2
  rw [W2_arr m ρ c 7]
  refine (Reg0.z_final (V1 m ρ) c h d).trans ?_
  unfold Reg0.heSpec zK heK
  show lin (relu (mm (rd2 (W1 m ρ c (Proc.devRef .tc main_arg2))) (lin (rd2 (W1 m ρ c (Proc.devRef .tc main_arg0))) (rd2 (W1 m ρ c (Proc.devRef .tc main_arg6))) (rdRow (W1 m ρ c (Proc.devRef .tc main_v1))))))
    (rd2 (W1 m ρ c (Proc.devRef .tc main_arg8))) (rdRow (W1 m ρ c (Proc.devRef .tc main_v2))) h d = _
  rw [W1_of m ρ c main_arg2 (by decide), W1_of m ρ c main_arg0 (by decide), W1_of m ρ c main_arg6 (by decide), W1_of m ρ c main_arg8 (by decide),
    V1_v1 m ρ c, V1_v2 m ρ c, row_of_vec, row_of_vec]

/-! ## The second region's result: hgnn_emb -/

theorem hgt_at : rd2 (W2 m ρ c (Proc.devRef .tc main_v4) : S2000x10000.Idx → EReal) = fun h n => HG m c n h := by
  rw [W2_of_ne m ρ c main_v4 (by decide)]
  exact V1_v4_rd m ρ c

theorem hgn_at : rd2 (W3 m ρ c (Proc.devRef .tc main_v6) : S10000x256.Idx → EReal) = hgnK m c := by
  funext n d
  unfold rd2
  rw [W3_arr m ρ c 2]
  refine (Reg1.hgn_final (V2 m ρ) c n d).trans ?_
  show max (acc5 (rd2 (W2 m ρ c (Proc.devRef .tc main_v4))) (rd2 (W2 m ρ c (Proc.devRef .tc main_v5_1))) n d) 0 = _
  rw [hgt_at m ρ c, z_at m ρ c, acc5_eq_mm]
  rfl

/-! ## The third region's result: fused_emb -/

theorem W3_arg (b : Ref sig .tc) (hb : b ≠ main_v7) (h4 : W4 m ρ c (Proc.devRef .tc b) = m ((c : Thread nD τ).loc b)) :
    W3 m ρ c (Proc.devRef .tc b) = m ((c : Thread nD τ).loc b) :=
  (W4_of_ne m ρ c b hb).symm.trans h4

theorem W3_v0 : (W3 m ρ c (Proc.devRef .tc main_v0) : S1x256.Idx → EReal) = shapeCast S1x256 (m ((c : Thread nD τ).loc main_arg5)) shapeCasts_S256_S1x256 :=
  (W3_of_ne m ρ c main_v0 (by decide)).trans ((W2_of_ne m ρ c main_v0 (by decide)).trans (V1_v0 m ρ c))
theorem W3_v3 : (W3 m ρ c (Proc.devRef .tc main_v3) : S1x256.Idx → EReal) = shapeCast S1x256 (m ((c : Thread nD τ).loc main_arg11)) shapeCasts_S256_S1x256 :=
  (W3_of_ne m ρ c main_v3 (by decide)).trans ((W2_of_ne m ρ c main_v3 (by decide)).trans (V1_v3 m ρ c))

theorem fused_at (n : Fin 10000) (d : Fin 256) :
    (W4 m ρ c (Proc.devRef .tc main_v7) : S10000x256.Idx → EReal) (ix2 n d) = fusedK m c n d := by
  rw [W4_out m ρ c]
  refine (Reg2.fused_final (V3 m ρ) c n d).trans ?_
  unfold fusedK gnnK
  show fused3 (rd2 (W3 m ρ c (Proc.devRef .tc main_arg0)))
      (relu (mm (rd2 (W3 m ρ c (Proc.devRef .tc main_arg1))) (lin (rd2 (W3 m ρ c (Proc.devRef .tc main_arg0))) (rd2 (W3 m ρ c (Proc.devRef .tc main_arg4))) (rdRow (W3 m ρ c (Proc.devRef .tc main_v0))))))
      (rd2 (W3 m ρ c (Proc.devRef .tc main_v6))) (rd2 (W3 m ρ c (Proc.devRef .tc main_arg10))) (rdRow (W3 m ρ c (Proc.devRef .tc main_v3))) n d = _
  rw [W3_arg m ρ c main_arg0 (by decide) (W4_main_arg0 m ρ c), W3_arg m ρ c main_arg1 (by decide) (W4_main_arg1 m ρ c),
    W3_arg m ρ c main_arg4 (by decide) (W4_main_arg4 m ρ c), W3_arg m ρ c main_arg10 (by decide) (W4_main_arg10 m ρ c),
    W3_v0 m ρ c, W3_v3 m ρ c, row_of_vec, row_of_vec, hgn_at m ρ c]

end Cert.KernelIdeal.Values

end
-- ==== Proof.RefSide.lean ====
/-
  The reference computation, read entry by entry over the extended reals.

  Each stage of the reference is read at an index `(n, d)` and identified with the corresponding
  expression of the specification: a dense layer `x·W + b`, a product with an adjacency matrix, the
  rectifier `max · 0`. The last stage multiplies the concatenation `[x | gnn | hgn]` (768 columns) with
  a 768-row matrix; the sum over the 768 columns splits into the three sums over the 256 columns of each
  piece, each against the matching band of 256 rows of the matrix. Addition on the extended reals is
  commutative and associative, so the split needs no finiteness of the entries.
-/
import proofs.«172434_g28836410425910_retrytranche2_620_32_alg».proof.Proof.Gen.ReferenceIdeal.Read
import proofs.«172434_g28836410425910_retrytranche2_620_32_alg».proof.Proof.Spec

noncomputable section

namespace Cert.RefSide

open Cert.ReferenceIdeal Cert.ReferenceIdeal.Read Cert.Spec Idealize.ShloMosaic

/-! ## Index equations: the operand indices of each product and bias at `(n, d)` -/

theorem lidx_v0 (n : Fin 10000) (d : Fin 256) (k : Fin 256) :
    lidx_main_v0 (ValueIdx.ix2 n d) k = ValueIdx.ix2 n k :=
  funext fun a => Fin.ext (by match a with | ⟨0, _⟩ => rfl | ⟨1, _⟩ => rfl)
theorem ridx_v0 (n : Fin 10000) (d : Fin 256) (k : Fin 256) :
    ridx_main_v0 (ValueIdx.ix2 n d) k = ValueIdx.ix2 k d :=
  funext fun a => Fin.ext (by match a with | ⟨0, _⟩ => rfl | ⟨1, _⟩ => rfl)

theorem lidx_v4 (n : Fin 10000) (d : Fin 256) (k : Fin 10000) :
    lidx_main_v4 (ValueIdx.ix2 n d) k = ValueIdx.ix2 n k :=
  funext fun a => Fin.ext (by match a with | ⟨0, _⟩ => rfl | ⟨1, _⟩ => rfl)
theorem ridx_v4 (n : Fin 10000) (d : Fin 256) (k : Fin 10000) :
    ridx_main_v4 (ValueIdx.ix2 n d) k = ValueIdx.ix2 k d :=
  funext fun a => Fin.ext (by match a with | ⟨0, _⟩ => rfl | ⟨1, _⟩ => rfl)

theorem lidx_v6 (n : Fin 10000) (d : Fin 256) (k : Fin 256) :
    lidx_main_v6 (ValueIdx.ix2 n d) k = ValueIdx.ix2 n k :=
  funext fun a => Fin.ext (by match a with | ⟨0, _⟩ => rfl | ⟨1, _⟩ => rfl)
theorem ridx_v6 (n : Fin 10000) (d : Fin 256) (k : Fin 256) :
    ridx_main_v6 (ValueIdx.ix2 n d) k = ValueIdx.ix2 k d :=
  funext fun a => Fin.ext (by match a with | ⟨0, _⟩ => rfl | ⟨1, _⟩ => rfl)

theorem lidx_v10 (n : Fin 2000) (d : Fin 256) (k : Fin 10000) :
    lidx_main_v10 (ValueIdx.ix2 n d) k = ValueIdx.ix2 n k :=
  funext fun a => Fin.ext (by match a with | ⟨0, _⟩ => rfl | ⟨1, _⟩ => rfl)
theorem ridx_v10 (n : Fin 2000) (d : Fin 256) (k : Fin 10000) :
    ridx_main_v10 (ValueIdx.ix2 n d) k = ValueIdx.ix2 k d :=
  funext fun a => Fin.ext (by match a with | ⟨0, _⟩ => rfl | ⟨1, _⟩ => rfl)

theorem lidx_v12 (n : Fin 2000) (d : Fin 256) (k : Fin 256) :
    lidx_main_v12 (ValueIdx.ix2 n d) k = ValueIdx.ix2 n k :=
  funext fun a => Fin.ext (by match a with | ⟨0, _⟩ => rfl | ⟨1, _⟩ => rfl)
theorem ridx_v12 (n : Fin 2000) (d : Fin 256) (k : Fin 256) :
    ridx_main_v12 (ValueIdx.ix2 n d) k = ValueIdx.ix2 k d :=
  funext fun a => Fin.ext (by match a with | ⟨0, _⟩ => rfl | ⟨1, _⟩ => rfl)

theorem lidx_v16 (n : Fin 10000) (d : Fin 256) (k : Fin 2000) :
    lidx_main_v16 (ValueIdx.ix2 n d) k = ValueIdx.ix2 n k :=
  funext fun a => Fin.ext (by match a with | ⟨0, _⟩ => rfl | ⟨1, _⟩ => rfl)
theorem ridx_v16 (n : Fin 10000) (d : Fin 256) (k : Fin 2000) :
    ridx_main_v16 (ValueIdx.ix2 n d) k = ValueIdx.ix2 k d :=
  funext fun a => Fin.ext (by match a with | ⟨0, _⟩ => rfl | ⟨1, _⟩ => rfl)

theorem lidx_v19 (n : Fin 10000) (d : Fin 256) (k : Fin 768) :
    lidx_main_v19 (ValueIdx.ix2 n d) k = ValueIdx.ix2 n k :=
  funext fun a => Fin.ext (by match a with | ⟨0, _⟩ => rfl | ⟨1, _⟩ => rfl)
theorem ridx_v19 (n : Fin 10000) (d : Fin 256) (k : Fin 768) :
    ridx_main_v19 (ValueIdx.ix2 n d) k = ValueIdx.ix2 k d :=
  funext fun a => Fin.ext (by match a with | ⟨0, _⟩ => rfl | ⟨1, _⟩ => rfl)

theorem bidx_v2 (n : Fin 10000) (d : Fin 256) :
    idx_main_v1 (idx_main_v2 (ValueIdx.ix2 n d)) = ValueIdx.ix1 d :=
  funext fun a => Fin.ext (by match a with | ⟨0, _⟩ => rfl)

theorem bidx_v8 (n : Fin 10000) (d : Fin 256) :
    idx_main_v7 (idx_main_v8 (ValueIdx.ix2 n d)) = ValueIdx.ix1 d :=
  funext fun a => Fin.ext (by match a with | ⟨0, _⟩ => rfl)

theorem bidx_v14 (n : Fin 2000) (d : Fin 256) :
    idx_main_v13 (idx_main_v14 (ValueIdx.ix2 n d)) = ValueIdx.ix1 d :=
  funext fun a => Fin.ext (by match a with | ⟨0, _⟩ => rfl)

theorem bidx_v21 (n : Fin 10000) (d : Fin 256) :
    idx_main_v20 (idx_main_v21 (ValueIdx.ix2 n d)) = ValueIdx.ix1 d :=
  funext fun a => Fin.ext (by match a with | ⟨0, _⟩ => rfl)

/-! ## The zero the rectifier compares with -/

theorem zero_call0 (i : S10000x256.Idx) : val_main_call0_v0 (F := Ideal) i = 0 := by
  rw [val_main_call0_v0_apply, val_main_call0_cst_apply, Ideal.ofBits_def, Ideal.ofBits_zero_f32]

theorem zero_call1 (i : S2000x256.Idx) : val_main_call1_v0 (F := Ideal) i = 0 := by
  rw [val_main_call1_v0_apply, val_main_call1_cst_apply, Ideal.ofBits_def, Ideal.ofBits_zero_f32]

theorem zero_call2 (i : S10000x256.Idx) : val_main_call2_v0 (F := Ideal) i = 0 := by
  rw [val_main_call2_v0_apply, val_main_call2_cst_apply, Ideal.ofBits_def, Ideal.ofBits_zero_f32]

/-! ## The stages -/

/-- `g = x·Wg + bg`. -/
theorem ref_g0 (x0 : (⟨S10000x256, .f32⟩ : BufTy).Contents (Elt Ideal)) (x4 : (⟨S256x256, .f32⟩ : BufTy).Contents (Elt Ideal)) (x5 : (⟨S256, .f32⟩ : BufTy).Contents (Elt Ideal)) (n : Fin 10000) (d : Fin 256) :
    val_main_v3 (F := Ideal) x0 x4 x5 (ValueIdx.ix2 n d) = lin (rd2 x0) (rd2 x4) (rd1 x5) n d := by
  rw [val_main_v3_apply, val_main_v0_apply, val_main_v2_apply, val_main_v1_apply, Ideal.addf_def]
  simp only [lidx_v0, ridx_v0, bidx_v2]
  rfl

/-- `gnn = relu (GG·g)`. -/
theorem ref_gnn (x0 : (⟨S10000x256, .f32⟩ : BufTy).Contents (Elt Ideal)) (x1 : (⟨S10000x10000, .f32⟩ : BufTy).Contents (Elt Ideal)) (x4 : (⟨S256x256, .f32⟩ : BufTy).Contents (Elt Ideal)) (x5 : (⟨S256, .f32⟩ : BufTy).Contents (Elt Ideal)) (n : Fin 10000) (d : Fin 256) :
    val_main_v5 (F := Ideal) x0 x1 x4 x5 (ValueIdx.ix2 n d) = relu (mm (rd2 x1) (lin (rd2 x0) (rd2 x4) (rd1 x5))) n d := by
  rw [val_main_v5_apply, val_main_v4_apply, zero_call0, Ideal.maximumf_def]
  simp only [lidx_v4, ridx_v4, ref_g0]
  rfl

/-- `h = x·W1 + b1`. -/
theorem ref_h0 (x0 : (⟨S10000x256, .f32⟩ : BufTy).Contents (Elt Ideal)) (x6 : (⟨S256x256, .f32⟩ : BufTy).Contents (Elt Ideal)) (x7 : (⟨S256, .f32⟩ : BufTy).Contents (Elt Ideal)) (n : Fin 10000) (d : Fin 256) :
    val_main_v9 (F := Ideal) x0 x6 x7 (ValueIdx.ix2 n d) = lin (rd2 x0) (rd2 x6) (rd1 x7) n d := by
  rw [val_main_v9_apply, val_main_v6_apply, val_main_v8_apply, val_main_v7_apply, Ideal.addf_def]
  simp only [lidx_v6, ridx_v6, bidx_v8]
  rfl

/-- The hyperedge embedding `he = relu (HH·(x·W1 + b1))`, as a function of its coordinates. -/
abbrev heR (x0 : (⟨S10000x256, .f32⟩ : BufTy).Contents (Elt Ideal)) (x2 : (⟨S2000x10000, .f32⟩ : BufTy).Contents (Elt Ideal)) (x6 : (⟨S256x256, .f32⟩ : BufTy).Contents (Elt Ideal)) (x7 : (⟨S256, .f32⟩ : BufTy).Contents (Elt Ideal)) : Fin 2000 → Fin 256 → EReal :=
  relu (mm (rd2 x2) (lin (rd2 x0) (rd2 x6) (rd1 x7)))

/-- `he = relu (HH·h)`: the second result of the reference. -/
theorem ref_he (x0 : (⟨S10000x256, .f32⟩ : BufTy).Contents (Elt Ideal)) (x2 : (⟨S2000x10000, .f32⟩ : BufTy).Contents (Elt Ideal)) (x6 : (⟨S256x256, .f32⟩ : BufTy).Contents (Elt Ideal)) (x7 : (⟨S256, .f32⟩ : BufTy).Contents (Elt Ideal)) (h : Fin 2000) (d : Fin 256) :
    val_main_v11 (F := Ideal) x0 x2 x6 x7 (ValueIdx.ix2 h d) = heR x0 x2 x6 x7 h d := by
  rw [val_main_v11_apply, val_main_v10_apply, zero_call1, Ideal.maximumf_def]
  simp only [lidx_v10, ridx_v10, ref_h0]
  rfl

/-- `z = he·W2 + b2`. -/
theorem ref_z (x0 : (⟨S10000x256, .f32⟩ : BufTy).Contents (Elt Ideal)) (x2 : (⟨S2000x10000, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) (x9 : (⟨S256, .f32⟩ : BufTy).Contents (Elt Ideal)) (h : Fin 2000) (d : Fin 256) :
    val_main_v15 (F := Ideal) x0 x2 x6 x7 x8 x9 (ValueIdx.ix2 h d) = lin (heR x0 x2 x6 x7) (rd2 x8) (rd1 x9) h d := by
  rw [val_main_v15_apply, val_main_v12_apply, val_main_v14_apply, val_main_v13_apply, Ideal.addf_def]
  simp only [lidx_v12, ridx_v12, bidx_v14, ref_he]
  rfl

/-- `hgn = relu (HG·z)`. -/
theorem ref_hgn (x0 : (⟨S10000x256, .f32⟩ : BufTy).Contents (Elt Ideal)) (x2 : (⟨S2000x10000, .f32⟩ : BufTy).Contents (Elt Ideal)) (x3 : (⟨S10000x2000, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) (x9 : (⟨S256, .f32⟩ : BufTy).Contents (Elt Ideal)) (n : Fin 10000) (d : Fin 256) :
    val_main_v17 (F := Ideal) x0 x2 x3 x6 x7 x8 x9 (ValueIdx.ix2 n d) = relu (mm (rd2 x3) (lin (heR x0 x2 x6 x7) (rd2 x8) (rd1 x9))) n d := by
  rw [val_main_v17_apply, val_main_v16_apply, zero_call2, Ideal.maximumf_def]
  simp only [lidx_v16, ridx_v16, ref_z]
  rfl

/-! ## The concatenation `[x | gnn | hgn]` at a column of each piece -/

/-- Columns `0 … 255` of the concatenation are `x`. -/
theorem ref_cat0 (x0 : (⟨S10000x256, .f32⟩ : BufTy).Contents (Elt Ideal)) (x1 : (⟨S10000x10000, .f32⟩ : BufTy).Contents (Elt Ideal)) (x2 : (⟨S2000x10000, .f32⟩ : BufTy).Contents (Elt Ideal)) (x3 : (⟨S10000x2000, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) (x9 : (⟨S256, .f32⟩ : BufTy).Contents (Elt Ideal)) (n : Fin 10000) (k : Fin 256) :
    val_main_v18 (F := Ideal) x0 x1 x2 x3 x4 x5 x6 x7 x8 x9 (ValueIdx.ix2 n (⟨0 + k.val, by have := k.isLt; omega⟩ : Fin 768)) = rd2 x0 n k := by
  unfold val_main_v18
  exact concatenate_apply_piece (1 : Fin S10000x768.rank) _ _ _ 0 (by simp) S10000x256 x0 rfl rfl 0 rfl (ValueIdx.ix2 n k)
    (fun b hb => by match b with | ⟨0, _⟩ => rfl | ⟨1, _⟩ => exact absurd rfl hb) rfl

/-- Columns `256 … 511` of the concatenation are `gnn`. -/
theorem ref_cat1 (x0 : (⟨S10000x256, .f32⟩ : BufTy).Contents (Elt Ideal)) (x1 : (⟨S10000x10000, .f32⟩ : BufTy).Contents (Elt Ideal)) (x2 : (⟨S2000x10000, .f32⟩ : BufTy).Contents (Elt Ideal)) (x3 : (⟨S10000x2000, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) (x9 : (⟨S256, .f32⟩ : BufTy).Contents (Elt Ideal)) (n : Fin 10000) (k : Fin 256) :
    val_main_v18 (F := Ideal) x0 x1 x2 x3 x4 x5 x6 x7 x8 x9 (ValueIdx.ix2 n (⟨256 + k.val, by have := k.isLt; omega⟩ : Fin 768))
      = relu (mm (rd2 x1) (lin (rd2 x0) (rd2 x4) (rd1 x5))) n k := by
  rw [← ref_gnn]
  unfold val_main_v18
  exact concatenate_apply_piece (1 : Fin S10000x768.rank) _ _ _ 1 (by simp) S10000x256 (val_main_v5 (F := Ideal) x0 x1 x4 x5) rfl rfl 256 rfl (ValueIdx.ix2 n k)
    (fun b hb => by match b with | ⟨0, _⟩ => rfl | ⟨1, _⟩ => exact absurd rfl hb) rfl

/-- Columns `512 … 767` of the concatenation are `hgn`. -/
theorem ref_cat2 (x0 : (⟨S10000x256, .f32⟩ : BufTy).Contents (Elt Ideal)) (x1 : (⟨S10000x10000, .f32⟩ : BufTy).Contents (Elt Ideal)) (x2 : (⟨S2000x10000, .f32⟩ : BufTy).Contents (Elt Ideal)) (x3 : (⟨S10000x2000, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) (x9 : (⟨S256, .f32⟩ : BufTy).Contents (Elt Ideal)) (n : Fin 10000) (k : Fin 256) :
    val_main_v18 (F := Ideal) x0 x1 x2 x3 x4 x5 x6 x7 x8 x9 (ValueIdx.ix2 n (⟨512 + k.val, by have := k.isLt; omega⟩ : Fin 768))
      = relu (mm (rd2 x3) (lin (heR x0 x2 x6 x7) (rd2 x8) (rd1 x9))) n k := by
  rw [← ref_hgn]
  unfold val_main_v18
  exact concatenate_apply_piece (1 : Fin S10000x768.rank) _ _ _ 2 (by simp) S10000x256 (val_main_v17 (F := Ideal) x0 x2 x3 x6 x7 x8 x9) rfl rfl 512 rfl (ValueIdx.ix2 n k)
    (fun b hb => by match b with | ⟨0, _⟩ => rfl | ⟨1, _⟩ => exact absurd rfl hb) rfl

/-! ## A sum over 768 terms as three sums over 256 terms -/

theorem sum_768 (f : Fin 768 → EReal) :
    ∑ k : Fin 768, f k
      = ∑ k : Fin 256, f ⟨0 + k.val, by have := k.isLt; omega⟩
        + ∑ k : Fin 256, f ⟨256 + k.val, by have := k.isLt; omega⟩
        + ∑ k : Fin 256, f ⟨512 + k.val, by have := k.isLt; omega⟩ := by
  have e1 : ∑ k : Fin 768, f k
      = ∑ i : Fin (256 + 256), f (Fin.castAdd 256 i) + ∑ i : Fin 256, f (Fin.natAdd (256 + 256) i) :=
    Fin.sum_univ_add (a := 256 + 256) (b := 256) f
  have e2 : ∑ i : Fin (256 + 256), f (Fin.castAdd 256 i)
      = ∑ i : Fin 256, f (Fin.castAdd 256 (Fin.castAdd 256 i))
        + ∑ i : Fin 256, f (Fin.castAdd 256 (Fin.natAdd 256 i)) :=
    Fin.sum_univ_add (a := 256) (b := 256) fun i => f (Fin.castAdd 256 i)
  rw [e1, e2]
  refine congrArg₂ (· + ·) (congrArg₂ (· + ·) ?_ ?_) ?_
  · exact Finset.sum_congr rfl fun k _ => congrArg f (Fin.ext (by simp <;> omega))
  · exact Finset.sum_congr rfl fun k _ => congrArg f (Fin.ext (by simp <;> omega))
  · exact Finset.sum_congr rfl fun k _ => congrArg f (Fin.ext (by simp <;> omega))

/-! ## The fused output -/

/-- `fused = [x | gnn | hgn]·Wm + bm`: the first result of the reference, as three products with the bands of `Wm`. -/
theorem ref_fused (x0 : (⟨S10000x256, .f32⟩ : BufTy).Contents (Elt Ideal)) (x1 : (⟨S10000x10000, .f32⟩ : BufTy).Contents (Elt Ideal)) (x2 : (⟨S2000x10000, .f32⟩ : BufTy).Contents (Elt Ideal)) (x3 : (⟨S10000x2000, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) (x9 : (⟨S256, .f32⟩ : BufTy).Contents (Elt Ideal)) (x10 : (⟨S768x256, .f32⟩ : BufTy).Contents (Elt Ideal)) (x11 : (⟨S256, .f32⟩ : BufTy).Contents (Elt Ideal)) (n : Fin 10000) (d : Fin 256) :
    val_main_v22 (F := Ideal) x0 x1 x2 x3 x4 x5 x6 x7 x8 x9 x10 x11 (ValueIdx.ix2 n d)
      = fused3 (rd2 x0) (relu (mm (rd2 x1) (lin (rd2 x0) (rd2 x4) (rd1 x5)))) (relu (mm (rd2 x3) (lin (heR x0 x2 x6 x7) (rd2 x8) (rd1 x9)))) (rd2 x10) (rd1 x11) n d := by
  rw [val_main_v22_apply, val_main_v19_apply, val_main_v21_apply, val_main_v20_apply, Ideal.addf_def]
  simp only [lidx_v19, ridx_v19, bidx_v21]
  rw [sum_768]
  simp only [ref_cat0, ref_cat1, ref_cat2]
  rfl

end Cert.RefSide

end
-- ==== Proof.RefRun.lean ====
/-
  The reference's run, with its two results read entry by entry: the fused output is the specification's
  three-band product plus bias, and the hyperedge embedding is the rectified product with the hyperedge
  incidence; the twelve arguments are left as they were.
-/
import proofs.«172434_g28836410425910_retrytranche2_620_32_alg».proof.Proof.Gen.ReferenceIdeal.Run
import proofs.«172434_g28836410425910_retrytranche2_620_32_alg».proof.Proof.Gen.ReferenceIdeal.Read
import proofs.«172434_g28836410425910_retrytranche2_620_32_alg».proof.Proof.RefSide
import proofs.«172434_g28836410425910_retrytranche2_620_32_alg».proof.Proof.Spec

noncomputable section

namespace Cert.RefRun

open Cert.ReferenceIdeal Cert.Spec Idealize.ShloMosaic Idealize.ShloMosaic.TcCoe Idealize.SL.Sem

/-! ## The twelve arguments as the launch memory holds them on core `c` -/

variable (m : (ℓ : Loc Cert.ReferenceIdeal.nD Cert.ReferenceIdeal.τ Cert.ReferenceIdeal.sig) → Buf (Elt Ideal) ℓ)

abbrev a0 (c : Dev nD) : (⟨S10000x256, .f32⟩ : BufTy).Contents (Elt Ideal) := m ((c.tc : Thread nD τ).loc main_arg0)
abbrev a1 (c : Dev nD) : (⟨S10000x10000, .f32⟩ : BufTy).Contents (Elt Ideal) := m ((c.tc : Thread nD τ).loc main_arg1)
abbrev a2 (c : Dev nD) : (⟨S2000x10000, .f32⟩ : BufTy).Contents (Elt Ideal) := m ((c.tc : Thread nD τ).loc main_arg2)
abbrev a3 (c : Dev nD) : (⟨S10000x2000, .f32⟩ : BufTy).Contents (Elt Ideal) := m ((c.tc : Thread nD τ).loc main_arg3)
abbrev a4 (c : Dev nD) : (⟨S256x256, .f32⟩ : BufTy).Contents (Elt Ideal) := m ((c.tc : Thread nD τ).loc main_arg4)
abbrev a5 (c : Dev nD) : (⟨S256, .f32⟩ : BufTy).Contents (Elt Ideal) := m ((c.tc : Thread nD τ).loc main_arg5)
abbrev a6 (c : Dev nD) : (⟨S256x256, .f32⟩ : BufTy).Contents (Elt Ideal) := m ((c.tc : Thread nD τ).loc main_arg6)
abbrev a7 (c : Dev nD) : (⟨S256, .f32⟩ : BufTy).Contents (Elt Ideal) := m ((c.tc : Thread nD τ).loc main_arg7)
abbrev a8 (c : Dev nD) : (⟨S256x256, .f32⟩ : BufTy).Contents (Elt Ideal) := m ((c.tc : Thread nD τ).loc main_arg8)
abbrev a9 (c : Dev nD) : (⟨S256, .f32⟩ : BufTy).Contents (Elt Ideal) := m ((c.tc : Thread nD τ).loc main_arg9)
abbrev a10 (c : Dev nD) : (⟨S768x256, .f32⟩ : BufTy).Contents (Elt Ideal) := m ((c.tc : Thread nD τ).loc main_arg10)
abbrev a11 (c : Dev nD) : (⟨S256, .f32⟩ : BufTy).Contents (Elt Ideal) := m ((c.tc : Thread nD τ).loc main_arg11)

/-- On every core, from any memory with zero counters, every weakly fair execution of the reference terminates with the
    fused output at the specification's value at every entry, the hyperedge embedding at its value at every entry, and the
    arguments unchanged. -/
theorem ref_run (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      (∀ (n : Fin 10000) (d : Fin 256),
        (r.2.mem ((c.tc : Thread Cert.ReferenceIdeal.nD Cert.ReferenceIdeal.τ).loc Cert.ReferenceIdeal.main_v22) : Cert.ReferenceIdeal.S10000x256.Idx → EReal) (ValueIdx.ix2 n d)
          = Cert.Spec.fused3 (rd2 (a0 m c)) (relu (mm (rd2 (a1 m c)) (lin (rd2 (a0 m c)) (rd2 (a4 m c)) (rd1 (a5 m c)))))
              (relu (mm (rd2 (a3 m c)) (lin (Cert.RefSide.heR (a0 m c) (a2 m c) (a6 m c) (a7 m c)) (rd2 (a8 m c)) (rd1 (a9 m c)))))
              (rd2 (a10 m c)) (rd1 (a11 m c)) n d)
      ∧ (∀ (h : Fin 2000) (d : Fin 256),
        (r.2.mem ((c.tc : Thread Cert.ReferenceIdeal.nD Cert.ReferenceIdeal.τ).loc Cert.ReferenceIdeal.main_v11) : Cert.ReferenceIdeal.S2000x256.Idx → EReal) (ValueIdx.ix2 h d)
          = Cert.RefSide.heR (a0 m c) (a2 m c) (a6 m c) (a7 m c) h d)
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)) :=
  (θ_run _ _ _).mono (fun r h c =>
    ⟨fun n d => (congrFun ((h c).1.trans
        (Cert.ReferenceIdeal.Read.val_main_v22_eq (F := Ideal) (a0 m c) (a1 m c) (a2 m c) (a3 m c) (a4 m c) (a5 m c) (a6 m c) (a7 m c) (a8 m c) (a9 m c) (a10 m c) (a11 m c)))
        (ValueIdx.ix2 n d)).trans
        (Cert.RefSide.ref_fused (a0 m c) (a1 m c) (a2 m c) (a3 m c) (a4 m c) (a5 m c) (a6 m c) (a7 m c) (a8 m c) (a9 m c) (a10 m c) (a11 m c) n d),
     fun h' d => (congrFun ((h c).2.1.trans
        (Cert.ReferenceIdeal.Read.val_main_v11_eq (F := Ideal) (a0 m c) (a2 m c) (a6 m c) (a7 m c))) (ValueIdx.ix2 h' d)).trans
        (Cert.RefSide.ref_he (a0 m c) (a2 m c) (a6 m c) (a7 m c) h' d),
     (h c).2.2⟩)
    (Cert.ReferenceIdeal.Value.run (F := Ideal) m ρ)

end Cert.RefRun

end
-- ==== Proof.lean ====
/-
  The road layer: a kernel in three pipelined regions against its plain reference, over the extended reals.

    hyper_emb = relu (HH · (x·W1 + b1)),   z = hyper_emb·W2 + b2,   hgnn = relu (HG · z),
    gnn = relu (GG · (x·Wg + bg)),         fused = [x | gnn | hgnn] · Wm + bm.

  The first region projects x once into a scratch buffer and emits hyper_emb and z block by block; the second adds
  the five partial products of HGᵀ's row blocks with z's into an accumulator and rectifies it at the last step; the
  third projects x once more, and for each block of 400 rows forms gnn from two half-blocks of GG and the fused
  output as three products with the three row bands of Wm. At the ideal instance a change of float format is the
  identity and a matrix product into a zero accumulator is a plain sum, so each region's output is the function
  above of its inputs; sums over the extended reals regroup freely, so the five partial products are the one
  product with HG and the three band products are the product with the concatenation. Nothing here needs the
  inputs to be finite. The frames (every execution terminates, nothing faults, the arguments end unchanged) come
  from the same run of the three regions, stated for any float instance.
-/
import proofs.«172434_g28836410425910_retrytranche2_620_32_alg».proof.Defs
import proofs.«172434_g28836410425910_retrytranche2_620_32_alg».proof.Proof.Gen.Kernel
import proofs.«172434_g28836410425910_retrytranche2_620_32_alg».proof.Proof.Gen.KernelIdeal
import proofs.«172434_g28836410425910_retrytranche2_620_32_alg».proof.Proof.Gen.ReferenceIdeal
import proofs.«172434_g28836410425910_retrytranche2_620_32_alg».proof.Proof.Gen.Pre_finite_inputs
import proofs.«172434_g28836410425910_retrytranche2_620_32_alg».proof.Proof.KAsm
import proofs.«172434_g28836410425910_retrytranche2_620_32_alg».proof.Proof.Asm
import proofs.«172434_g28836410425910_retrytranche2_620_32_alg».proof.Proof.Values
import proofs.«172434_g28836410425910_retrytranche2_620_32_alg».proof.Proof.RefRun
import Idealize.ShloMosaic.Adequacy
import Idealize.ShloMosaic.Init

noncomputable section

namespace Cert.Proof

open Idealize.ShloMosaic Idealize.ShloMosaic.TcCoe Idealize.ShloMosaic.ValueIdx Idealize.SL.Sem Cert.Spec

theorem frame_k : Cert.frame_Kernel := fun m ρ _ => Cert.Kernel.Asm.frame m ρ
theorem frame_ki : Cert.frame_KernelIdeal := fun m ρ _ => Cert.KernelIdeal.Asm.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- Both programs, run from memories that agree on the arguments, end with the same two results: entry by entry
    each is the layer's function of the arguments. -/
theorem algebraic : Cert.algebraic_KernelIdeal_ReferenceIdeal := by
  intro m ρ m' ρ' _ hagree
  refine ⟨fun c => Cert.KernelIdeal.Asm.W4 m ρ c (Proc.devRef .tc Cert.KernelIdeal.main_v7),
    fun c => Cert.KernelIdeal.Asm.W4 m ρ c (Proc.devRef .tc Cert.KernelIdeal.main_v5_0),
    Cert.KernelIdeal.Asm.run_results m ρ, ?_⟩
  refine (θ_run Cert.ReferenceIdeal.defs _ _).mono (fun r h c => ⟨?_, ?_, (h c).2.2⟩) (Cert.RefRun.ref_run m' ρ')
  · show (r.2.mem ((c.tc : Thread Cert.ReferenceIdeal.nD Cert.ReferenceIdeal.τ).loc Cert.ReferenceIdeal.main_v22) : Cert.ReferenceIdeal.S10000x256.Idx → EReal)
      = (Cert.KernelIdeal.Asm.W4 m ρ c (Proc.devRef .tc Cert.KernelIdeal.main_v7) : Cert.KernelIdeal.S10000x256.Idx → EReal)
    funext (i : Cert.ReferenceIdeal.S10000x256.Idx)
    obtain ⟨n, d, rfl⟩ : ∃ (n : Fin 10000) (d : Fin 256), i = ix2 n d := ⟨i 0, i 1, eq_ix2 i⟩
    refine ((h c).1 n d).trans ?_
    refine Eq.trans ?_ (Cert.KernelIdeal.Values.fused_at m ρ c n d).symm
    dsimp only [Cert.RefRun.a0, Cert.RefRun.a1, Cert.RefRun.a2, Cert.RefRun.a3, Cert.RefRun.a4, Cert.RefRun.a5, Cert.RefRun.a6, Cert.RefRun.a7,
      Cert.RefRun.a8, Cert.RefRun.a9, Cert.RefRun.a10, Cert.RefRun.a11]
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2.1,
      (hagree c).2.2.2.2.2.2.2.2.2.2.1, (hagree c).2.2.2.2.2.2.2.2.2.2.2]
    rfl
  · show (r.2.mem ((c.tc : Thread Cert.ReferenceIdeal.nD Cert.ReferenceIdeal.τ).loc Cert.ReferenceIdeal.main_v11) : Cert.ReferenceIdeal.S2000x256.Idx → EReal)
      = (Cert.KernelIdeal.Asm.W4 m ρ c (Proc.devRef .tc Cert.KernelIdeal.main_v5_0) : Cert.KernelIdeal.S2000x256.Idx → EReal)
    funext (i : Cert.ReferenceIdeal.S2000x256.Idx)
    obtain ⟨n, d, rfl⟩ : ∃ (n : Fin 2000) (d : Fin 256), i = ix2 n d := ⟨i 0, i 1, eq_ix2 i⟩
    refine ((h c).2.1 n d).trans ?_
    refine Eq.trans ?_ (Cert.KernelIdeal.Values.he_at m ρ c n d).symm
    dsimp only [Cert.RefRun.a0, Cert.RefRun.a2, Cert.RefRun.a6, Cert.RefRun.a7]
    rw [(hagree c).1, (hagree c).2.2.1, (hagree c).2.2.2.2.2.2.1, (hagree c).2.2.2.2.2.2.2.1]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
